-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7 : Shape := ⟨2, ![16384, 7]⟩
abbrev S16384x2 : Shape := ⟨2, ![16384, 2]⟩
abbrev S6x8 : Shape := ⟨2, ![6, 8]⟩
abbrev S4x8 : Shape := ⟨2, ![4, 8]⟩
abbrev S58x128 : Shape := ⟨2, ![58, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S16384x1 : Shape := ⟨2, ![16384, 1]⟩
abbrev S16384 : Shape := ⟨1, ![16384]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S4x8 : S_.BroadcastsInDim S4x8 (![] : Fin 0 → Fin S4x8.rank)
  reducesTo_S4x8_S_d0_1 : S4x8.ReducesTo [0, 1] S_
  bcast_S_S58x128 : S_.BroadcastsInDim S58x128 (![] : Fin 0 → Fin S58x128.rank)
  reducesTo_S58x128_S_d0_1 : S58x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S16384x7_S16384x1_0_0 : S16384x7.Slices ![0, 0] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  slices_S16384x7_S16384x1_0_1 : S16384x7.Slices ![0, 1] S16384x1
  slices_S16384x7_S16384x1_0_2 : S16384x7.Slices ![0, 2] S16384x1
  slices_S16384x7_S16384x1_0_3 : S16384x7.Slices ![0, 3] S16384x1
  slices_S16384x7_S16384x1_0_4 : S16384x7.Slices ![0, 4] S16384x1
  slices_S16384x7_S16384x1_0_5 : S16384x7.Slices ![0, 5] S16384x1
  slices_S16384x7_S16384x1_0_6 : S16384x7.Slices ![0, 6] S16384x1

variable [Facts]

def fn_part8 {F : FTy → Type} [FloatOps F] (main_v134 : IVec S_ 1) (main_v143 : IVec S16384 1) : IVec S_ 1 :=
  let main_c_46 : IVec S_ 1 := constantI S_ 1 1#1
  let main_v144 : IVec S_ 1 := (fun x v => Host.reduce IntOp.andi x v reducesTo_S16384_S_d0 h_S_) main_v143 main_c_46
  let main_v145 : IVec S_ 1 := andi main_v134 main_v144
  main_v145

def fn_part7 {F : FTy → Type} [FloatOps F] (main_arg0 : IVec S16384x7 32) (main_v123 : IVec S_ 1) (main_v124 : IVec S16384x1 32) : IVec S_ 1 :=
  let main_v125 : IVec S16384 32 := shapeCast S16384 main_v124 shapeCasts_S16384x1_S16384
  let main_c_41 : IVec S_ 32 := constantI S_ 32 0#32
  let main_v126 : IVec S16384 32 := broadcastInDim S16384 ![] bcast_S_S16384 main_c_41
  let main_v127 : IVec S16384 1 := cmpi .sge main_v125 main_v126
  let main_v128 : IVec S16384x1 32 := (extractStridedSlice S16384x1 ![0, 5] · slices_S16384x7_S16384x1_0_5) main_arg0
  let main_v129 : IVec S16384 32 := shapeCast S16384 main_v128 shapeCasts_S16384x1_S16384
  let main_c_42 : IVec S_ 32 := constantI S_ 32 4#32
  let main_v130 : IVec S16384 32 := broadcastInDim S16384 ![] bcast_S_S16384 main_c_42
  let main_v131 : IVec S16384 1 := cmpi .slt main_v129 main_v130
  let main_v132 : IVec S16384 1 := andi main_v127 main_v131
  let main_c_43 : IVec S_ 1 := constantI S_ 1 1#1
  let main_v133 : IVec S_ 1 := (fun x v => Host.reduce IntOp.andi x v reducesTo_S16384_S_d0 h_S_) main_v132 main_c_43
  let main_v134 : IVec S_ 1 := andi main_v123 main_v133
  let main_v135 : IVec S16384x1 32 := (extractStridedSlice S16384x1 ![0, 6] · slices_S16384x7_S16384x1_0_6) main_arg0
  let main_v136 : IVec S16384 32 := shapeCast S16384 main_v135 shapeCasts_S16384x1_S16384
  let main_c_44 : IVec S_ 32 := constantI S_ 32 0#32
  let main_v137 : IVec S16384 32 := broadcastInDim S16384 ![] bcast_S_S16384 main_c_44
  let main_v138 : IVec S16384 1 := cmpi .sge main_v136 main_v137
  let main_v139 : IVec S16384x1 32 := (extractStridedSlice S16384x1 ![0, 6] · slices_S16384x7_S16384x1_0_6) main_arg0
  let main_v140 : IVec S16384 32 := shapeCast S16384 main_v139 shapeCasts_S16384x1_S16384
  let main_c_45 : IVec S_ 32 := constantI S_ 32 4#32
  let main_v141 : IVec S16384 32 := broadcastInDim S16384 ![] bcast_S_S16384 main_c_45
  let main_v142 : IVec S16384 1 := cmpi .slt main_v140 main_v141
  let main_v143 : IVec S16384 1 := andi main_v138 main_v142
  fn_part8 (F := F) main_v134 main_v143

def fn_part6 {F : FTy → Type} [FloatOps F] (main_arg0 : IVec S16384x7 32) (main_v101 : IVec S_ 1) (main_v105 : IVec S16384 1) : IVec S_ 1 :=
  let main_v106 : IVec S16384x1 32 := (extractStridedSlice S16384x1 ![0, 3] · slices_S16384x7_S16384x1_0_3) main_arg0
  let main_v107 : IVec S16384 32 := shapeCast S16384 main_v106 shapeCasts_S16384x1_S16384
  let main_c_36 : IVec S_ 32 := constantI S_ 32 4#32
  let main_v108 : IVec S16384 32 := broadcastInDim S16384 ![] bcast_S_S16384 main_c_36
  let main_v109 : IVec S16384 1 := cmpi .slt main_v107 main_v108
  let main_v110 : IVec S16384 1 := andi main_v105 main_v109
  let main_c_37 : IVec S_ 1 := constantI S_ 1 1#1
  let main_v111 : IVec S_ 1 := (fun x v => Host.reduce IntOp.andi x v reducesTo_S16384_S_d0 h_S_) main_v110 main_c_37
  let main_v112 : IVec S_ 1 := andi main_v101 main_v111
  let main_v113 : IVec S16384x1 32 := (extractStridedSlice S16384x1 ![0, 4] · slices_S16384x7_S16384x1_0_4) main_arg0
  let main_v114 : IVec S16384 32 := shapeCast S16384 main_v113 shapeCasts_S16384x1_S16384
  let main_c_38 : IVec S_ 32 := constantI S_ 32 0#32
  let main_v115 : IVec S16384 32 := broadcastInDim S16384 ![] bcast_S_S16384 main_c_38
  let main_v116 : IVec S16384 1 := cmpi .sge main_v114 main_v115
  let main_v117 : IVec S16384x1 32 := (extractStridedSlice S16384x1 ![0, 4] · slices_S16384x7_S16384x1_0_4) main_arg0
  let main_v118 : IVec S16384 32 := shapeCast S16384 main_v117 shapeCasts_S16384x1_S16384
  let main_c_39 : IVec S_ 32 := constantI S_ 32 6#32
  let main_v119 : IVec S16384 32 := broadcastInDim S16384 ![] bcast_S_S16384 main_c_39
  let main_v120 : IVec S16384 1 := cmpi .slt main_v118 main_v119
  let main_v121 : IVec S16384 1 := andi main_v116 main_v120
  let main_c_40 : IVec S_ 1 := constantI S_ 1 1#1
  let main_v122 : IVec S_ 1 := (fun x v => Host.reduce IntOp.andi x v reducesTo_S16384_S_d0 h_S_) main_v121 main_c_40
  let main_v123 : IVec S_ 1 := andi main_v112 main_v122
  let main_v124 : IVec S16384x1 32 := (extractStridedSlice S16384x1 ![0, 5] · slices_S16384x7_S16384x1_0_5) main_arg0
  fn_part7 (F := F) main_arg0 main_v123 main_v124

def fn_part5 {F : FTy → Type} [FloatOps F] (main_arg0 : IVec S16384x7 32) (main_v79 : IVec S_ 1) (main_v83 : IVec S16384 1) (main_v85 : IVec S16384 32) (main_v86 : IVec S16384 32) : IVec S_ 1 :=
  let main_v87 : IVec S16384 1 := cmpi .slt main_v85 main_v86
  let main_v88 : IVec S16384 1 := andi main_v83 main_v87
  let main_c_31 : IVec S_ 1 := constantI S_ 1 1#1
  let main_v89 : IVec S_ 1 := (fun x v => Host.reduce IntOp.andi x v reducesTo_S16384_S_d0 h_S_) main_v88 main_c_31
  let main_v90 : IVec S_ 1 := andi main_v79 main_v89
  let main_v91 : IVec S16384x1 32 := (extractStridedSlice S16384x1 ![0, 2] · slices_S16384x7_S16384x1_0_2) main_arg0
  let main_v92 : IVec S16384 32 := shapeCast S16384 main_v91 shapeCasts_S16384x1_S16384
  let main_c_32 : IVec S_ 32 := constantI S_ 32 0#32
  let main_v93 : IVec S16384 32 := broadcastInDim S16384 ![] bcast_S_S16384 main_c_32
  let main_v94 : IVec S16384 1 := cmpi .sge main_v92 main_v93
  let main_v95 : IVec S16384x1 32 := (extractStridedSlice S16384x1 ![0, 2] · slices_S16384x7_S16384x1_0_2) main_arg0
  let main_v96 : IVec S16384 32 := shapeCast S16384 main_v95 shapeCasts_S16384x1_S16384
  let main_c_33 : IVec S_ 32 := constantI S_ 32 4#32
  let main_v97 : IVec S16384 32 := broadcastInDim S16384 ![] bcast_S_S16384 main_c_33
  let main_v98 : IVec S16384 1 := cmpi .slt main_v96 main_v97
  let main_v99 : IVec S16384 1 := andi main_v94 main_v98
  let main_c_34 : IVec S_ 1 := constantI S_ 1 1#1
  let main_v100 : IVec S_ 1 := (fun x v => Host.reduce IntOp.andi x v reducesTo_S16384_S_d0 h_S_) main_v99 main_c_34
  let main_v101 : IVec S_ 1 := andi main_v90 main_v100
  let main_v102 : IVec S16384x1 32 := (extractStridedSlice S16384x1 ![0, 3] · slices_S16384x7_S16384x1_0_3) main_arg0
  let main_v103 : IVec S16384 32 := shapeCast S16384 main_v102 shapeCasts_S16384x1_S16384
  let main_c_35 : IVec S_ 32 := constantI S_ 32 0#32
  let main_v104 : IVec S16384 32 := broadcastInDim S16384 ![] bcast_S_S16384 main_c_35
  let main_v105 : IVec S16384 1 := cmpi .sge main_v103 main_v104
  fn_part6 (F := F) main_arg0 main_v101 main_v105

def fn_part4 {F : FTy → Type} [FloatOps F] (main_arg0 : IVec S16384x7 32) (main_v63 : IVec S_ 1) (main_v67 : IVec S_ 1) : IVec S_ 1 :=
  let main_v68 : IVec S_ 1 := andi main_v63 main_v67
  let main_v69 : IVec S16384x1 32 := (extractStridedSlice S16384x1 ![0, 0] · slices_S16384x7_S16384x1_0_0) main_arg0
  let main_v70 : IVec S16384 32 := shapeCast S16384 main_v69 shapeCasts_S16384x1_S16384
  let main_c_26 : IVec S_ 32 := constantI S_ 32 0#32
  let main_v71 : IVec S16384 32 := broadcastInDim S16384 ![] bcast_S_S16384 main_c_26
  let main_v72 : IVec S16384 1 := cmpi .sge main_v70 main_v71
  let main_v73 : IVec S16384x1 32 := (extractStridedSlice S16384x1 ![0, 0] · slices_S16384x7_S16384x1_0_0) main_arg0
  let main_v74 : IVec S16384 32 := shapeCast S16384 main_v73 shapeCasts_S16384x1_S16384
  let main_c_27 : IVec S_ 32 := constantI S_ 32 6#32
  let main_v75 : IVec S16384 32 := broadcastInDim S16384 ![] bcast_S_S16384 main_c_27
  let main_v76 : IVec S16384 1 := cmpi .slt main_v74 main_v75
  let main_v77 : IVec S16384 1 := andi main_v72 main_v76
  let main_c_28 : IVec S_ 1 := constantI S_ 1 1#1
  let main_v78 : IVec S_ 1 := (fun x v => Host.reduce IntOp.andi x v reducesTo_S16384_S_d0 h_S_) main_v77 main_c_28
  let main_v79 : IVec S_ 1 := andi main_v68 main_v78
  let main_v80 : IVec S16384x1 32 := (extractStridedSlice S16384x1 ![0, 1] · slices_S16384x7_S16384x1_0_1) main_arg0
  let main_v81 : IVec S16384 32 := shapeCast S16384 main_v80 shapeCasts_S16384x1_S16384
  let main_c_29 : IVec S_ 32 := constantI S_ 32 0#32
  let main_v82 : IVec S16384 32 := broadcastInDim S16384 ![] bcast_S_S16384 main_c_29
  let main_v83 : IVec S16384 1 := cmpi .sge main_v81 main_v82
  let main_v84 : IVec S16384x1 32 := (extractStridedSlice S16384x1 ![0, 1] · slices_S16384x7_S16384x1_0_1) main_arg0
  let main_v85 : IVec S16384 32 := shapeCast S16384 main_v84 shapeCasts_S16384x1_S16384
  let main_c_30 : IVec S_ 32 := constantI S_ 32 4#32
  let main_v86 : IVec S16384 32 := broadcastInDim S16384 ![] bcast_S_S16384 main_c_30
  fn_part5 (F := F) main_arg0 main_v79 main_v83 main_v85 main_v86

def fn_part3 {F : FTy → Type} [FloatOps F] (main_arg0 : IVec S16384x7 32) (main_arg12 : FVec F S128 .f32) (main_arg13 : FVec F S128x64 .f32) (main_arg14 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_v63 main_v67

def fn_part2 {F : FTy → Type} [FloatOps F] (main_arg0 : IVec S16384x7 32) (main_arg8 : FVec F S4x8 .f32) (main_arg9 : FVec F S58x128 .f32) (main_arg10 : FVec F S128 .f32) (main_arg11 : FVec F S128x128 .f32) (main_arg12 : FVec F S128 .f32) (main_arg13 : FVec F S128x64 .f32) (main_arg14 : FVec F S64 .f32) (main_v33 : IVec S_ 1) : IVec S_ 1 :=
  let main_v34 : FVec F S4x8 .f32 := Host.absf main_arg8
  let main_cst_12 : FVec F S_ .f32 := constant S_ .f32 0x7F800000#32
  let main_v35 : FVec F S4x8 .f32 := broadcastInDim S4x8 ![] bcast_S_S4x8 main_cst_12
  let main_v36 : IVec S4x8 1 := cmpf .olt main_v34 main_v35
  let main_c_13 : IVec S_ 1 := constantI S_ 1 1#1
  let main_v37 : IVec S_ 1 := (fun x v => Host.reduce IntOp.andi x v reducesTo_S4x8_S_d0_1 h_S_) main_v36 main_c_13
  let main_v38 : IVec S_ 1 := andi main_v33 main_v37
  let main_v39 : FVec F S58x128 .f32 := Host.absf main_arg9
  let main_cst_14 : FVec F S_ .f32 := constant S_ .f32 0x7F800000#32
  let main_v40 : FVec F S58x128 .f32 := broadcastInDim S58x128 ![] bcast_S_S58x128 main_cst_14
  let main_v41 : IVec S58x128 1 := cmpf .olt main_v39 main_v40
  let main_c_15 : IVec S_ 1 := constantI S_ 1 1#1
  let main_v42 : IVec S_ 1 := (fun x v => Host.reduce IntOp.andi x v reducesTo_S58x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg0 main_arg12 main_arg13 main_arg14 main_v48 main_v49 main_v50

def fn_part1 {F : FTy → Type} [FloatOps F] (main_arg0 : IVec S16384x7 32) (main_arg5 : FVec F S4x8 .f32) (main_arg6 : FVec F S6x8 .f32) (main_arg7 : FVec F S4x8 .f32) (main_arg8 : FVec F S4x8 .f32) (main_arg9 : FVec F S58x128 .f32) (main_arg10 : FVec F S128 .f32) (main_arg11 : FVec F S128x128 .f32) (main_arg12 : FVec F S128 .f32) (main_arg13 : FVec F S128x64 .f32) (main_arg14 : FVec F S64 .f32) (main_v13 : IVec S_ 1) (main_v16 : IVec S4x8 1) : IVec S_ 1 :=
  let main_c_5 : IVec S_ 1 := constantI S_ 1 1#1
  let main_v17 : IVec S_ 1 := (fun x v => Host.reduce IntOp.andi x v reducesTo_S4x8_S_d0_1 h_S_) main_v16 main_c_5
  let main_v18 : IVec S_ 1 := andi main_v13 main_v17
  let main_v19 : FVec F S4x8 .f32 := Host.absf main_arg5
  let main_cst_6 : FVec F S_ .f32 := constant S_ .f32 0x7F800000#32
  let main_v20 : FVec F S4x8 .f32 := broadcastInDim S4x8 ![] bcast_S_S4x8 main_cst_6
  let main_v21 : IVec S4x8 1 := cmpf .olt main_v19 main_v20
  let main_c_7 : IVec S_ 1 := constantI S_ 1 1#1
  let main_v22 : IVec S_ 1 := (fun x v => Host.reduce IntOp.andi x v reducesTo_S4x8_S_d0_1 h_S_) main_v21 main_c_7
  let main_v23 : IVec S_ 1 := andi main_v18 main_v22
  let main_v24 : FVec F S6x8 .f32 := Host.absf main_arg6
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S4x8 .f32 := Host.absf main_arg7
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S16384x7 32) (main_arg1 : FVec F S16384x2 .f32) (main_arg2 : FVec F S6x8 .f32) (main_arg3 : FVec F S4x8 .f32) (main_arg4 : FVec F S4x8 .f32) (main_arg5 : FVec F S4x8 .f32) (main_arg6 : FVec F S6x8 .f32) (main_arg7 : FVec F S4x8 .f32) (main_arg8 : FVec F S4x8 .f32) (main_arg9 : FVec F S58x128 .f32) (main_arg10 : FVec F S128 .f32) (main_arg11 : FVec F S128x128 .f32) (main_arg12 : FVec F S128 .f32) (main_arg13 : FVec F S128x64 .f32) (main_arg14 : FVec F S64 .f32) : IVec S_ 1 :=
  let main_v0 : FVec F S16384x2 .f32 := Host.absf main_arg1
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S6x8 .f32 := Host.absf main_arg2
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S4x8 .f32 := Host.absf main_arg3
  let main_cst_2 : FVec F S_ .f32 := constant S_ .f32 0x7F800000#32
  let main_v10 : FVec F S4x8 .f32 := broadcastInDim S4x8 ![] bcast_S_S4x8 main_cst_2
  let main_v11 : IVec S4x8 1 := cmpf .olt main_v9 main_v10
  let main_c_3 : IVec S_ 1 := constantI S_ 1 1#1
  let main_v12 : IVec S_ 1 := (fun x v => Host.reduce IntOp.andi x v reducesTo_S4x8_S_d0_1 h_S_) main_v11 main_c_3
  let main_v13 : IVec S_ 1 := andi main_v8 main_v12
  let main_v14 : FVec F S4x8 .f32 := Host.absf main_arg4
  let main_cst_4 : FVec F S_ .f32 := constant S_ .f32 0x7F800000#32
  let main_v15 : FVec F S4x8 .f32 := broadcastInDim S4x8 ![] bcast_S_S4x8 main_cst_4
  let main_v16 : IVec S4x8 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S16384x7 : Shape := ⟨2, ![16384, 7]⟩
abbrev S16384x2 : Shape := ⟨2, ![16384, 2]⟩
abbrev S6x8 : Shape := ⟨2, ![6, 8]⟩
abbrev S4x8 : Shape := ⟨2, ![4, 8]⟩
abbrev S58x128 : Shape := ⟨2, ![58, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S7x16384 : Shape := ⟨2, ![7, 16384]⟩
abbrev S2x16384 : Shape := ⟨2, ![2, 16384]⟩
abbrev S64x128 : Shape := ⟨2, ![64, 128]⟩
abbrev S64x16384 : Shape := ⟨2, ![64, 16384]⟩
abbrev S16384x64 : Shape := ⟨2, ![16384, 64]⟩
abbrev S7x8192 : Shape := ⟨2, ![7, 8192]⟩
abbrev S2x8192 : Shape := ⟨2, ![2, 8192]⟩
abbrev S64x8192 : Shape := ⟨2, ![64, 8192]⟩
abbrev S32x8 : Shape := ⟨2, ![32, 8]⟩
abbrev S32x1 : Shape := ⟨2, ![32, 1]⟩
abbrev S1x8192 : Shape := ⟨2, ![1, 8192]⟩
abbrev S8x8192 : Shape := ⟨2, ![8, 8192]⟩
abbrev S32x8192 : Shape := ⟨2, ![32, 8192]⟩
abbrev S8x128 : Shape := ⟨2, ![8, 128]⟩
abbrev S6x128 : Shape := ⟨2, ![6, 128]⟩
abbrev S4x128 : Shape := ⟨2, ![4, 128]⟩
abbrev S32x128 : Shape := ⟨2, ![32, 128]⟩
abbrev S1x128 : Shape := ⟨2, ![1, 128]⟩
abbrev S34x8192 : Shape := ⟨2, ![34, 8192]⟩
abbrev S2x128 : Shape := ⟨2, ![2, 128]⟩
abbrev S34x128 : Shape := ⟨2, ![34, 128]⟩
abbrev S128x1 : Shape := ⟨2, ![128, 1]⟩
abbrev S1x64 : Shape := ⟨2, ![1, 64]⟩
abbrev S64x1 : Shape := ⟨2, ![64, 1]⟩
abbrev S128x8192 : Shape := ⟨2, ![128, 8192]⟩

abbrev nBuf : Space → Nat
  | .hbm => 20
  | .vmem => 19
  | .smem => 0
  | _ => 0

abbrev bufTy : (tb : Table) → Fin (tcTables nBuf tb) → BufTy
  | .hbm, ⟨0, _⟩ => ⟨S16384x7, .i32⟩
  | .hbm, ⟨1, _⟩ => ⟨S16384x2, .f32⟩
  | .hbm, ⟨2, _⟩ => ⟨S6x8, .f32⟩
  | .hbm, ⟨3, _⟩ => ⟨S4x8, .f32⟩
  | .hbm, ⟨4, _⟩ => ⟨S4x8, .f32⟩
  | .hbm, ⟨5, _⟩ => ⟨S4x8, .f32⟩
  | .hbm, ⟨6, _⟩ => ⟨S6x8, .f32⟩
  | .hbm, ⟨7, _⟩ => ⟨S4x8, .f32⟩
  | .hbm, ⟨8, _⟩ => ⟨S4x8, .f32⟩
  | .hbm, ⟨9, _⟩ => ⟨S58x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S7x16384, .i32⟩
  | .hbm, ⟨16, _⟩ => ⟨S2x16384, .f32⟩
  | .hbm, ⟨17, _⟩ => ⟨S64x128, .f32⟩
  | .hbm, ⟨18, _⟩ => ⟨S64x16384, .f32⟩
  | .hbm, ⟨19, _⟩ => ⟨S16384x64, .f32⟩
  | .local _ .vmem, ⟨0, _⟩ => ⟨S7x8192, .i32⟩
  | .local _ .vmem, ⟨1, _⟩ => ⟨S7x8192, .i32⟩
  | .local _ .vmem, ⟨2, _⟩ => ⟨S2x8192, .f32⟩
  | .local _ .vmem, ⟨3, _⟩ => ⟨S2x8192, .f32⟩
  | .local _ .vmem, ⟨4, _⟩ => ⟨S6x8, .f32⟩
  | .local _ .vmem, ⟨5, _⟩ => ⟨S4x8, .f32⟩
  | .local _ .vmem, ⟨6, _⟩ => ⟨S4x8, .f32⟩
  | .local _ .vmem, ⟨7, _⟩ => ⟨S4x8, .f32⟩
  | .local _ .vmem, ⟨8, _⟩ => ⟨S6x8, .f32⟩
  | .local _ .vmem, ⟨9, _⟩ => ⟨S4x8, .f32⟩
  | .local _ .vmem, ⟨10, _⟩ => ⟨S4x8, .f32⟩
  | .local _ .vmem, ⟨11, _⟩ => ⟨S58x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S64x128, .f32⟩
  | .local _ .vmem, ⟨16, _⟩ => ⟨S64, .f32⟩
  | .local _ .vmem, ⟨17, _⟩ => ⟨S64x8192, .f32⟩
  | .local _ .vmem, ⟨18, _⟩ => ⟨S64x8192, .f32⟩
  | _, _ => ⟨S16384x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S58x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S64x8192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S16384x7_S7x16384_1_0 : S16384x7.Transposes [1, 0] S7x16384
  transposes_S16384x2_S2x16384_1_0 : S16384x2.Transposes [1, 0] S2x16384
  transposes_S128x64_S64x128_1_0 : S128x64.Transposes [1, 0] S64x128
  transposes_S64x16384_S16384x64_1_0 : S64x16384.Transposes [1, 0] S16384x64
  iota_S32x8_d0_w32 : S32x8.Iotas .tc 32 [0]
  iota_S32x8_d1_w32 : S32x8.Iotas .tc 32 [1]
  natLt_1_32 : 1 < 32
  slices_S32x8_o0_0_S32x1 : S32x8.Slices ![0, 0] S32x1
  inb_S7x8192_S7x8192_0_0 : ∀ a, (![0, 0] : Fin 2 → Nat) a + S7x8192.size a ≤ S7x8192.size a
  h_S7x8192 : 0 < S7x8192.numel
  shapeCasts_S7x8192_S7x8192 : S7x8192.ShapeCasts S7x8192
  concatenates_S7x8192_S1x8192_S8x8192_d0 : Shape.Concatenates [S7x8192, S1x8192] S8x8192 0
  broadcasts_S32x1_S32x8192 : S32x1.Broadcasts S32x8192
  bitsLt_bf16_f32 : FTy.bits .bf16 < FTy.bits .f32
  inb_S6x8_S6x8_0_0 : ∀ a, (![0, 0] : Fin 2 → Nat) a + S6x8.size a ≤ S6x8.size a
  h_S6x8 : 0 < S6x8.numel
  inb_S58x128_S8x128_0_0 : ∀ a, (![0, 0] : Fin 2 → Nat) a + S8x128.size a ≤ S58x128.size a
  h_S8x128 : 0 < S8x128.numel
  inb_S4x8_S4x8_0_0 : ∀ a, (![0, 0] : Fin 2 → Nat) a + S4x8.size a ≤ S4x8.size a
  h_S4x8 : 0 < S4x8.numel
  inb_S58x128_S8x128_8_0 : ∀ a, (![8, 0] : Fin 2 → Nat) a + S8x128.size a ≤ S58x128.size a
  inb_S58x128_S8x128_16_0 : ∀ a, (![16, 0] : Fin 2 → Nat) a + S8x128.size a ≤ S58x128.size a
  inb_S58x128_S8x128_24_0 : ∀ a, (![24, 0] : Fin 2 → Nat) a + S8x128.size a ≤ S58x128.size a
  inb_S58x128_S8x128_32_0 : ∀ a, (![32, 0] : Fin 2 → Nat) a + S8x128.size a ≤ S58x128.size a
  inb_S58x128_S8x128_40_0 : ∀ a, (![40, 0] : Fin 2 → Nat) a + S8x128.size a ≤ S58x128.size a
  inb_S58x128_S8x128_48_0 : ∀ a, (![48, 0] : Fin 2 → Nat) a + S8x128.size a ≤ S58x128.size a
  concatenates_S6x128_S4x128_S4x128_S4x128_S6x128_S4x128_S4x128_S32x128_d0 : Shape.Concatenates [S6x128, S4x128, S4x128, S4x128, S6x128, S4x128, S4x128] S32x128 0
  iota_S32x128_d0_w32 : S32x128.Iotas .tc 32 [0]
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S32x128 : S1x128.Broadcasts S32x128
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  concatenates_S32x8192_S2x8192_S34x8192_d0 : Shape.Concatenates [S32x8192, S2x8192] S34x8192 0
  inb_S58x128_S2x128_56_0 : ∀ a, (![56, 0] : Fin 2 → Nat) a + S2x128.size a ≤ S58x128.size a
  h_S2x128 : 0 < S2x128.numel
  concatenates_S32x128_S2x128_S34x128_d0 : Shape.Concatenates [S32x128, S2x128] S34x128 0
  transposes_S1x128_p1_0_S128x1 : S1x128.Transposes [1, 0] S128x1
  inb_S64_S64_0 : ∀ a, (![0] : Fin 1 → Nat) a + S64.size a ≤ S64.size a
  h_S64 : 0 < S64.numel
  shapeCasts_S64_S1x64 : S64.ShapeCasts S1x64
  transposes_S1x64_p1_0_S64x1 : S1x64.Transposes [1, 0] S64x1
  inb_S128x128_S128x128_0_0 : ∀ a, (![0, 0] : Fin 2 → Nat) a + S128x128.size a ≤ S128x128.size a
  h_S128x128 : 0 < S128x128.numel
  broadcasts_S128x1_S128x8192 : S128x1.Broadcasts S128x8192
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S64x1_S64x8192 : S64x1.Broadcasts S64x8192
  inb_S64x8192_S64x8192_0_0 : ∀ a, (![0, 0] : Fin 2 → Nat) a + S64x8192.size a ≤ S64x8192.size a
  h_S64x8192 : 0 < S64x8192.numel
  dot_S32x8_S8x8192_S32x8192_1_0_0_1_n_n_wf : DotDims.WF S32x8 S8x8192 S32x8192 [1] [0] [0] [1] [] []
  dot_S6x8_S8x128_S6x128_1_0_0_1_n_n_wf : DotDims.WF S6x8 S8x128 S6x128 [1] [0] [0] [1] [] []
  dot_S4x8_S8x128_S4x128_1_0_0_1_n_n_wf : DotDims.WF S4x8 S8x128 S4x128 [1] [0] [0] [1] [] []
  dot_S34x128_S34x8192_S128x8192_0_0_1_1_n_n_wf : DotDims.WF S34x128 S34x8192 S128x8192 [0] [0] [1] [1] [] []
  dot_S128x128_S128x8192_S128x8192_0_0_1_1_n_n_wf : DotDims.WF S128x128 S128x8192 S128x8192 [0] [0] [1] [1] [] []
  dot_S64x128_S128x8192_S64x8192_1_0_0_1_n_n_wf : DotDims.WF S64x128 S128x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x8192.size a ≤ S7x16384.size a
  hwx0_0 : ∀ i : grid0.Coords, EltTy.bits .i32 = 32 ∨ (Rect.block (s := S7x16384) S7x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8192.size a ≤ S2x16384.size a
  hwx0_1 : ∀ i : grid0.Coords, EltTy.bits .f32 = 32 ∨ (Rect.block (s := S2x16384) S2x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x8.size a ≤ S6x8.size a
  hwx0_2 : ∀ i : grid0.Coords, EltTy.bits .f32 = 32 ∨ (Rect.block (s := S6x8) S6x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8.size a ≤ S4x8.size a
  hwx0_3 : ∀ i : grid0.Coords, EltTy.bits .f32 = 32 ∨ (Rect.block (s := S4x8) S4x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x8.size a ≤ S4x8.size a
  hwx0_4 : ∀ i : grid0.Coords, EltTy.bits .f32 = 32 ∨ (Rect.block (s := S4x8) S4x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8.size a ≤ S4x8.size a
  hwx0_5 : ∀ i : grid0.Coords, EltTy.bits .f32 = 32 ∨ (Rect.block (s := S4x8) S4x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x8.size a ≤ S6x8.size a
  hwx0_6 : ∀ i : grid0.Coords, EltTy.bits .f32 = 32 ∨ (Rect.block (s := S6x8) S6x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x8.size a ≤ S4x8.size a
  hwx0_7 : ∀ i : grid0.Coords, EltTy.bits .f32 = 32 ∨ (Rect.block (s := S4x8) S4x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x8.size a ≤ S4x8.size a
  hwx0_8 : ∀ i : grid0.Coords, EltTy.bits .f32 = 32 ∨ (Rect.block (s := S4x8) S4x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S58x128.size a ≤ S58x128.size a
  hwx0_9 : ∀ i : grid0.Coords, EltTy.bits .f32 = 32 ∨ (Rect.block (s := S58x128) S58x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .f32 = 32 ∨ (Rect.block (s := S64x128) S64x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x8192.size a ≤ S64x16384.size a
  hwx0_15 : ∀ i : grid0.Coords, EltTy.bits .f32 = 32 ∨ (Rect.block (s := S64x16384) S64x8192.size (cc0_transform_15 i) (hinb0_15 i)).WholeWords (EltTy.packing .f32)

variable [Facts₀]

def dot_S32x8_S8x8192_S32x8192_1_0_0_1_n_n : DotDims S32x8 S8x8192 S32x8192 where
  lhsContracting := [1]
  rhsContracting := [0]
  lhsNonContracting := [0]
  rhsNonContracting := [1]
  lhsBatch := []
  rhsBatch := []
  wf := dot_S32x8_S8x8192_S32x8192_1_0_0_1_n_n_wf
def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S4x8_S8x128_S4x128_1_0_0_1_n_n : DotDims S4x8 S8x128 S4x128 where
  lhsContracting := [1]
  rhsContracting := [0]
  lhsNonContracting := [0]
  rhsNonContracting := [1]
  lhsBatch := []
  rhsBatch := []
  wf := dot_S4x8_S8x128_S4x128_1_0_0_1_n_n_wf
def dot_S34x128_S34x8192_S128x8192_0_0_1_1_n_n : DotDims S34x128 S34x8192 S128x8192 where
  lhsContracting := [0]
  rhsContracting := [0]
  lhsNonContracting := [1]
  rhsNonContracting := [1]
  lhsBatch := []
  rhsBatch := []
  wf := dot_S34x128_S34x8192_S128x8192_0_0_1_1_n_n_wf
def dot_S128x128_S128x8192_S128x8192_0_0_1_1_n_n : DotDims S128x128 S128x8192 S128x8192 where
  lhsContracting := [0]
  rhsContracting := [0]
  lhsNonContracting := [1]
  rhsNonContracting := [1]
  lhsBatch := []
  rhsBatch := []
  wf := dot_S128x128_S128x8192_S128x8192_0_0_1_1_n_n_wf
def dot_S64x128_S128x8192_S64x8192_1_0_0_1_n_n : DotDims S64x128 S128x8192 S64x8192 where
  lhsContracting := [1]
  rhsContracting := [0]
  lhsNonContracting := [0]
  rhsNonContracting := [1]
  lhsBatch := []
  rhsBatch := []
  wf := dot_S64x128_S128x8192_S64x8192_1_0_0_1_n_n_wf

abbrev win0_0 : Pipeline.Window sig grid0 :=
  Pipeline.Window.ofSpec (Memref.whole main_call0_v0) S7x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S58x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v2) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v3) S64x8192.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x7 : Shape := ⟨2, ![16384, 7]⟩
abbrev S16384x2 : Shape := ⟨2, ![16384, 2]⟩
abbrev S6x8 : Shape := ⟨2, ![6, 8]⟩
abbrev S4x8 : Shape := ⟨2, ![4, 8]⟩
abbrev S58x128 : Shape := ⟨2, ![58, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x8 : Shape := ⟨2, ![16384, 8]⟩
abbrev S16384x56 : Shape := ⟨2, ![16384, 56]⟩
abbrev S16384x58 : Shape := ⟨2, ![16384, 58]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 210
  | .vmem => 0
  | .smem => 0
  | _ => 0

abbrev hbmTy0_0 (i : Nat) : BufTy := match i % 128 with
  | 0 => ⟨S16384x7, .i32⟩
  | 1 => ⟨S16384x2, .f32⟩
  | 2 => ⟨S6x8, .f32⟩
  | 3 => ⟨S4x8, .f32⟩
  | 4 => ⟨S4x8, .f32⟩
  | 5 => ⟨S4x8, .f32⟩
  | 6 => ⟨S6x8, .f32⟩
  | 7 => ⟨S4x8, .f32⟩
  | 8 => ⟨S4x8, .f32⟩
  | 9 => ⟨S58x128, .f32⟩
  | 10 => ⟨S128, .f32⟩
  | 11 => ⟨S128x128, .f32⟩
  | 12 => ⟨S128, .f32⟩
  | 13 => ⟨S128x64, .f32⟩
  | 14 => ⟨S64, .f32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x8, .f32⟩
  | 36 => ⟨S16384x8, .i1⟩
  | 37 => ⟨S_, .f32⟩
  | 38 => ⟨S16384x8, .f32⟩
  | 39 => ⟨S16384x8, .f32⟩
  | 40 => ⟨S16384x1, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x8, .f32⟩
  | 61 => ⟨S16384x8, .i1⟩
  | 62 => ⟨S_, .f32⟩
  | 63 => ⟨S16384x8, .f32⟩
  | 64 => ⟨S16384x8, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x8, .f32⟩
  | 86 => ⟨S16384x8, .i1⟩
  | 87 => ⟨S_, .f32⟩
  | 88 => ⟨S16384x8, .f32⟩
  | 89 => ⟨S16384x8, .f32⟩
  | 90 => ⟨S16384x1, .i32⟩
  | 91 => ⟨S16384, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x8, .f32⟩
  | 111 => ⟨S16384x8, .i1⟩
  | 112 => ⟨S_, .f32⟩
  | 113 => ⟨S16384x8, .f32⟩
  | 114 => ⟨S16384x8, .f32⟩
  | 115 => ⟨S16384x1, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x7, .i32⟩

abbrev hbmTy0_1 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x8, .f32⟩
  | 8 => ⟨S16384x8, .i1⟩
  | 9 => ⟨S_, .f32⟩
  | 10 => ⟨S16384x8, .f32⟩
  | 11 => ⟨S16384x8, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x8, .f32⟩
  | 33 => ⟨S16384x8, .i1⟩
  | 34 => ⟨S_, .f32⟩
  | 35 => ⟨S16384x8, .f32⟩
  | 36 => ⟨S16384x8, .f32⟩
  | 37 => ⟨S16384x1, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x8, .f32⟩
  | 58 => ⟨S16384x8, .i1⟩
  | 59 => ⟨S_, .f32⟩
  | 60 => ⟨S16384x8, .f32⟩
  | 61 => ⟨S16384x8, .f32⟩
  | 62 => ⟨S16384x56, .f32⟩
  | 63 => ⟨S16384x58, .f32⟩
  | 64 => ⟨S16384x128, .f32⟩
  | 65 => ⟨S1x128, .f32⟩
  | 66 => ⟨S16384x128, .f32⟩
  | 67 => ⟨S16384x128, .f32⟩
  | 68 => ⟨S_, .f32⟩
  | 69 => ⟨S16384x128, .f32⟩
  | 70 => ⟨S16384x128, .f32⟩
  | 71 => ⟨S16384x128, .f32⟩
  | 72 => ⟨S1x128, .f32⟩
  | 73 => ⟨S16384x128, .f32⟩
  | 74 => ⟨S16384x128, .f32⟩
  | 75 => ⟨S_, .f32⟩
  | 76 => ⟨S16384x128, .f32⟩
  | 77 => ⟨S16384x128, .f32⟩
  | 78 => ⟨S16384x64, .f32⟩
  | 79 => ⟨S1x64, .f32⟩
  | 80 => ⟨S16384x64, .f32⟩
  | 81 => ⟨S16384x64, .f32⟩
  | _ => ⟨S16384x7, .i32⟩

abbrev hbmTy (i : Nat) : BufTy := match i / 128 with
  | 0 => hbmTy0_0 i
  | 1 => hbmTy0_1 i
  | _ => ⟨S16384x7, .i32⟩

abbrev bufTy : (tb : Table) → Fin (tcTables nBuf tb) → BufTy
  | .hbm, ⟨i, _⟩ => hbmTy i
  | _, _ => ⟨S16384x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v14 : Ref sig .tc := ⟨.hbm, 139, rfl⟩
abbrev main_v15 : Ref sig .tc := ⟨.hbm, 140, rfl⟩
abbrev main_v16 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v17 : Ref sig .tc := ⟨.hbm, 164, rfl⟩
abbrev main_v18 : Ref sig .tc := ⟨.hbm, 165, rfl⟩
abbrev main_v19 : Ref sig .tc := ⟨.hbm, 166, rfl⟩
abbrev main_call6_c : Ref sig .tc := ⟨.hbm, 167, rfl⟩
abbrev main_call6_v0 : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_c_1 : Ref sig .tc := ⟨.hbm, 175, rfl⟩
abbrev main_call6_c_2 : Ref sig .tc := ⟨.hbm, 176, rfl⟩
abbrev main_call6_v6 : Ref sig .tc := ⟨.hbm, 177, rfl⟩
abbrev main_call6_v7 : Ref sig .tc := ⟨.hbm, 178, rfl⟩
abbrev main_call6_v8 : Ref sig .tc := ⟨.hbm, 179, rfl⟩
abbrev main_call6_v9 : Ref sig .tc := ⟨.hbm, 180, rfl⟩
abbrev main_call6_v10 : Ref sig .tc := ⟨.hbm, 181, rfl⟩
abbrev main_call6_v11 : Ref sig .tc := ⟨.hbm, 182, rfl⟩
abbrev main_call6_c_3 : Ref sig .tc := ⟨.hbm, 183, rfl⟩
abbrev main_call6_v12 : Ref sig .tc := ⟨.hbm, 184, rfl⟩
abbrev main_call6_v13 : Ref sig .tc := ⟨.hbm, 185, rfl⟩
abbrev main_call6_v14 : Ref sig .tc := ⟨.hbm, 186, rfl⟩
abbrev main_call6_cst : Ref sig .tc := ⟨.hbm, 187, rfl⟩
abbrev main_call6_v15 : Ref sig .tc := ⟨.hbm, 188, rfl⟩
abbrev main_v20 : Ref sig .tc := ⟨.hbm, 189, rfl⟩
abbrev main_v21 : Ref sig .tc := ⟨.hbm, 190, rfl⟩
abbrev main_v22 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_call7_cst : Ref sig .tc := ⟨.hbm, 196, rfl⟩
abbrev main_call7_v0 : Ref sig .tc := ⟨.hbm, 197, rfl⟩
abbrev main_v27 : Ref sig .tc := ⟨.hbm, 198, rfl⟩
abbrev main_v28 : Ref sig .tc := ⟨.hbm, 199, rfl⟩
abbrev main_v29 : Ref sig .tc := ⟨.hbm, 200, rfl⟩
abbrev main_v30 : Ref sig .tc := ⟨.hbm, 201, rfl⟩
abbrev main_v31 : Ref sig .tc := ⟨.hbm, 202, rfl⟩
abbrev main_call8_cst : Ref sig .tc := ⟨.hbm, 203, rfl⟩
abbrev main_call8_v0 : Ref sig .tc := ⟨.hbm, 204, rfl⟩
abbrev main_v32 : Ref sig .tc := ⟨.hbm, 205, rfl⟩
abbrev main_v33 : Ref sig .tc := ⟨.hbm, 206, rfl⟩
abbrev main_v34 : Ref sig .tc := ⟨.hbm, 207, rfl⟩
abbrev main_v35 : Ref sig .tc := ⟨.hbm, 208, rfl⟩
abbrev main_v36 : Ref sig .tc := ⟨.hbm, 209, rfl⟩

abbrev nD : Nat := 1
abbrev τ : Topo := Topo.v7x

variable {F : FTy → Type} [FloatOps F]

class Facts₀ : Prop where
  slices_S16384x7_S16384x1_0_0 : S16384x7.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x8_0 : S16384.BroadcastsInDim S16384x8 (![0] : Fin 1 → Fin S16384x8.rank)
  bcast_S_S16384x8 : S_.BroadcastsInDim S16384x8 (![] : Fin 0 → Fin S16384x8.rank)
  slices_S16384x7_S16384x1_0_1 : S16384x7.Slices ![0, 1] S16384x1
  slices_S16384x7_S16384x1_0_2 : S16384x7.Slices ![0, 2] S16384x1
  slices_S16384x7_S16384x1_0_3 : S16384x7.Slices ![0, 3] S16384x1
  slices_S16384x7_S16384x1_0_4 : S16384x7.Slices ![0, 4] S16384x1
  slices_S16384x7_S16384x1_0_5 : S16384x7.Slices ![0, 5] S16384x1
  slices_S16384x7_S16384x1_0_6 : S16384x7.Slices ![0, 6] S16384x1
  concatenates_S16384x8_S16384x8_S16384x8_S16384x8_S16384x8_S16384x8_S16384x8_S16384x56_d1 : Shape.Concatenates [S16384x8, S16384x8, S16384x8, S16384x8, S16384x8, S16384x8, S16384x8] S16384x56 1
  concatenates_S16384x56_S16384x2_S16384x58_d1 : Shape.Concatenates [S16384x56, S16384x2] S16384x58 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  gather_S6x8_S16384x1_S16384x8_1_0_n_n_0_1_18_wf : GatherDims.WF S6x8 S16384x1 S16384x8 [1] [0] [] [0] [] 1 ![1, 8]
  gather_S4x8_S16384x1_S16384x8_1_0_n_n_0_1_18_wf : GatherDims.WF S4x8 S16384x1 S16384x8 [1] [0] [] [0] [] 1 ![1, 8]
  dot_S16384x58_S58x128_S16384x128_1_0_0_1_n_n_wf : DotDims.WF S16384x58 S58x128 S16384x128 [1] [0] [0] [1] [] []
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []

variable [Facts₀]

def gather_S6x8_S16384x1_S16384x8_1_0_n_n_0_1_18 : GatherDims S6x8 S16384x1 S16384x8 where
  offsetDims := [1]
  collapsedSliceDims := [0]
  operandBatchingDims := []
  startIndicesBatchingDims := []
  startIndexMap := [0]
  indexVectorDim := 1
  sliceSizes := ![1, 8]
  wf := gather_S6x8_S16384x1_S16384x8_1_0_n_n_0_1_18_wf
def gather_S4x8_S16384x1_S16384x8_1_0_n_n_0_1_18 : GatherDims S4x8 S16384x1 S16384x8 where
  offsetDims := [1]
  collapsedSliceDims := [0]
  operandBatchingDims := []
  startIndicesBatchingDims := []
  startIndexMap := [0]
  indexVectorDim := 1
  sliceSizes := ![1, 8]
  wf := gather_S4x8_S16384x1_S16384x8_1_0_n_n_0_1_18_wf
def dot_S16384x58_S58x128_S16384x128_1_0_0_1_n_n : DotDims S16384x58 S58x128 S16384x128 where
  lhsContracting := [1]
  rhsContracting := [0]
  lhsNonContracting := [0]
  rhsNonContracting := [1]
  lhsBatch := []
  rhsBatch := []
  wf := dot_S16384x58_S58x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Spec.lean ====
/-
  The function both programs compute, stated once over the extended reals, with no program in sight.

  A batch row carries seven categorical words u 0 … u 6 and two numeric entries n 0, n 1. Feature i looks its
  word up in its own embedding table (6 or 4 rows of 8 entries), the seven looked-up rows and the two numeric
  entries are laid side by side as a vector x of length 58, and three affine layers follow, the first two
  followed by a maximum with zero:
      h1 j = max (Σ_c x c · W1[c, j] + b1 j) 0,   h2 k = max (Σ_j h1 j · W2[j, k] + b2 k) 0,
      out o = Σ_k h2 k · W3[k, o] + b3 o.
  The first contraction is written feature by feature — Σ_i Σ_e T_i[u i, e] · W1[8 i + e, j], then the two
  numeric terms, then the bias — because that is the grouping both programs' sums can be brought to with
  commutativity and associativity of addition alone: no distributivity is used anywhere, so the statement
  holds at infinite entries too.
-/
import Idealize.ShloMosaic.PureOps.Ideal
import Idealize.ShloMosaic.Lib.ValueIdx

noncomputable section

open scoped BigOperators

namespace Cert.Tower

open Idealize.ShloMosaic Idealize.ShloMosaic.ValueIdx

/-- A rank-2 array of extended reals with literal extents. -/
abbrev Arr2 (a b : Nat) := (⟨2, ![a, b]⟩ : Shape).Idx → EReal
/-- A rank-1 array of extended reals with a literal extent. -/
abbrev Arr1 (a : Nat) := (⟨1, ![a]⟩ : Shape).Idx → EReal

/-- The number of rows of feature i's table. -/
def voc : Fin 7 → Nat := ![6, 4, 4, 4, 6, 4, 4]

/-- Row w of a table of R rows, at entry e; outside the table the value is zero (a convention: the precondition
    keeps every word inside its table). -/
def row {R : Nat} (T : Arr2 R 8) (w : BitVec 32) (e : Fin 8) : EReal :=
  if h : w.toNat < R then T (ix2 ⟨w.toNat, h⟩ e) else 0

/-- Row 8 i + e of the first weight matrix: entry e of feature i. -/
def w1r (i : Fin 7) (e : Fin 8) : Fin 58 := ⟨8 * i.val + e.val, by omega⟩
/-- Row 56 + k of the first weight matrix: numeric entry k. -/
def w1n (k : Fin 2) : Fin 58 := ⟨56 + k.val, by omega⟩

section
variable (T0 : Arr2 6 8) (T1 T2 T3 : Arr2 4 8) (T4 : Arr2 6 8) (T5 T6 : Arr2 4 8)
  (W1 : Arr2 58 128) (b1 : Arr1 128) (W2 : Arr2 128 128) (b2 : Arr1 128) (W3 : Arr2 128 64) (b3 : Arr1 64)

/-- Entry e of the row feature i looks up. -/
def emb (u : Fin 7 → BitVec 32) (i : Fin 7) (e : Fin 8) : EReal :=
  match i with
  | ⟨0, _⟩ => row T0 (u 0) e
  | ⟨1, _⟩ => row T1 (u 1) e
  | ⟨2, _⟩ => row T2 (u 2) e
  | ⟨3, _⟩ => row T3 (u 3) e
  | ⟨4, _⟩ => row T4 (u 4) e
  | ⟨5, _⟩ => row T5 (u 5) e
  | ⟨6, _⟩ => row T6 (u 6) e

/-- The first layer before its maximum: the seven features' contributions, the two numeric terms, the bias. -/
def pre1 (u : Fin 7 → BitVec 32) (n : Fin 2 → EReal) (j : Fin 128) : EReal :=
  (∑ i : Fin 7, ∑ e : Fin 8, emb T0 T1 T2 T3 T4 T5 T6 u i e * W1 (ix2 (w1r i e) j))
    + (∑ k : Fin 2, n k * W1 (ix2 (w1n k) j)) + b1 (ix1 j)

def h1 (u : Fin 7 → BitVec 32) (n : Fin 2 → EReal) (j : Fin 128) : EReal :=
  max (pre1 T0 T1 T2 T3 T4 T5 T6 W1 b1 u n j) 0

def h2 (u : Fin 7 → BitVec 32) (n : Fin 2 → EReal) (k : Fin 128) : EReal :=
  max ((∑ j : Fin 128, h1 T0 T1 T2 T3 T4 T5 T6 W1 b1 u n j * W2 (ix2 j k)) + b2 (ix1 k)) 0

def out (u : Fin 7 → BitVec 32) (n : Fin 2 → EReal) (o : Fin 64) : EReal :=
  (∑ k : Fin 128, h2 T0 T1 T2 T3 T4 T5 T6 W1 b1 W2 b2 u n k * W3 (ix2 k o)) + b3 (ix1 o)

/-- The whole result array, batch row by batch row. -/
def tower (uc : (⟨2, ![16384, 7]⟩ : Shape).Idx → BitVec 32) (un : Arr2 16384 2) : Arr2 16384 64 :=
  fun y => out T0 T1 T2 T3 T4 T5 T6 W1 b1 W2 b2 W3 b3 (fun i => uc (ix2 (y 0) i)) (fun k => un (ix2 (y 0) k)) (y 1)

end

/-- Every categorical word names a row of its table. -/
def InRange (uc : (⟨2, ![16384, 7]⟩ : Shape).Idx → BitVec 32) : Prop :=
  ∀ (b : Fin 16384) (i : Fin 7), (uc (ix2 b i)).toNat < voc i

end Cert.Tower

end
-- ==== Proof.KConst.lean ====
/-
  The two constant tables the body builds from lane counters. Lane v of the 32 combined lanes belongs to the
  feature whose span [0,6), [6,10), [10,14), [14,18), [18,24), [24,28), [28,32) holds it; the body computes, by
  counting the span boundaries at or below v, the indicator "lane v belongs to feature i" and the position of
  v inside its span. Both are closed facts about 32 × 8 small integers, decided by evaluation.
-/
import proofs.«105925_g50397146251325_cont_8to1_c_54_18_alg».proof.Proof.Gen.KernelIdeal.Skeleton
import Idealize.ShloMosaic.Lib.ValueIdx

noncomputable section

namespace Cert.KernelIdeal.KConst

open Cert.KernelIdeal Cert.KernelIdeal.Gen Idealize.ShloMosaic Idealize.ShloMosaic.ValueIdx

/-- The feature lane v belongs to. -/
def laneFeat (v : Fin 32) : Fin 8 :=
  if v.val < 6 then 0 else if v.val < 10 then 1 else if v.val < 14 then 2 else if v.val < 18 then 3
  else if v.val < 24 then 4 else if v.val < 28 then 5 else 6

/-- Where feature i's span starts. -/
def spanStart (i : Fin 8) : Nat :=
  match i with
  | ⟨0, _⟩ => 0 | ⟨1, _⟩ => 6 | ⟨2, _⟩ => 10 | ⟨3, _⟩ => 14 | ⟨4, _⟩ => 18 | ⟨5, _⟩ => 24 | ⟨6, _⟩ => 28 | ⟨_ + 7, _⟩ => 28

/-- The indicator the body builds: lane v against feature i, as a 32-bit word. -/
theorem feat_word : ∀ (v : Fin 32) (i : Fin 8),
    extui 32 (cmpi .eq k0_pay9 (iota .tc S32x8 32 [1] iota_S32x8_d1_w32)) natLt_1_32 (ix2 v i)
      = if laneFeat v = i then 1#32 else 0#32 := by
  decide +kernel

/-- The position of lane v inside its feature's span, as a 32-bit word (read at any column). -/
theorem pos_word : ∀ (v : Fin 32) (i : Fin 8),
    subi (iota .tc S32x8 32 [0] iota_S32x8_d0_w32) (addi k0_pay7 k0_pay10) (ix2 v i)
      = BitVec.ofNat 32 (v.val - spanStart (laneFeat v)) := by
  decide +kernel

end Cert.KernelIdeal.KConst

end
-- ==== Proof.LibDot.lean ====
/-
  A matrix product into a zero accumulator, read at one entry over the extended reals, for the two ways a
  rank-2 product contracts: the left operand's columns against the right operand's rows (entry (p, q) is
  Σ_k L[p, k] · R[k, q]), and the left operand's rows against the right operand's rows (entry (p, q) is
  Σ_k L[k, p] · R[k, q]). The contraction's index set has one axis; the sum is re-indexed by its one coordinate.
-/
import Idealize.ShloMosaic.PureOps.Ideal.Laws
import Idealize.ShloMosaic.Lib.ValueIdx

noncomputable section

open scoped BigOperators

namespace Cert.LibDot

open Idealize.ShloMosaic Idealize.ShloMosaic.ValueIdx

/-- Columns of the left operand against rows of the right: entry (p, q) is Σ_k L[p, k] · R[k, q]. -/
theorem matmul_cols_rows {M K N : Nat} {φ₁ φ₂ : FTy} (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂) (p : Fin M) (q : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p q)
      = ∑ k : Fin K, lhs (ix2 p k) * rhs (ix2 k q) := by
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 _ K rfl rfl).symm k) = ix2 p k := funext fun a => Fin.ext (by
    match a with
    | ⟨0, _⟩ =>
      unfold DotDims.lhsIdx
      rw [dif_neg (by exact List.not_mem_nil), dif_pos (by exact List.mem_singleton.mpr rfl)]
      rfl
    | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

/-- Rows of the left operand against rows of the right: entry (p, q) is Σ_k L[k, p] · R[k, q]. -/
theorem matmul_rows_rows {M K N : Nat} {φ₁ φ₂ : FTy} (wf : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂) (p : Fin M) (q : Fin N) :
    FloatOps.matmul (⟨[0], [0], [1], [1], [], [], wf⟩ : DotDims ⟨2, ![K, M]⟩ ⟨2, ![K, N]⟩ ⟨2, ![M, N]⟩) prec lhs rhs
        (constant ⟨2, ![M, N]⟩ .f32 0x00000000#32) (ix2 p q)
      = ∑ k : Fin K, lhs (ix2 k p) * rhs (ix2 k q) := by
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : (⟨[0], [0], [1], [1], [], [], wf⟩ : DotDims ⟨2, ![K, M]⟩ ⟨2, ![K, N]⟩ ⟨2, ![M, N]⟩).lhsIdx (ix2 p q)
      ((contrEquiv1 _ K rfl rfl).symm k) = ix2 k p := funext fun a => Fin.ext (by
    match a with
    | ⟨0, _⟩ => exact (DotDims.lhsIdx_val_of_single _ rfl _ _).trans hk
    | ⟨1, _⟩ =>
      unfold DotDims.lhsIdx
      rw [dif_neg (by exact List.not_mem_nil), dif_pos (by exact List.mem_singleton.mpr rfl)]
      rfl)
  have er : (⟨[0], [0], [1], [1], [], [], wf⟩ : DotDims ⟨2, ![K, M]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

end Cert.LibDot

end
-- ==== Proof.KHot.lean ====
/-
  The multi-hot block. Entry (v, b) of the 32 × 8192 block the body builds is 1 when the categorical word of
  column b for lane v's feature equals lane v's position inside that feature's span, and 0 otherwise.

  The body gets there in two steps. A product of the 32 × 8 indicator "lane v belongs to feature i" with the
  8 × 8192 array of the words converted to numbers (seven rows of words, one row of zeros) replicates each
  feature's word over the feature's lanes: the sum over i has one term that is not zero. An equality test against
  the lane positions, converted to numbers too, gives the entry. A word below its table's height is a small
  non-negative integer, so converting it changes nothing and equality of the numbers is equality of the integers.
-/
import proofs.«105925_g50397146251325_cont_8to1_c_54_18_alg».proof.Proof.Gen.KernelIdeal.Frame
import proofs.«105925_g50397146251325_cont_8to1_c_54_18_alg».proof.Proof.KConst
import proofs.«105925_g50397146251325_cont_8to1_c_54_18_alg».proof.Proof.LibDot
import Idealize.ShloMosaic.Lib.Pipeline.Value

noncomputable section

open scoped BigOperators

namespace Cert.KernelIdeal.KHot

open Cert.KernelIdeal Cert.KernelIdeal.Gen Cert.KernelIdeal.KConst Idealize.ShloMosaic Idealize.ShloMosaic.ValueIdx

/-- A word converted to a number, over the extended reals. -/
theorem sitofp_ideal (w : BitVec 32) : FloatOps.sitofp (F := Ideal) .f32 w = ((w.toInt : ℝ) : EReal) := rfl

/-- The positions are small: converting the word back gives the natural number. -/
theorem pos_toInt : ∀ v : Fin 32, (BitVec.ofNat 32 (v.val - spanStart (laneFeat v))).toInt
    = ((v.val - spanStart (laneFeat v) : ℕ) : ℤ) := by decide

/-- A lane's feature is one of the seven. -/
theorem laneFeat_lt : ∀ v : Fin 32, (laneFeat v).val < 7 := by decide

/-- The indicator as a number. -/
theorem ind_apply (v : Fin 32) (i : Fin 8) :
    (sitofp .f32 (extui 32 (cmpi .eq k0_pay9 (iota .tc S32x8 32 [1] iota_S32x8_d1_w32)) natLt_1_32) : FVec Ideal S32x8 .f32) (ix2 v i)
      = if laneFeat v = i then (1 : EReal) else 0 := by
  show FloatOps.sitofp (F := Ideal) .f32 (extui 32 (cmpi .eq k0_pay9 (iota .tc S32x8 32 [1] iota_S32x8_d1_w32)) natLt_1_32 (ix2 v i)) = _
  rw [feat_word, sitofp_ideal]
  by_cases h : laneFeat v = i
  · rw [if_pos h, if_pos h]; norm_num
  · rw [if_neg h, if_neg h]; norm_num

/-- The words as numbers: row i of the 8 × 8192 operand, for a feature i. -/
theorem words_apply (v52 : Vec Ideal S7x8192 .i32) (i : Fin 7) (b : Fin 8192) :
    (concatenate S8x8192 0 [⟨S7x8192, (sitofp .f32 (shapeCast S7x8192 v52 shapeCasts_S7x8192_S7x8192) : FVec Ideal S7x8192 .f32)⟩,
        ⟨S1x8192, (broadcast S1x8192 (Scalar.ofBits .f32 0x00000000#32) : FVec Ideal S1x8192 .f32)⟩]
        concatenates_S7x8192_S1x8192_S8x8192_d0) (ix2 (⟨i.val, by omega⟩ : Fin 8) b)
      = (((v52 (ix2 i b)).toInt : ℝ) : EReal) := by
  refine (concatenate_pair_apply_left (0 : Fin S8x8192.rank) _ _ concatenates_S7x8192_S1x8192_S8x8192_d0
    (ix2 (⟨i.val, by omega⟩ : Fin 8) b) rfl (ix2 i b) (fun a => by
      match a with
      | ⟨0, _⟩ => rfl
      | ⟨1, _⟩ => rfl)).trans ?_
  show FloatOps.sitofp (F := Ideal) .f32 (shapeCast S7x8192 v52 shapeCasts_S7x8192_S7x8192 (ix2 i b)) = _
  rw [shapeCast_self, sitofp_ideal]

/-- Each feature's word replicated over the feature's lanes. -/
def reps (v52 : Vec Ideal S7x8192 .i32) : FVec Ideal S32x8192 .f32 :=
  matmul dot_S32x8_S8x8192_S32x8192_1_0_0_1_n_n none
    (sitofp .f32 (extui 32 (cmpi .eq k0_pay9 (iota .tc S32x8 32 [1] iota_S32x8_d1_w32)) natLt_1_32) : FVec Ideal S32x8 .f32)
    (concatenate S8x8192 0 [⟨S7x8192, (sitofp .f32 (shapeCast S7x8192 v52 shapeCasts_S7x8192_S7x8192) : FVec Ideal S7x8192 .f32)⟩,
        ⟨S1x8192, (broadcast S1x8192 (Scalar.ofBits .f32 0x00000000#32) : FVec Ideal S1x8192 .f32)⟩]
        concatenates_S7x8192_S1x8192_S8x8192_d0)
    (constant S32x8192 .f32 0x00000000#32)

/-- The lane positions as numbers, spread along the columns. -/
def poss : FVec Ideal S32x8192 .f32 :=
  broadcastTo S32x8192
    (extractStridedSlice S32x1 ![0, 0]
      (sitofp .f32 (subi (iota .tc S32x8 32 [0] iota_S32x8_d0_w32) (addi k0_pay7 k0_pay10)) : FVec Ideal S32x8 .f32)
      slices_S32x8_o0_0_S32x1)
    broadcasts_S32x1_S32x8192

/-- The body's multi-hot block is the equality test of the two, as a number. -/
theorem pay11_eq (v52 : Vec Ideal S7x8192 .i32) :
    k0_pay11 (F := Ideal) (iota .tc S32x8 32 [0] iota_S32x8_d0_w32) (iota .tc S32x8 32 [1] iota_S32x8_d1_w32) k0_pay7 k0_pay9 k0_pay10 v52
      = truncf .bf16 (sitofp .f32 (extui 32 (cmpf .oeq (reps v52) poss) natLt_1_32) : FVec Ideal S32x8192 .f32) bitsLt_bf16_f32 := rfl

theorem reps_apply (v52 : Vec Ideal S7x8192 .i32) (v : Fin 32) (b : Fin 8192) :
    reps v52 (ix2 v b) = (((v52 (ix2 (⟨(laneFeat v).val, laneFeat_lt v⟩ : Fin 7) b)).toInt : ℝ) : EReal) := by
  unfold reps
  refine (Cert.LibDot.matmul_cols_rows _ none _ _ v b).trans ?_
  rw [Finset.sum_eq_single (laneFeat v)]
  · rw [ind_apply, if_pos rfl, one_mul]
    exact words_apply v52 ⟨(laneFeat v).val, laneFeat_lt v⟩ b
  · intro i _ hi
    rw [ind_apply, if_neg (fun h => hi h.symm), zero_mul]
  · intro h; exact absurd (Finset.mem_univ _) h

theorem poss_apply (v : Fin 32) (b : Fin 8192) :
    poss (ix2 v b) = (((v.val - spanStart (laneFeat v) : ℕ) : ℝ) : EReal) := by
  unfold poss
  refine (broadcastTo_apply _ broadcasts_S32x1_S32x8192 (ix2 v b) (ix2 v (0 : Fin 1)) (fun a => by
    match a with
    | ⟨0, _⟩ => rfl
    | ⟨1, _⟩ => rfl)).trans ?_
  refine (extractStridedSlice_apply ![0, 0] _ slices_S32x8_o0_0_S32x1 (ix2 v (0 : Fin 1)) (ix2 v (0 : Fin 8)) (fun a => by
    match a with
    | ⟨0, _⟩ => show v.val = 0 + v.val; omega
    | ⟨1, _⟩ => rfl)).trans ?_
  show FloatOps.sitofp (F := Ideal) .f32 (subi (iota .tc S32x8 32 [0] iota_S32x8_d0_w32) (addi k0_pay7 k0_pay10) (ix2 v (0 : Fin 8))) = _
  rw [pos_word, sitofp_ideal, pos_toInt]
  norm_cast

/-- Entry (v, b) of the multi-hot block. -/
theorem hot_apply (v52 : Vec Ideal S7x8192 .i32) (v : Fin 32) (b : Fin 8192)
    (hr : (v52 (ix2 (⟨(laneFeat v).val, laneFeat_lt v⟩ : Fin 7) b)).toNat < 2 ^ 31) :
    k0_pay11 (F := Ideal) (iota .tc S32x8 32 [0] iota_S32x8_d0_w32) (iota .tc S32x8 32 [1] iota_S32x8_d1_w32) k0_pay7 k0_pay9 k0_pay10 v52 (ix2 v b)
      = if (v52 (ix2 (⟨(laneFeat v).val, laneFeat_lt v⟩ : Fin 7) b)).toNat = v.val - spanStart (laneFeat v) then (1 : EReal) else 0 := by
  rw [pay11_eq]
  show FloatOps.sitofp (F := Ideal) .f32 ((FloatOps.cmpf (F := Ideal) .oeq (reps v52 (ix2 v b)) (poss (ix2 v b))).setWidth 32) = _
  rw [reps_apply, poss_apply, sitofp_ideal]
  have hint : (v52 (ix2 (⟨(laneFeat v).val, laneFeat_lt v⟩ : Fin 7) b)).toInt
      = ((v52 (ix2 (⟨(laneFeat v).val, laneFeat_lt v⟩ : Fin 7) b)).toNat : ℤ) := by
    rw [BitVec.toInt_eq_toNat_of_lt]; omega
  rw [hint]
  show (((BitVec.setWidth 32 (Ideal.cmp .oeq _ _)).toInt : ℝ) : EReal) = _
  unfold Ideal.cmp
  by_cases h : (v52 (ix2 (⟨(laneFeat v).val, laneFeat_lt v⟩ : Fin 7) b)).toNat = v.val - spanStart (laneFeat v)
  · rw [if_pos h, h]
    simp
  · rw [if_neg h]
    have hne : ¬ ((((((v52 (ix2 (⟨(laneFeat v).val, laneFeat_lt v⟩ : Fin 7) b)).toNat : ℤ) : ℝ)) : EReal)
        = (((v.val - spanStart (laneFeat v) : ℕ) : ℝ) : EReal)) := by
      intro he
      apply h
      have := EReal.coe_eq_coe_iff.mp he
      exact_mod_cast this
    simp [hne, h]

end Cert.KernelIdeal.KHot

end
-- ==== Proof.KG.lean ====
/-
  The stacked projection matrix, row by row. The body stacks seven small products T_i · W1[8i … 8i+8, :] (one per
  feature, 6 or 4 rows each) into a 32 × 128 matrix, adds the first bias to its first six rows (the rows of
  feature 0, exactly one of which every batch column selects), and appends the two rows of W1 that multiply the
  numeric entries. Row s_i + r of the result, for r inside feature i's span, is row r of feature i's product
  (plus the bias when i = 0); rows 32 and 33 are rows 56 and 57 of W1.
-/
import proofs.«105925_g50397146251325_cont_8to1_c_54_18_alg».proof.Proof.Gen.KernelIdeal.Frame
import proofs.«105925_g50397146251325_cont_8to1_c_54_18_alg».proof.Proof.LibDot
import Idealize.ShloMosaic.Lib.Pipeline.Value

noncomputable section

open scoped BigOperators

namespace Cert.KernelIdeal.KG

open Cert.KernelIdeal Cert.KernelIdeal.Gen Idealize.ShloMosaic Idealize.ShloMosaic.ValueIdx

/-! ## The seven stacked pieces -/

/-- Row 0 + r of the stack is row r of piece 0. -/
theorem stack_0 (v65 : FVec Ideal S6x128 .f32) (v68 v71 v74 : FVec Ideal S4x128 .f32) (v77 : FVec Ideal S6x128 .f32) (v80 v83 : FVec Ideal S4x128 .f32) (r : Fin 6) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨r.val, by omega⟩ : Fin 32) j) = v65 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨r.val, by omega⟩ : Fin 32) j) 0 (by simp) S6x128 v65 rfl rfl 0 rfl (ix2 r j)
    (fun b hb => by
      match b with
      | ⟨0, _⟩ => exact absurd rfl hb
      | ⟨1, _⟩ => rfl)
    (Nat.zero_add _)

/-- Row 6 + r of the stack is row r of piece 1. -/
theorem stack_1 (v65 : FVec Ideal S6x128 .f32) (v68 v71 v74 : FVec Ideal S4x128 .f32) (v77 : FVec Ideal S6x128 .f32) (v80 v83 : FVec Ideal S4x128 .f32) (r : Fin 4) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨6 + r.val, by omega⟩ : Fin 32) j) = v68 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨6 + r.val, by omega⟩ : Fin 32) j) 1 (by simp) S4x128 v68 rfl rfl 6 rfl (ix2 r j)
    (fun b hb => by
      match b with
      | ⟨0, _⟩ => exact absurd rfl hb
      | ⟨1, _⟩ => rfl)
    rfl

/-- Row 10 + r of the stack is row r of piece 2. -/
theorem stack_2 (v65 : FVec Ideal S6x128 .f32) (v68 v71 v74 : FVec Ideal S4x128 .f32) (v77 : FVec Ideal S6x128 .f32) (v80 v83 : FVec Ideal S4x128 .f32) (r : Fin 4) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨10 + r.val, by omega⟩ : Fin 32) j) = v71 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨10 + r.val, by omega⟩ : Fin 32) j) 2 (by simp) S4x128 v71 rfl rfl 10 rfl (ix2 r j)
    (fun b hb => by
      match b with
      | ⟨0, _⟩ => exact absurd rfl hb
      | ⟨1, _⟩ => rfl)
    rfl

/-- Row 14 + r of the stack is row r of piece 3. -/
theorem stack_3 (v65 : FVec Ideal S6x128 .f32) (v68 v71 v74 : FVec Ideal S4x128 .f32) (v77 : FVec Ideal S6x128 .f32) (v80 v83 : FVec Ideal S4x128 .f32) (r : Fin 4) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨14 + r.val, by omega⟩ : Fin 32) j) = v74 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨14 + r.val, by omega⟩ : Fin 32) j) 3 (by simp) S4x128 v74 rfl rfl 14 rfl (ix2 r j)
    (fun b hb => by
      match b with
      | ⟨0, _⟩ => exact absurd rfl hb
      | ⟨1, _⟩ => rfl)
    rfl

/-- Row 18 + r of the stack is row r of piece 4. -/
theorem stack_4 (v65 : FVec Ideal S6x128 .f32) (v68 v71 v74 : FVec Ideal S4x128 .f32) (v77 : FVec Ideal S6x128 .f32) (v80 v83 : FVec Ideal S4x128 .f32) (r : Fin 6) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨18 + r.val, by omega⟩ : Fin 32) j) = v77 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨18 + r.val, by omega⟩ : Fin 32) j) 4 (by simp) S6x128 v77 rfl rfl 18 rfl (ix2 r j)
    (fun b hb => by
      match b with
      | ⟨0, _⟩ => exact absurd rfl hb
      | ⟨1, _⟩ => rfl)
    rfl

/-- Row 24 + r of the stack is row r of piece 5. -/
theorem stack_5 (v65 : FVec Ideal S6x128 .f32) (v68 v71 v74 : FVec Ideal S4x128 .f32) (v77 : FVec Ideal S6x128 .f32) (v80 v83 : FVec Ideal S4x128 .f32) (r : Fin 4) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨24 + r.val, by omega⟩ : Fin 32) j) = v80 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨24 + r.val, by omega⟩ : Fin 32) j) 5 (by simp) S4x128 v80 rfl rfl 24 rfl (ix2 r j)
    (fun b hb => by
      match b with
      | ⟨0, _⟩ => exact absurd rfl hb
      | ⟨1, _⟩ => rfl)
    rfl

/-- Row 28 + r of the stack is row r of piece 6. -/
theorem stack_6 (v65 : FVec Ideal S6x128 .f32) (v68 v71 v74 : FVec Ideal S4x128 .f32) (v77 : FVec Ideal S6x128 .f32) (v80 v83 : FVec Ideal S4x128 .f32) (r : Fin 4) (j : Fin 128) :
    (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32) (ix2 (⟨28 + r.val, by omega⟩ : Fin 32) j) = v83 (ix2 r j) :=
  concatenate_apply_piece (0 : Fin S32x128.rank) [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0
    (ix2 (⟨28 + r.val, by omega⟩ : Fin 32) j) 6 (by simp) S4x128 v83 rfl rfl 28 rfl (ix2 r j)
    (fun b hb => by
      match b with
      | ⟨0, _⟩ => exact absurd rfl hb
      | ⟨1, _⟩ => rfl)
    rfl

/-! ## The bias rows -/

/-- The comparison of a lane counter with six, decided lane by lane. -/
theorem lane_lt_six : ∀ v : Fin 32, IntOp.cmpi .slt (BitVec.ofNat 32 v.val) 6#32 = if v.val < 6 then 1#1 else 0#1 := by decide

/-- The first bias on the first six rows, zero on the others. -/
def biasRows (v88 : Vec Ideal S128 .f32) : FVec Ideal S32x128 .f32 :=
  select (cmpi .slt (iota .tc S32x128 32 [0] iota_S32x128_d0_w32) (broadcast S32x128 6#32))
    (broadcastTo S32x128 (shapeCast S1x128 (shapeCast S1x128 v88 shapeCasts_S128_S1x128) shapeCasts_S1x128_S1x128) broadcasts_S1x128_S32x128)
    (broadcast S32x128 (Scalar.ofBits .f32 0x00000000#32))

theorem biasRows_apply (v88 : Vec Ideal S128 .f32) (v : Fin 32) (j : Fin 128) :
    biasRows v88 (ix2 v j) = if v.val < 6 then v88 (ix1 j) else 0 := by
  unfold biasRows
  rw [select_apply]
  have hc : cmpi .slt (iota .tc S32x128 32 [0] iota_S32x128_d0_w32) (broadcast S32x128 6#32) (ix2 v j)
      = if v.val < 6 then 1#1 else 0#1 := by
    show IntOp.cmpi .slt (iota .tc S32x128 32 [0] iota_S32x128_d0_w32 (ix2 v j)) 6#32 = _
    rw [iota_single_apply]
    exact lane_lt_six v
  rw [hc]
  by_cases h : v.val < 6
  · rw [if_pos h, if_pos h, select_one]
    refine (broadcastTo_apply _ broadcasts_S1x128_S32x128 (ix2 v j) (ix2 (0 : Fin 1) j) (fun a => by
      match a with
      | ⟨0, _⟩ => rfl
      | ⟨1, _⟩ => rfl)).trans ?_
    rw [shapeCast_self]
    exact shapeCast_apply v88 shapeCasts_S128_S1x128 (ix2 (0 : Fin 1) j) (ix1 j) (by
      rw [Shape.rowMajor_val_one, Shape.rowMajor_val_two]; show j.val = 0 * 128 + j.val; omega)
  · rw [if_neg h, if_neg h, select_zero]
    show Ideal.ofBits .f32 0x00000000#32 = 0
    exact Ideal.ofBits_zero_f32

/-! ## The 34 rows of the two operands of the first layer's product -/

/-- The stacked matrix with the bias rows added and the two numeric rows of W1 appended. -/
def wext (G : FVec Ideal S32x128 .f32) (v88 : Vec Ideal S128 .f32) (v99 : Vec Ideal S2x128 .f32) : FVec Ideal S34x128 .f32 :=
  concatenate S34x128 0 [⟨S32x128, addf G (biasRows v88)⟩, ⟨S2x128, v99⟩] concatenates_S32x128_S2x128_S34x128_d0

/-- The multi-hot block with the two numeric rows appended. -/
def hext (v62 : FVec Ideal S32x8192 .bf16) (v95 : Vec Ideal S2x8192 .f32) : FVec Ideal S34x8192 .bf16 :=
  concatenate S34x8192 0 [⟨S32x8192, v62⟩,
    ⟨S2x8192, (truncf .bf16 (shapeCast S2x8192 v95 shapeCasts_S2x8192_S2x8192 : FVec Ideal S2x8192 .f32) bitsLt_bf16_f32 : FVec Ideal S2x8192 .bf16)⟩]
    concatenates_S32x8192_S2x8192_S34x8192_d0

theorem wext_lane (G : FVec Ideal S32x128 .f32) (v88 : Vec Ideal S128 .f32) (v99 : Vec Ideal S2x128 .f32) (v : Fin 32) (j : Fin 128) :
    wext G v88 v99 (ix2 (⟨v.val, by omega⟩ : Fin 34) j) = G (ix2 v j) + (if v.val < 6 then v88 (ix1 j) else 0) := by
  unfold wext
  refine (concatenate_pair_apply_left (0 : Fin S34x128.rank) _ _ concatenates_S32x128_S2x128_S34x128_d0
    (ix2 (⟨v.val, by omega⟩ : Fin 34) j) rfl (ix2 v j) (fun a => by
      match a with
      | ⟨0, _⟩ => rfl
      | ⟨1, _⟩ => rfl)).trans ?_
  rw [addf_apply, biasRows_apply]

theorem wext_num (G : FVec Ideal S32x128 .f32) (v88 : Vec Ideal S128 .f32) (v99 : Vec Ideal S2x128 .f32) (k : Fin 2) (j : Fin 128) :
    wext G v88 v99 (ix2 (⟨32 + k.val, by omega⟩ : Fin 34) j) = v99 (ix2 k j) := by
  unfold wext
  exact concatenate_pair_apply_right (0 : Fin S34x128.rank) _ _ concatenates_S32x128_S2x128_S34x128_d0
    (ix2 (⟨32 + k.val, by omega⟩ : Fin 34) j) rfl rfl (ix2 k j) (fun a ha => by
      match a with
      | ⟨0, _⟩ => exact absurd rfl ha
      | ⟨1, _⟩ => rfl) (by show k.val + 32 = 32 + k.val; omega)

theorem hext_lane (v62 : FVec Ideal S32x8192 .bf16) (v95 : Vec Ideal S2x8192 .f32) (v : Fin 32) (b : Fin 8192) :
    hext v62 v95 (ix2 (⟨v.val, by omega⟩ : Fin 34) b) = v62 (ix2 v b) := by
  unfold hext
  exact concatenate_pair_apply_left (0 : Fin S34x8192.rank) _ _ concatenates_S32x8192_S2x8192_S34x8192_d0
    (ix2 (⟨v.val, by omega⟩ : Fin 34) b) rfl (ix2 v b) (fun a => by
      match a with
      | ⟨0, _⟩ => rfl
      | ⟨1, _⟩ => rfl)

theorem hext_num (v62 : FVec Ideal S32x8192 .bf16) (v95 : Vec Ideal S2x8192 .f32) (k : Fin 2) (b : Fin 8192) :
    hext v62 v95 (ix2 (⟨32 + k.val, by omega⟩ : Fin 34) b) = v95 (ix2 k b) := by
  unfold hext
  refine (concatenate_pair_apply_right (0 : Fin S34x8192.rank) _ _ concatenates_S32x8192_S2x8192_S34x8192_d0
    (ix2 (⟨32 + k.val, by omega⟩ : Fin 34) b) rfl rfl (ix2 k b) (fun a ha => by
      match a with
      | ⟨0, _⟩ => exact absurd rfl ha
      | ⟨1, _⟩ => rfl) (by show k.val + 32 = 32 + k.val; omega)).trans ?_
  show shapeCast S2x8192 v95 shapeCasts_S2x8192_S2x8192 (ix2 k b) = _
  rw [shapeCast_self]

end Cert.KernelIdeal.KG

end
-- ==== Proof.KSum.lean ====
/-
  Sums over 34 rows in eight runs, and a sum against an indicator.

  The first layer's contraction runs over 34 rows: seven runs of 6, 4, 4, 4, 6, 4, 4 rows (one run per feature)
  and a last run of 2 rows (the numeric entries). A sum over all rows is the sum of the eight runs' sums
  (associativity of addition), and inside a feature's run the second factor is the indicator of ONE row, so the
  run's sum is the first factor at that row (0 · x = 0, 1 · x = x, x + 0 = x: true of every extended real).
-/
import Mathlib.Data.EReal.Basic
import Mathlib.Algebra.BigOperators.Fin

open scoped BigOperators

namespace Cert.KSum

/-- A sum over the first m + n naturals below m + n is the sum over the first m plus the sum over the next n. -/
theorem sum_split {M : Type} [AddCommMonoid M] (m n : Nat) (F : Fin (m + n) → M) :
    ∑ v, F v = (∑ r : Fin m, F ⟨r.val, by omega⟩) + ∑ r : Fin n, F ⟨m + r.val, by omega⟩ := by
  rw [Fin.sum_univ_add]; rfl

/-- The 34 rows in their eight runs. -/
theorem sum34 {M : Type} [AddCommMonoid M] (F : Fin 34 → M) :
    ∑ v, F v =
      (∑ r : Fin 6, F ⟨r.val, by omega⟩) + ((∑ r : Fin 4, F ⟨6 + r.val, by omega⟩) + ((∑ r : Fin 4, F ⟨10 + r.val, by omega⟩)
      + ((∑ r : Fin 4, F ⟨14 + r.val, by omega⟩) + ((∑ r : Fin 6, F ⟨18 + r.val, by omega⟩) + ((∑ r : Fin 4, F ⟨24 + r.val, by omega⟩)
      + ((∑ r : Fin 4, F ⟨28 + r.val, by omega⟩) + ∑ r : Fin 2, F ⟨32 + r.val, by omega⟩)))))) := by
  rw [sum_split 6 28 F, sum_split 4 24 (fun x => F ⟨6 + x.val, by omega⟩), sum_split 4 20 (fun x => F ⟨6 + (4 + x.val), by omega⟩),
    sum_split 4 16 (fun x => F ⟨6 + (4 + (4 + x.val)), by omega⟩), sum_split 6 10 (fun x => F ⟨6 + (4 + (4 + (4 + x.val))), by omega⟩),
    sum_split 4 6 (fun x => F ⟨6 + (4 + (4 + (4 + (6 + x.val)))), by omega⟩),
    sum_split 4 2 (fun x => F ⟨6 + (4 + (4 + (4 + (6 + (4 + x.val))))), by omega⟩)]
  simp only [← Nat.add_assoc]

/-- Against the indicator of row w, a run's sum is its first factor at row w. -/
theorem sum_pick (n : Nat) (f : Fin n → EReal) (w : Nat) (hw : w < n) :
    ∑ r : Fin n, f r * (if w = r.val then (1 : EReal) else 0) = f ⟨w, hw⟩ := by
  rw [Finset.sum_eq_single (⟨w, hw⟩ : Fin n)]
  · simp
  · intro r _ hr
    have : ¬ w = r.val := fun h => hr (Fin.ext h.symm)
    simp [this]
  · intro h; exact absurd (Finset.mem_univ _) h

end Cert.KSum
-- ==== Proof.KL1.lean ====
/-
  The first layer's contraction over its 34 rows, for one hidden unit j and one batch column b.

  The rows come in eight runs (KSum.sum34). In the run of feature i the second operand is the indicator of
  the row the column's word names, so the run contributes that row of the stacked matrix — feature i's product
  at the word, plus the bias when i = 0 —, and the last run contributes the two numeric terms.
-/
import proofs.«105925_g50397146251325_cont_8to1_c_54_18_alg».proof.Proof.KG
import proofs.«105925_g50397146251325_cont_8to1_c_54_18_alg».proof.Proof.KSum

noncomputable section

open scoped BigOperators

namespace Cert.KernelIdeal.KL1

open Cert.KernelIdeal Cert.KernelIdeal.Gen Cert.KernelIdeal.KG Idealize.ShloMosaic Idealize.ShloMosaic.ValueIdx

/-- The seven products stacked. -/
def stack (v65 : FVec Ideal S6x128 .f32) (v68 v71 v74 : FVec Ideal S4x128 .f32) (v77 : FVec Ideal S6x128 .f32) (v80 v83 : FVec Ideal S4x128 .f32) : FVec Ideal S32x128 .f32 :=
  (concatenate S32x128 0 [⟨S6x128, v65⟩, ⟨S4x128, v68⟩, ⟨S4x128, v71⟩, ⟨S4x128, v74⟩, ⟨S6x128, v77⟩, ⟨S4x128, v80⟩, ⟨S4x128, v83⟩] concatenates_S6x128_S4x128_S4x128_S4x128_S6x128_S4x128_S4x128_S32x128_d0 : FVec Ideal S32x128 .f32)

/-- The run of feature 0: rows 0 … 5. -/
theorem run_0 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 6)
    (hh : ∀ r : Fin 6, v62 (ix2 (⟨r.val, by omega⟩ : Fin 32) b) = if w = r.val then (1 : EReal) else 0) :
    ∑ r : Fin 6, wext (stack v65 v68 v71 v74 v77 v80 v83) v88 v99 (ix2 (⟨r.val, by omega⟩ : Fin 34) j)
        * hext v62 v95 (ix2 (⟨r.val, by omega⟩ : Fin 34) b)
      = v65 (ix2 (⟨w, hw⟩ : Fin 6) j) + v88 (ix1 j) := by
  have hterm : ∀ r : Fin 6, wext (stack v65 v68 v71 v74 v77 v80 v83) v88 v99 (ix2 (⟨r.val, by omega⟩ : Fin 34) j)
        * hext v62 v95 (ix2 (⟨r.val, by omega⟩ : Fin 34) b)
      = (v65 (ix2 r j) + v88 (ix1 j)) * (if w = r.val then (1 : EReal) else 0) := fun r => by
    refine (congrArg₂ (· * ·) (wext_lane (stack v65 v68 v71 v74 v77 v80 v83) v88 v99 (⟨r.val, by omega⟩ : Fin 32) j)
      (hext_lane v62 v95 (⟨r.val, by omega⟩ : Fin 32) b)).trans ?_
    show (stack v65 v68 v71 v74 v77 v80 v83 (ix2 (⟨r.val, by omega⟩ : Fin 32) j)
        + (if r.val < 6 then v88 (ix1 j) else 0)) * v62 (ix2 (⟨r.val, by omega⟩ : Fin 32) b) = _
    rw [hh r, if_pos (by omega)]
    unfold stack
    rw [stack_0]
  rw [Finset.sum_congr rfl (fun r _ => hterm r)]
  exact Cert.KSum.sum_pick 6 (fun r => v65 (ix2 r j) + v88 (ix1 j)) w hw

/-- The run of feature 1: rows 6 … 9. -/
theorem run_1 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 4)
    (hh : ∀ r : Fin 4, v62 (ix2 (⟨6 + r.val, by omega⟩ : Fin 32) b) = if w = r.val then (1 : EReal) else 0) :
    ∑ r : Fin 4, wext (stack v65 v68 v71 v74 v77 v80 v83) v88 v99 (ix2 (⟨6 + r.val, by omega⟩ : Fin 34) j)
        * hext v62 v95 (ix2 (⟨6 + r.val, by omega⟩ : Fin 34) b)
      = v68 (ix2 (⟨w, hw⟩ : Fin 4) j) + 0 := by
  have hterm : ∀ r : Fin 4, wext (stack v65 v68 v71 v74 v77 v80 v83) v88 v99 (ix2 (⟨6 + r.val, by omega⟩ : Fin 34) j)
        * hext v62 v95 (ix2 (⟨6 + r.val, by omega⟩ : Fin 34) b)
      = (v68 (ix2 r j) + 0) * (if w = r.val then (1 : EReal) else 0) := fun r => by
    refine (congrArg₂ (· * ·) (wext_lane (stack v65 v68 v71 v74 v77 v80 v83) v88 v99 (⟨6 + r.val, by omega⟩ : Fin 32) j)
      (hext_lane v62 v95 (⟨6 + r.val, by omega⟩ : Fin 32) b)).trans ?_
    show (stack v65 v68 v71 v74 v77 v80 v83 (ix2 (⟨6 + r.val, by omega⟩ : Fin 32) j)
        + (if 6 + r.val < 6 then v88 (ix1 j) else 0)) * v62 (ix2 (⟨6 + r.val, by omega⟩ : Fin 32) b) = _
    rw [hh r, if_neg (by omega)]
    unfold stack
    rw [stack_1]
  rw [Finset.sum_congr rfl (fun r _ => hterm r)]
  exact Cert.KSum.sum_pick 4 (fun r => v68 (ix2 r j) + 0) w hw

/-- The run of feature 2: rows 10 … 13. -/
theorem run_2 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 4)
    (hh : ∀ r : Fin 4, v62 (ix2 (⟨10 + r.val, by omega⟩ : Fin 32) b) = if w = r.val then (1 : EReal) else 0) :
    ∑ r : Fin 4, wext (stack v65 v68 v71 v74 v77 v80 v83) v88 v99 (ix2 (⟨10 + r.val, by omega⟩ : Fin 34) j)
        * hext v62 v95 (ix2 (⟨10 + r.val, by omega⟩ : Fin 34) b)
      = v71 (ix2 (⟨w, hw⟩ : Fin 4) j) + 0 := by
  have hterm : ∀ r : Fin 4, wext (stack v65 v68 v71 v74 v77 v80 v83) v88 v99 (ix2 (⟨10 + r.val, by omega⟩ : Fin 34) j)
        * hext v62 v95 (ix2 (⟨10 + r.val, by omega⟩ : Fin 34) b)
      = (v71 (ix2 r j) + 0) * (if w = r.val then (1 : EReal) else 0) := fun r => by
    refine (congrArg₂ (· * ·) (wext_lane (stack v65 v68 v71 v74 v77 v80 v83) v88 v99 (⟨10 + r.val, by omega⟩ : Fin 32) j)
      (hext_lane v62 v95 (⟨10 + r.val, by omega⟩ : Fin 32) b)).trans ?_
    show (stack v65 v68 v71 v74 v77 v80 v83 (ix2 (⟨10 + r.val, by omega⟩ : Fin 32) j)
        + (if 10 + r.val < 6 then v88 (ix1 j) else 0)) * v62 (ix2 (⟨10 + r.val, by omega⟩ : Fin 32) b) = _
    rw [hh r, if_neg (by omega)]
    unfold stack
    rw [stack_2]
  rw [Finset.sum_congr rfl (fun r _ => hterm r)]
  exact Cert.KSum.sum_pick 4 (fun r => v71 (ix2 r j) + 0) w hw

/-- The run of feature 3: rows 14 … 17. -/
theorem run_3 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 4)
    (hh : ∀ r : Fin 4, v62 (ix2 (⟨14 + r.val, by omega⟩ : Fin 32) b) = if w = r.val then (1 : EReal) else 0) :
    ∑ r : Fin 4, wext (stack v65 v68 v71 v74 v77 v80 v83) v88 v99 (ix2 (⟨14 + r.val, by omega⟩ : Fin 34) j)
        * hext v62 v95 (ix2 (⟨14 + r.val, by omega⟩ : Fin 34) b)
      = v74 (ix2 (⟨w, hw⟩ : Fin 4) j) + 0 := by
  have hterm : ∀ r : Fin 4, wext (stack v65 v68 v71 v74 v77 v80 v83) v88 v99 (ix2 (⟨14 + r.val, by omega⟩ : Fin 34) j)
        * hext v62 v95 (ix2 (⟨14 + r.val, by omega⟩ : Fin 34) b)
      = (v74 (ix2 r j) + 0) * (if w = r.val then (1 : EReal) else 0) := fun r => by
    refine (congrArg₂ (· * ·) (wext_lane (stack v65 v68 v71 v74 v77 v80 v83) v88 v99 (⟨14 + r.val, by omega⟩ : Fin 32) j)
      (hext_lane v62 v95 (⟨14 + r.val, by omega⟩ : Fin 32) b)).trans ?_
    show (stack v65 v68 v71 v74 v77 v80 v83 (ix2 (⟨14 + r.val, by omega⟩ : Fin 32) j)
        + (if 14 + r.val < 6 then v88 (ix1 j) else 0)) * v62 (ix2 (⟨14 + r.val, by omega⟩ : Fin 32) b) = _
    rw [hh r, if_neg (by omega)]
    unfold stack
    rw [stack_3]
  rw [Finset.sum_congr rfl (fun r _ => hterm r)]
  exact Cert.KSum.sum_pick 4 (fun r => v74 (ix2 r j) + 0) w hw

/-- The run of feature 4: rows 18 … 23. -/
theorem run_4 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 6)
    (hh : ∀ r : Fin 6, v62 (ix2 (⟨18 + r.val, by omega⟩ : Fin 32) b) = if w = r.val then (1 : EReal) else 0) :
    ∑ r : Fin 6, wext (stack v65 v68 v71 v74 v77 v80 v83) v88 v99 (ix2 (⟨18 + r.val, by omega⟩ : Fin 34) j)
        * hext v62 v95 (ix2 (⟨18 + r.val, by omega⟩ : Fin 34) b)
      = v77 (ix2 (⟨w, hw⟩ : Fin 6) j) + 0 := by
  have hterm : ∀ r : Fin 6, wext (stack v65 v68 v71 v74 v77 v80 v83) v88 v99 (ix2 (⟨18 + r.val, by omega⟩ : Fin 34) j)
        * hext v62 v95 (ix2 (⟨18 + r.val, by omega⟩ : Fin 34) b)
      = (v77 (ix2 r j) + 0) * (if w = r.val then (1 : EReal) else 0) := fun r => by
    refine (congrArg₂ (· * ·) (wext_lane (stack v65 v68 v71 v74 v77 v80 v83) v88 v99 (⟨18 + r.val, by omega⟩ : Fin 32) j)
      (hext_lane v62 v95 (⟨18 + r.val, by omega⟩ : Fin 32) b)).trans ?_
    show (stack v65 v68 v71 v74 v77 v80 v83 (ix2 (⟨18 + r.val, by omega⟩ : Fin 32) j)
        + (if 18 + r.val < 6 then v88 (ix1 j) else 0)) * v62 (ix2 (⟨18 + r.val, by omega⟩ : Fin 32) b) = _
    rw [hh r, if_neg (by omega)]
    unfold stack
    rw [stack_4]
  rw [Finset.sum_congr rfl (fun r _ => hterm r)]
  exact Cert.KSum.sum_pick 6 (fun r => v77 (ix2 r j) + 0) w hw

/-- The run of feature 5: rows 24 … 27. -/
theorem run_5 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 4)
    (hh : ∀ r : Fin 4, v62 (ix2 (⟨24 + r.val, by omega⟩ : Fin 32) b) = if w = r.val then (1 : EReal) else 0) :
    ∑ r : Fin 4, wext (stack v65 v68 v71 v74 v77 v80 v83) v88 v99 (ix2 (⟨24 + r.val, by omega⟩ : Fin 34) j)
        * hext v62 v95 (ix2 (⟨24 + r.val, by omega⟩ : Fin 34) b)
      = v80 (ix2 (⟨w, hw⟩ : Fin 4) j) + 0 := by
  have hterm : ∀ r : Fin 4, wext (stack v65 v68 v71 v74 v77 v80 v83) v88 v99 (ix2 (⟨24 + r.val, by omega⟩ : Fin 34) j)
        * hext v62 v95 (ix2 (⟨24 + r.val, by omega⟩ : Fin 34) b)
      = (v80 (ix2 r j) + 0) * (if w = r.val then (1 : EReal) else 0) := fun r => by
    refine (congrArg₂ (· * ·) (wext_lane (stack v65 v68 v71 v74 v77 v80 v83) v88 v99 (⟨24 + r.val, by omega⟩ : Fin 32) j)
      (hext_lane v62 v95 (⟨24 + r.val, by omega⟩ : Fin 32) b)).trans ?_
    show (stack v65 v68 v71 v74 v77 v80 v83 (ix2 (⟨24 + r.val, by omega⟩ : Fin 32) j)
        + (if 24 + r.val < 6 then v88 (ix1 j) else 0)) * v62 (ix2 (⟨24 + r.val, by omega⟩ : Fin 32) b) = _
    rw [hh r, if_neg (by omega)]
    unfold stack
    rw [stack_5]
  rw [Finset.sum_congr rfl (fun r _ => hterm r)]
  exact Cert.KSum.sum_pick 4 (fun r => v80 (ix2 r j) + 0) w hw

/-- The run of feature 6: rows 28 … 31. -/
theorem run_6 (v65 : FVec Ideal S6x128 .f32) (v68 v71 v74 : FVec Ideal S4x128 .f32) (v77 : FVec Ideal S6x128 .f32) (v80 v83 : FVec Ideal S4x128 .f32) (v88 : Vec Ideal S128 .f32) (v99 : Vec Ideal S2x128 .f32)
    (v62 : FVec Ideal S32x8192 .bf16) (v95 : Vec Ideal S2x8192 .f32) (j : Fin 128) (b : Fin 8192) (w : Nat) (hw : w < 4)
    (hh : ∀ r : Fin 4, v62 (ix2 (⟨28 + r.val, by omega⟩ : Fin 32) b) = if w = r.val then (1 : EReal) else 0) :
    ∑ r : Fin 4, wext (stack v65 v68 v71 v74 v77 v80 v83) v88 v99 (ix2 (⟨28 + r.val, by omega⟩ : Fin 34) j)
        * hext v62 v95 (ix2 (⟨28 + r.val, by omega⟩ : Fin 34) b)
      = v83 (ix2 (⟨w, hw⟩ : Fin 4) j) + 0 := by
  have hterm : ∀ r : Fin 4, wext (stack v65 v68 v71 v74 v77 v80 v83) v88 v99 (ix2 (⟨28 + r.val, by omega⟩ : Fin 34) j)
        * hext v62 v95 (ix2 (⟨28 + r.val, by omega⟩ : Fin 34) b)
      = (v83 (ix2 r j) + 0) * (if w = r.val then (1 : EReal) else 0) := fun r => by
    refine (congrArg₂ (· * ·) (wext_lane (stack v65 v68 v71 v74 v77 v80 v83) v88 v99 (⟨28 + r.val, by omega⟩ : Fin 32) j)
      (hext_lane v62 v95 (⟨28 + r.val, by omega⟩ : Fin 32) b)).trans ?_
    show (stack v65 v68 v71 v74 v77 v80 v83 (ix2 (⟨28 + r.val, by omega⟩ : Fin 32) j)
        + (if 28 + r.val < 6 then v88 (ix1 j) else 0)) * v62 (ix2 (⟨28 + r.val, by omega⟩ : Fin 32) b) = _
    rw [hh r, if_neg (by omega)]
    unfold stack
    rw [stack_6]
  rw [Finset.sum_congr rfl (fun r _ => hterm r)]
  exact Cert.KSum.sum_pick 4 (fun r => v83 (ix2 r j) + 0) w hw

/-- The last run: the two numeric rows. -/
theorem run_num (G : FVec Ideal S32x128 .f32) (v88 : Vec Ideal S128 .f32) (v99 : Vec Ideal S2x128 .f32)
    (v62 : FVec Ideal S32x8192 .bf16) (v95 : Vec Ideal S2x8192 .f32) (j : Fin 128) (b : Fin 8192) :
    ∑ k : Fin 2, wext G v88 v99 (ix2 (⟨32 + k.val, by omega⟩ : Fin 34) j) * hext v62 v95 (ix2 (⟨32 + k.val, by omega⟩ : Fin 34) b)
      = ∑ k : Fin 2, v99 (ix2 k j) * v95 (ix2 k b) :=
  Finset.sum_congr rfl fun k _ => by rw [wext_num, hext_num]

end Cert.KernelIdeal.KL1

end
-- ==== Proof.KPre.lean ====
/-
  The first layer, for one hidden unit j and one batch column b, as the body computes it: the maximum with zero
  of the eight runs' contributions. The word of feature i in column b picks row (word) of feature i's product;
  feature 0's run also carries the bias, the other runs carry an added zero, the last run the numeric terms.
-/
import proofs.«105925_g50397146251325_cont_8to1_c_54_18_alg».proof.Proof.KHot
import proofs.«105925_g50397146251325_cont_8to1_c_54_18_alg».proof.Proof.KL1
import proofs.«105925_g50397146251325_cont_8to1_c_54_18_alg».proof.Proof.Spec

noncomputable section

open scoped BigOperators

namespace Cert.KernelIdeal.KPre

open Cert.KernelIdeal Cert.KernelIdeal.Gen Cert.KernelIdeal.KConst Cert.KernelIdeal.KHot Cert.KernelIdeal.KG Cert.KernelIdeal.KL1
open Idealize.ShloMosaic Idealize.ShloMosaic.ValueIdx

/-- No table has more than six rows. -/
theorem voc_le : ∀ i : Fin 7, Cert.Tower.voc i ≤ 6 := by decide

/-- The lanes of feature 0's span belong to feature 0, at positions 0 … 5. -/
theorem lanes_0 : ∀ r : Fin 6, (laneFeat (⟨r.val, by omega⟩ : Fin 32)).val = 0
    ∧ r.val - spanStart (laneFeat (⟨r.val, by omega⟩ : Fin 32)) = r.val := by decide

/-- The multi-hot block on feature 0's span. -/
theorem hot_0 (x0 : Vec Ideal S7x8192 .i32) (bb : Fin 8192) (hr : ∀ i : Fin 7, (x0 (ix2 i bb)).toNat < Cert.Tower.voc i) (r : Fin 6) :
    k0_pay11 (F := Ideal) (iota .tc S32x8 32 [0] iota_S32x8_d0_w32) (iota .tc S32x8 32 [1] iota_S32x8_d1_w32) k0_pay7 k0_pay9 k0_pay10 x0
        (ix2 (⟨r.val, by omega⟩ : Fin 32) bb)
      = if (x0 (ix2 (0 : Fin 7) bb)).toNat = r.val then (1 : EReal) else 0 := by
  have hlt : (x0 (ix2 (⟨(laneFeat (⟨r.val, by omega⟩ : Fin 32)).val, laneFeat_lt _⟩ : Fin 7) bb)).toNat < 2 ^ 31 :=
    lt_of_lt_of_le (hr _) (le_trans (voc_le _) (by norm_num))
  have h := hot_apply x0 (⟨r.val, by omega⟩ : Fin 32) bb hlt
  obtain ⟨e1, e2⟩ := lanes_0 r
  have eidx : (⟨(laneFeat (⟨r.val, by omega⟩ : Fin 32)).val, laneFeat_lt _⟩ : Fin 7) = (0 : Fin 7) := Fin.ext e1
  rw [eidx] at h
  rw [h]
  show (if _ = r.val - spanStart (laneFeat (⟨r.val, by omega⟩ : Fin 32)) then (1 : EReal) else 0) = _
  rw [e2]

/-- The lanes of feature 1's span belong to feature 1, at positions 0 … 3. -/
theorem lanes_1 : ∀ r : Fin 4, (laneFeat (⟨6 + r.val, by omega⟩ : Fin 32)).val = 1
    ∧ (6 + r.val) - spanStart (laneFeat (⟨6 + r.val, by omega⟩ : Fin 32)) = r.val := by decide

/-- The multi-hot block on feature 1's span. -/
theorem hot_1 (x0 : Vec Ideal S7x8192 .i32) (bb : Fin 8192) (hr : ∀ i : Fin 7, (x0 (ix2 i bb)).toNat < Cert.Tower.voc i) (r : Fin 4) :
    k0_pay11 (F := Ideal) (iota .tc S32x8 32 [0] iota_S32x8_d0_w32) (iota .tc S32x8 32 [1] iota_S32x8_d1_w32) k0_pay7 k0_pay9 k0_pay10 x0
        (ix2 (⟨6 + r.val, by omega⟩ : Fin 32) bb)
      = if (x0 (ix2 (1 : Fin 7) bb)).toNat = r.val then (1 : EReal) else 0 := by
  have hlt : (x0 (ix2 (⟨(laneFeat (⟨6 + r.val, by omega⟩ : Fin 32)).val, laneFeat_lt _⟩ : Fin 7) bb)).toNat < 2 ^ 31 :=
    lt_of_lt_of_le (hr _) (le_trans (voc_le _) (by norm_num))
  have h := hot_apply x0 (⟨6 + r.val, by omega⟩ : Fin 32) bb hlt
  obtain ⟨e1, e2⟩ := lanes_1 r
  have eidx : (⟨(laneFeat (⟨6 + r.val, by omega⟩ : Fin 32)).val, laneFeat_lt _⟩ : Fin 7) = (1 : Fin 7) := Fin.ext e1
  rw [eidx] at h
  rw [h]
  show (if _ = (6 + r.val) - spanStart (laneFeat (⟨6 + r.val, by omega⟩ : Fin 32)) then (1 : EReal) else 0) = _
  rw [e2]

/-- The lanes of feature 2's span belong to feature 2, at positions 0 … 3. -/
theorem lanes_2 : ∀ r : Fin 4, (laneFeat (⟨10 + r.val, by omega⟩ : Fin 32)).val = 2
    ∧ (10 + r.val) - spanStart (laneFeat (⟨10 + r.val, by omega⟩ : Fin 32)) = r.val := by decide

/-- The multi-hot block on feature 2's span. -/
theorem hot_2 (x0 : Vec Ideal S7x8192 .i32) (bb : Fin 8192) (hr : ∀ i : Fin 7, (x0 (ix2 i bb)).toNat < Cert.Tower.voc i) (r : Fin 4) :
    k0_pay11 (F := Ideal) (iota .tc S32x8 32 [0] iota_S32x8_d0_w32) (iota .tc S32x8 32 [1] iota_S32x8_d1_w32) k0_pay7 k0_pay9 k0_pay10 x0
        (ix2 (⟨10 + r.val, by omega⟩ : Fin 32) bb)
      = if (x0 (ix2 (2 : Fin 7) bb)).toNat = r.val then (1 : EReal) else 0 := by
  have hlt : (x0 (ix2 (⟨(laneFeat (⟨10 + r.val, by omega⟩ : Fin 32)).val, laneFeat_lt _⟩ : Fin 7) bb)).toNat < 2 ^ 31 :=
    lt_of_lt_of_le (hr _) (le_trans (voc_le _) (by norm_num))
  have h := hot_apply x0 (⟨10 + r.val, by omega⟩ : Fin 32) bb hlt
  obtain ⟨e1, e2⟩ := lanes_2 r
  have eidx : (⟨(laneFeat (⟨10 + r.val, by omega⟩ : Fin 32)).val, laneFeat_lt _⟩ : Fin 7) = (2 : Fin 7) := Fin.ext e1
  rw [eidx] at h
  rw [h]
  show (if _ = (10 + r.val) - spanStart (laneFeat (⟨10 + r.val, by omega⟩ : Fin 32)) then (1 : EReal) else 0) = _
  rw [e2]

/-- The lanes of feature 3's span belong to feature 3, at positions 0 … 3. -/
theorem lanes_3 : ∀ r : Fin 4, (laneFeat (⟨14 + r.val, by omega⟩ : Fin 32)).val = 3
    ∧ (14 + r.val) - spanStart (laneFeat (⟨14 + r.val, by omega⟩ : Fin 32)) = r.val := by decide

/-- The multi-hot block on feature 3's span. -/
theorem hot_3 (x0 : Vec Ideal S7x8192 .i32) (bb : Fin 8192) (hr : ∀ i : Fin 7, (x0 (ix2 i bb)).toNat < Cert.Tower.voc i) (r : Fin 4) :
    k0_pay11 (F := Ideal) (iota .tc S32x8 32 [0] iota_S32x8_d0_w32) (iota .tc S32x8 32 [1] iota_S32x8_d1_w32) k0_pay7 k0_pay9 k0_pay10 x0
        (ix2 (⟨14 + r.val, by omega⟩ : Fin 32) bb)
      = if (x0 (ix2 (3 : Fin 7) bb)).toNat = r.val then (1 : EReal) else 0 := by
  have hlt : (x0 (ix2 (⟨(laneFeat (⟨14 + r.val, by omega⟩ : Fin 32)).val, laneFeat_lt _⟩ : Fin 7) bb)).toNat < 2 ^ 31 :=
    lt_of_lt_of_le (hr _) (le_trans (voc_le _) (by norm_num))
  have h := hot_apply x0 (⟨14 + r.val, by omega⟩ : Fin 32) bb hlt
  obtain ⟨e1, e2⟩ := lanes_3 r
  have eidx : (⟨(laneFeat (⟨14 + r.val, by omega⟩ : Fin 32)).val, laneFeat_lt _⟩ : Fin 7) = (3 : Fin 7) := Fin.ext e1
  rw [eidx] at h
  rw [h]
  show (if _ = (14 + r.val) - spanStart (laneFeat (⟨14 + r.val, by omega⟩ : Fin 32)) then (1 : EReal) else 0) = _
  rw [e2]

/-- The lanes of feature 4's span belong to feature 4, at positions 0 … 5. -/
theorem lanes_4 : ∀ r : Fin 6, (laneFeat (⟨18 + r.val, by omega⟩ : Fin 32)).val = 4
    ∧ (18 + r.val) - spanStart (laneFeat (⟨18 + r.val, by omega⟩ : Fin 32)) = r.val := by decide

/-- The multi-hot block on feature 4's span. -/
theorem hot_4 (x0 : Vec Ideal S7x8192 .i32) (bb : Fin 8192) (hr : ∀ i : Fin 7, (x0 (ix2 i bb)).toNat < Cert.Tower.voc i) (r : Fin 6) :
    k0_pay11 (F := Ideal) (iota .tc S32x8 32 [0] iota_S32x8_d0_w32) (iota .tc S32x8 32 [1] iota_S32x8_d1_w32) k0_pay7 k0_pay9 k0_pay10 x0
        (ix2 (⟨18 + r.val, by omega⟩ : Fin 32) bb)
      = if (x0 (ix2 (4 : Fin 7) bb)).toNat = r.val then (1 : EReal) else 0 := by
  have hlt : (x0 (ix2 (⟨(laneFeat (⟨18 + r.val, by omega⟩ : Fin 32)).val, laneFeat_lt _⟩ : Fin 7) bb)).toNat < 2 ^ 31 :=
    lt_of_lt_of_le (hr _) (le_trans (voc_le _) (by norm_num))
  have h := hot_apply x0 (⟨18 + r.val, by omega⟩ : Fin 32) bb hlt
  obtain ⟨e1, e2⟩ := lanes_4 r
  have eidx : (⟨(laneFeat (⟨18 + r.val, by omega⟩ : Fin 32)).val, laneFeat_lt _⟩ : Fin 7) = (4 : Fin 7) := Fin.ext e1
  rw [eidx] at h
  rw [h]
  show (if _ = (18 + r.val) - spanStart (laneFeat (⟨18 + r.val, by omega⟩ : Fin 32)) then (1 : EReal) else 0) = _
  rw [e2]

/-- The lanes of feature 5's span belong to feature 5, at positions 0 … 3. -/
theorem lanes_5 : ∀ r : Fin 4, (laneFeat (⟨24 + r.val, by omega⟩ : Fin 32)).val = 5
    ∧ (24 + r.val) - spanStart (laneFeat (⟨24 + r.val, by omega⟩ : Fin 32)) = r.val := by decide

/-- The multi-hot block on feature 5's span. -/
theorem hot_5 (x0 : Vec Ideal S7x8192 .i32) (bb : Fin 8192) (hr : ∀ i : Fin 7, (x0 (ix2 i bb)).toNat < Cert.Tower.voc i) (r : Fin 4) :
    k0_pay11 (F := Ideal) (iota .tc S32x8 32 [0] iota_S32x8_d0_w32) (iota .tc S32x8 32 [1] iota_S32x8_d1_w32) k0_pay7 k0_pay9 k0_pay10 x0
        (ix2 (⟨24 + r.val, by omega⟩ : Fin 32) bb)
      = if (x0 (ix2 (5 : Fin 7) bb)).toNat = r.val then (1 : EReal) else 0 := by
  have hlt : (x0 (ix2 (⟨(laneFeat (⟨24 + r.val, by omega⟩ : Fin 32)).val, laneFeat_lt _⟩ : Fin 7) bb)).toNat < 2 ^ 31 :=
    lt_of_lt_of_le (hr _) (le_trans (voc_le _) (by norm_num))
  have h := hot_apply x0 (⟨24 + r.val, by omega⟩ : Fin 32) bb hlt
  obtain ⟨e1, e2⟩ := lanes_5 r
  have eidx : (⟨(laneFeat (⟨24 + r.val, by omega⟩ : Fin 32)).val, laneFeat_lt _⟩ : Fin 7) = (5 : Fin 7) := Fin.ext e1
  rw [eidx] at h
  rw [h]
  show (if _ = (24 + r.val) - spanStart (laneFeat (⟨24 + r.val, by omega⟩ : Fin 32)) then (1 : EReal) else 0) = _
  rw [e2]

/-- The lanes of feature 6's span belong to feature 6, at positions 0 … 3. -/
theorem lanes_6 : ∀ r : Fin 4, (laneFeat (⟨28 + r.val, by omega⟩ : Fin 32)).val = 6
    ∧ (28 + r.val) - spanStart (laneFeat (⟨28 + r.val, by omega⟩ : Fin 32)) = r.val := by decide

/-- The multi-hot block on feature 6's span. -/
theorem hot_6 (x0 : Vec Ideal S7x8192 .i32) (bb : Fin 8192) (hr : ∀ i : Fin 7, (x0 (ix2 i bb)).toNat < Cert.Tower.voc i) (r : Fin 4) :
    k0_pay11 (F := Ideal) (iota .tc S32x8 32 [0] iota_S32x8_d0_w32) (iota .tc S32x8 32 [1] iota_S32x8_d1_w32) k0_pay7 k0_pay9 k0_pay10 x0
        (ix2 (⟨28 + r.val, by omega⟩ : Fin 32) bb)
      = if (x0 (ix2 (6 : Fin 7) bb)).toNat = r.val then (1 : EReal) else 0 := by
  have hlt : (x0 (ix2 (⟨(laneFeat (⟨28 + r.val, by omega⟩ : Fin 32)).val, laneFeat_lt _⟩ : Fin 7) bb)).toNat < 2 ^ 31 :=
    lt_of_lt_of_le (hr _) (le_trans (voc_le _) (by norm_num))
  have h := hot_apply x0 (⟨28 + r.val, by omega⟩ : Fin 32) bb hlt
  obtain ⟨e1, e2⟩ := lanes_6 r
  have eidx : (⟨(laneFeat (⟨28 + r.val, by omega⟩ : Fin 32)).val, laneFeat_lt _⟩ : Fin 7) = (6 : Fin 7) := Fin.ext e1
  rw [eidx] at h
  rw [h]
  show (if _ = (28 + r.val) - spanStart (laneFeat (⟨28 + r.val, by omega⟩ : Fin 32)) then (1 : EReal) else 0) = _
  rw [e2]

/-- The body's first-layer payload, with its operands named. -/
theorem pay18_eq (v62 : FVec Ideal S32x8192 .bf16) (v65 : FVec Ideal S6x128 .f32) (v68 v71 v74 : FVec Ideal S4x128 .f32)
    (T4 : FVec Ideal S6x8 .f32) (P4 : FVec Ideal S8x128 .f32) (T5 : FVec Ideal S4x8 .f32) (P5 : FVec Ideal S8x128 .f32)
    (T6 : FVec Ideal S4x8 .f32) (P6 : FVec Ideal S8x128 .f32) (v88 : Vec Ideal S128 .f32) (v95 : Vec Ideal S2x8192 .f32) (v99 : Vec Ideal S2x128 .f32) :
    k0_pay18 (F := Ideal) v62 v65 v68 v71 v74 T4 P4 T5 P5 T6 P6 v88 v95 v99
      = maximumf
          (matmul dot_S34x128_S34x8192_S128x8192_0_0_1_1_n_n none
            (truncf .bf16 (wext (stack v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32)) v88 v99) bitsLt_bf16_f32 : FVec Ideal S34x128 .bf16)
            (hext v62 v95) (constant S128x8192 .f32 0x00000000#32))
          (broadcast S128x8192 (Scalar.ofBits .f32 0x00000000#32)) := rfl

/-- The first layer at (j, b). -/
theorem pay18_apply (x0 : Vec Ideal S7x8192 .i32) (v65 : FVec Ideal S6x128 .f32) (v68 v71 v74 : FVec Ideal S4x128 .f32)
    (T4 : FVec Ideal S6x8 .f32) (P4 : FVec Ideal S8x128 .f32) (T5 : FVec Ideal S4x8 .f32) (P5 : FVec Ideal S8x128 .f32)
    (T6 : FVec Ideal S4x8 .f32) (P6 : FVec Ideal S8x128 .f32) (v88 : Vec Ideal S128 .f32) (v95 : Vec Ideal S2x8192 .f32) (v99 : Vec Ideal S2x128 .f32)
    (j : Fin 128) (bb : Fin 8192) (hr : ∀ i : Fin 7, (x0 (ix2 i bb)).toNat < Cert.Tower.voc i) :
    k0_pay18 (F := Ideal)
        (k0_pay11 (F := Ideal) (iota .tc S32x8 32 [0] iota_S32x8_d0_w32) (iota .tc S32x8 32 [1] iota_S32x8_d1_w32) k0_pay7 k0_pay9 k0_pay10 x0)
        v65 v68 v71 v74 T4 P4 T5 P5 T6 P6 v88 v95 v99 (ix2 j bb)
      = max ((v65 (ix2 (⟨(x0 (ix2 (0 : Fin 7) bb)).toNat, hr 0⟩ : Fin 6) j) + v88 (ix1 j))
          + ((v68 (ix2 (⟨(x0 (ix2 (1 : Fin 7) bb)).toNat, hr 1⟩ : Fin 4) j) + 0)
          + ((v71 (ix2 (⟨(x0 (ix2 (2 : Fin 7) bb)).toNat, hr 2⟩ : Fin 4) j) + 0)
          + ((v74 (ix2 (⟨(x0 (ix2 (3 : Fin 7) bb)).toNat, hr 3⟩ : Fin 4) j) + 0)
          + (((matmul dot_S6x8_S8x128_S6x128_1_0_0_1_n_n none T4 P4 (constant S6x128 .f32 0x00000000#32) : FVec Ideal S6x128 .f32) (ix2 (⟨(x0 (ix2 (4 : Fin 7) bb)).toNat, hr 4⟩ : Fin 6) j) + 0)
          + (((matmul dot_S4x8_S8x128_S4x128_1_0_0_1_n_n none T5 P5 (constant S4x128 .f32 0x00000000#32) : FVec Ideal S4x128 .f32) (ix2 (⟨(x0 (ix2 (5 : Fin 7) bb)).toNat, hr 5⟩ : Fin 4) j) + 0)
          + (((matmul dot_S4x8_S8x128_S4x128_1_0_0_1_n_n none T6 P6 (constant S4x128 .f32 0x00000000#32) : FVec Ideal S4x128 .f32) (ix2 (⟨(x0 (ix2 (6 : Fin 7) bb)).toNat, hr 6⟩ : Fin 4) j) + 0)
          + ∑ k : Fin 2, v99 (ix2 k j) * v95 (ix2 k bb)))))))) 0 := by
  rw [pay18_eq, maximumf_apply]
  refine congrArg₂ max ?_ (by show Ideal.ofBits .f32 0x00000000#32 = 0; exact Ideal.ofBits_zero_f32)
  refine (Cert.LibDot.matmul_rows_rows _ none _ _ j bb).trans ?_
  refine (Cert.KSum.sum34 (fun v : Fin 34 => wext (stack v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32)) v88 v99 (ix2 v j) * hext (k0_pay11 (F := Ideal) (iota .tc S32x8 32 [0] iota_S32x8_d0_w32) (iota .tc S32x8 32 [1] iota_S32x8_d1_w32) k0_pay7 k0_pay9 k0_pay10 x0) v95 (ix2 v bb))).trans ?_
  refine congrArg₂ (· + ·) (run_0 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (0 : Fin 7) bb)).toNat (hr 0) (hot_0 x0 bb hr)) ?_
  refine congrArg₂ (· + ·) (run_1 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (1 : Fin 7) bb)).toNat (hr 1) (hot_1 x0 bb hr)) ?_
  refine congrArg₂ (· + ·) (run_2 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (2 : Fin 7) bb)).toNat (hr 2) (hot_2 x0 bb hr)) ?_
  refine congrArg₂ (· + ·) (run_3 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (3 : Fin 7) bb)).toNat (hr 3) (hot_3 x0 bb hr)) ?_
  refine congrArg₂ (· + ·) (run_4 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (4 : Fin 7) bb)).toNat (hr 4) (hot_4 x0 bb hr)) ?_
  refine congrArg₂ (· + ·) (run_5 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (5 : Fin 7) bb)).toNat (hr 5) (hot_5 x0 bb hr)) ?_
  refine congrArg₂ (· + ·) (run_6 v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32) v88 v99 (k0_pay11 (F := Ideal) (iota .tc S32x8 32 [0] iota_S32x8_d0_w32) (iota .tc S32x8 32 [1] iota_S32x8_d1_w32) k0_pay7 k0_pay9 k0_pay10 x0) v95 j bb
    (x0 (ix2 (6 : Fin 7) bb)).toNat (hr 6) (hot_6 x0 bb hr)) ?_
  exact run_num (stack v65 v68 v71 v74 (matmul dot_S6x8_S8x128_S6x128_1_0_0_1_n_n none T4 P4 (constant S6x128 .f32 0x00000000#32) : FVec Ideal S6x128 .f32) (matmul dot_S4x8_S8x128_S4x128_1_0_0_1_n_n none T5 P5 (constant S4x128 .f32 0x00000000#32) : FVec Ideal S4x128 .f32) (matmul dot_S4x8_S8x128_S4x128_1_0_0_1_n_n none T6 P6 (constant S4x128 .f32 0x00000000#32) : FVec Ideal S4x128 .f32)) v88 v99 (k0_pay11 (F := Ideal) (iota .tc S32x8 32 [0] iota_S32x8_d0_w32) (iota .tc S32x8 32 [1] iota_S32x8_d1_w32) k0_pay7 k0_pay9 k0_pay10 x0) v95 j bb

end Cert.KernelIdeal.KPre

end
-- ==== Proof.KL23.lean ====
/-
  The body's last value read at one entry, over the extended reals. With H the hidden block
      H[k, b] = max (Σ_j W2[j, k] · x[j, b] + b2[k]) 0
  (a product contracting the rows of both operands, the bias column spread along the columns, a maximum with zero),
  entry (o, b) of the value stored last is Σ_k W3ᵗ[o, k] · H[k, b] + b3[o]: a product of columns against rows and a
  bias column again. The two bias columns are the bias vectors laid as columns; a change of number format is the
  identity on extended reals.
-/
import proofs.«105925_g50397146251325_cont_8to1_c_54_18_alg».proof.Proof.Gen.KernelIdeal.Frame
import proofs.«105925_g50397146251325_cont_8to1_c_54_18_alg».proof.Proof.LibDot
import Idealize.ShloMosaic.Lib.Pipeline.Value

noncomputable section

open scoped BigOperators

namespace Cert.KernelIdeal.KL23

open Cert.KernelIdeal Cert.KernelIdeal.Gen Idealize.ShloMosaic Idealize.ShloMosaic.ValueIdx

/-- A bias vector laid as a column: entry (k, 0) is entry k. -/
theorem pay16_apply (v101 : Vec Ideal S128 .f32) (k : Fin 128) : k0_pay16 (F := Ideal) v101 (ix2 k (0 : Fin 1)) = v101 (ix1 k) := by
  show transpose S128x1 [1, 0] (shapeCast S1x128 v101 shapeCasts_S128_S1x128) transposes_S1x128_p1_0_S128x1 (ix2 k (0 : Fin 1)) = _
  refine (transpose_apply [1, 0] _ transposes_S1x128_p1_0_S128x1 (ix2 k (0 : Fin 1)) (ix2 (0 : Fin 1) k) (fun a => by
    match a with
    | ⟨0, _⟩ => rfl
    | ⟨1, _⟩ => rfl)).trans ?_
  exact shapeCast_apply v101 shapeCasts_S128_S1x128 (ix2 (0 : Fin 1) k) (ix1 k) (by
    rw [Shape.rowMajor_val_one, Shape.rowMajor_val_two]; show k.val = 0 * 128 + k.val; omega)

/-- The same for the last layer's bias. -/
theorem pay17_apply (v104 : Vec Ideal S64 .f32) (o : Fin 64) : k0_pay17 (F := Ideal) v104 (ix2 o (0 : Fin 1)) = v104 (ix1 o) := by
  show transpose S64x1 [1, 0] (shapeCast S1x64 v104 shapeCasts_S64_S1x64) transposes_S1x64_p1_0_S64x1 (ix2 o (0 : Fin 1)) = _
  refine (transpose_apply [1, 0] _ transposes_S1x64_p1_0_S64x1 (ix2 o (0 : Fin 1)) (ix2 (0 : Fin 1) o) (fun a => by
    match a with
    | ⟨0, _⟩ => rfl
    | ⟨1, _⟩ => rfl)).trans ?_
  exact shapeCast_apply v104 shapeCasts_S64_S1x64 (ix2 (0 : Fin 1) o) (ix1 o) (by
    rw [Shape.rowMajor_val_one, Shape.rowMajor_val_two]; show o.val = 0 * 64 + o.val; omega)

/-- The second layer's weights in the narrower format are the weights. -/
theorem pay19_apply (v111 : Vec Ideal S128x128 .f32) (j k : Fin 128) : k0_pay19 (F := Ideal) v111 (ix2 j k) = v111 (ix2 j k) := rfl

/-- The hidden block: the second layer's product, its bias column, the maximum with zero. -/
def hid (v103 : FVec Ideal S128x1 .f32) (v110 : FVec Ideal S128x8192 .f32) (v112 : FVec Ideal S128x128 .bf16) : FVec Ideal S128x8192 .f32 :=
  maximumf
    (addf (matmul dot_S128x128_S128x8192_S128x8192_0_0_1_1_n_n none v112 (truncf .bf16 v110 bitsLt_bf16_f32) (constant S128x8192 .f32 0x00000000#32))
      (broadcastTo S128x8192 v103 broadcasts_S128x1_S128x8192))
    (broadcast S128x8192 (Scalar.ofBits .f32 0x00000000#32))

/-- The last value is the third layer's product over the hidden block plus its bias column. -/
theorem pay1_eq (v103 : FVec Ideal S128x1 .f32) (v106 : FVec Ideal S64x1 .f32) (v110 : FVec Ideal S128x8192 .f32)
    (v112 : FVec Ideal S128x128 .bf16) (v119 : Vec Ideal S64x128 .f32) :
    k0_pay1 (F := Ideal) v103 v106 v110 v112 v119
      = addf (matmul dot_S64x128_S128x8192_S64x8192_1_0_0_1_n_n none
            (truncf .bf16 (shapeCast S64x128 v119 shapeCasts_S64x128_S64x128) bitsLt_bf16_f32)
            (truncf .bf16 (hid v103 v110 v112) bitsLt_bf16_f32) (constant S64x8192 .f32 0x00000000#32))
          (broadcastTo S64x8192 v106 broadcasts_S64x1_S64x8192) := rfl

/-- Entry (k, b) of the hidden block. -/
theorem hid_apply (v103 : FVec Ideal S128x1 .f32) (v110 : FVec Ideal S128x8192 .f32) (v112 : FVec Ideal S128x128 .bf16)
    (k : Fin 128) (b : Fin 8192) :
    hid v103 v110 v112 (ix2 k b) = max ((∑ j : Fin 128, v112 (ix2 j k) * v110 (ix2 j b)) + v103 (ix2 k (0 : Fin 1))) 0 := by
  unfold hid
  rw [maximumf_apply, addf_apply, broadcast_apply]
  refine congrArg₂ max (congrArg₂ (· + ·) ?_ ?_) ?_
  · refine (Cert.LibDot.matmul_rows_rows _ none _ _ k b).trans ?_
    rfl
  · exact broadcastTo_apply v103 broadcasts_S128x1_S128x8192 (ix2 k b) (ix2 k (0 : Fin 1)) (fun a => by
      match a with
      | ⟨0, _⟩ => rfl
      | ⟨1, _⟩ => rfl)
  · show Ideal.ofBits .f32 0x00000000#32 = 0
    exact Ideal.ofBits_zero_f32

/-- Entry (o, b) of the last value. -/
theorem pay1_apply (v103 : FVec Ideal S128x1 .f32) (v106 : FVec Ideal S64x1 .f32) (v110 : FVec Ideal S128x8192 .f32)
    (v112 : FVec Ideal S128x128 .bf16) (v119 : Vec Ideal S64x128 .f32) (o : Fin 64) (b : Fin 8192) :
    k0_pay1 (F := Ideal) v103 v106 v110 v112 v119 (ix2 o b)
      = (∑ k : Fin 128, v119 (ix2 o k) * max ((∑ j : Fin 128, v112 (ix2 j k) * v110 (ix2 j b)) + v103 (ix2 k (0 : Fin 1))) 0)
        + v106 (ix2 o (0 : Fin 1)) := by
  rw [pay1_eq, addf_apply]
  refine congrArg₂ (· + ·) ?_ ?_
  · refine (Cert.LibDot.matmul_cols_rows _ none _ _ o b).trans ?_
    refine Finset.sum_congr rfl fun k _ => ?_
    show shapeCast S64x128 v119 shapeCasts_S64x128_S64x128 (ix2 o k) * hid v103 v110 v112 (ix2 k b) = _
    rw [shapeCast_self, hid_apply]
  · exact broadcastTo_apply v106 broadcasts_S64x1_S64x8192 (ix2 o b) (ix2 o (0 : Fin 1)) (fun a => by
      match a with
      | ⟨0, _⟩ => rfl
      | ⟨1, _⟩ => rfl)

end Cert.KernelIdeal.KL23

end
-- ==== Proof.KPay.lean ====
/-
  One column of the kernel's block: entry (o, b) of what the body stores is the tower's output o on the
  categorical words and numeric entries of column b.

  The body's three layers are read from the outside in. The last two are plain: a product with W3 (entering
  transposed) plus b3, over the maximum with zero of a product with W2 plus b2. The first layer's 34-row
  contraction has been brought to its eight runs; here each run is matched with the specification's term:
  feature i's run is Σ_e T_i[word_i, e] · W1[8 i + e, j] (the rows of W1 arrive in pieces of eight), the last run
  the two numeric terms with the factors in the other order, and the sums agree after regrouping the nine
  terms — associativity and commutativity of addition, and x + 0 = x.
-/
import proofs.«105925_g50397146251325_cont_8to1_c_54_18_alg».proof.Proof.KPre
import proofs.«105925_g50397146251325_cont_8to1_c_54_18_alg».proof.Proof.KL23

noncomputable section

open scoped BigOperators

namespace Cert.KernelIdeal.KPay

open Cert.KernelIdeal Cert.KernelIdeal.Gen Idealize.ShloMosaic Idealize.ShloMosaic.ValueIdx

theorem hz2 : (![0, 0] : Fin 2 → Nat) = fun _ => 0 := funext fun a => by
  match a with
  | ⟨0, _⟩ => rfl
  | ⟨1, _⟩ => rfl
theorem hz1 : (![0] : Fin 1 → Nat) = fun _ => 0 := funext fun a => by
  match a with
  | ⟨0, _⟩ => rfl

/-- Nine terms regrouped. -/
theorem regroup (S0 S1 S2 S3 S4 S5 S6 N B : EReal) :
    (S0 + B) + ((S1 + 0) + ((S2 + 0) + ((S3 + 0) + ((S4 + 0) + ((S5 + 0) + ((S6 + 0) + N))))))
      = S0 + S1 + S2 + S3 + S4 + S5 + S6 + N + B := by
  simp only [add_zero]
  ac_rfl

/-- Rows 0 … 7 of W1, as the body loads them. -/
theorem w1_piece_0 (x9 : Vec Ideal S58x128 .f32) (e : Fin 8) (j : Fin 128) :
    View.ld x9 r0_2 (ix2 e j) = x9 (ix2 (Cert.Tower.w1r 0 e) j) :=
  congrArg x9 (funext fun a => Fin.ext (by
    match a with
    | ⟨0, _⟩ => show 0 + 1 * e.val = 8 * 0 + e.val; omega
    | ⟨1, _⟩ => show 0 + 1 * j.val = j.val; omega))

/-- Rows 8 … 15 of W1, as the body loads them. -/
theorem w1_piece_1 (x9 : Vec Ideal S58x128 .f32) (e : Fin 8) (j : Fin 128) :
    View.ld x9 r0_4 (ix2 e j) = x9 (ix2 (Cert.Tower.w1r 1 e) j) :=
  congrArg x9 (funext fun a => Fin.ext (by
    match a with
    | ⟨0, _⟩ => show 8 + 1 * e.val = 8 * 1 + e.val; omega
    | ⟨1, _⟩ => show 0 + 1 * j.val = j.val; omega))

/-- Rows 16 … 23 of W1, as the body loads them. -/
theorem w1_piece_2 (x9 : Vec Ideal S58x128 .f32) (e : Fin 8) (j : Fin 128) :
    View.ld x9 r0_5 (ix2 e j) = x9 (ix2 (Cert.Tower.w1r 2 e) j) :=
  congrArg x9 (funext fun a => Fin.ext (by
    match a with
    | ⟨0, _⟩ => show 16 + 1 * e.val = 8 * 2 + e.val; omega
    | ⟨1, _⟩ => show 0 + 1 * j.val = j.val; omega))

/-- Rows 24 … 31 of W1, as the body loads them. -/
theorem w1_piece_3 (x9 : Vec Ideal S58x128 .f32) (e : Fin 8) (j : Fin 128) :
    View.ld x9 r0_6 (ix2 e j) = x9 (ix2 (Cert.Tower.w1r 3 e) j) :=
  congrArg x9 (funext fun a => Fin.ext (by
    match a with
    | ⟨0, _⟩ => show 24 + 1 * e.val = 8 * 3 + e.val; omega
    | ⟨1, _⟩ => show 0 + 1 * j.val = j.val; omega))

/-- Rows 32 … 39 of W1, as the body loads them. -/
theorem w1_piece_4 (x9 : Vec Ideal S58x128 .f32) (e : Fin 8) (j : Fin 128) :
    View.ld x9 r0_7 (ix2 e j) = x9 (ix2 (Cert.Tower.w1r 4 e) j) :=
  congrArg x9 (funext fun a => Fin.ext (by
    match a with
    | ⟨0, _⟩ => show 32 + 1 * e.val = 8 * 4 + e.val; omega
    | ⟨1, _⟩ => show 0 + 1 * j.val = j.val; omega))

/-- Rows 40 … 47 of W1, as the body loads them. -/
theorem w1_piece_5 (x9 : Vec Ideal S58x128 .f32) (e : Fin 8) (j : Fin 128) :
    View.ld x9 r0_8 (ix2 e j) = x9 (ix2 (Cert.Tower.w1r 5 e) j) :=
  congrArg x9 (funext fun a => Fin.ext (by
    match a with
    | ⟨0, _⟩ => show 40 + 1 * e.val = 8 * 5 + e.val; omega
    | ⟨1, _⟩ => show 0 + 1 * j.val = j.val; omega))

/-- Rows 48 … 55 of W1, as the body loads them. -/
theorem w1_piece_6 (x9 : Vec Ideal S58x128 .f32) (e : Fin 8) (j : Fin 128) :
    View.ld x9 r0_9 (ix2 e j) = x9 (ix2 (Cert.Tower.w1r 6 e) j) :=
  congrArg x9 (funext fun a => Fin.ext (by
    match a with
    | ⟨0, _⟩ => show 48 + 1 * e.val = 8 * 6 + e.val; omega
    | ⟨1, _⟩ => show 0 + 1 * j.val = j.val; omega))

/-- Rows 56, 57 of W1, as the body loads them. -/
theorem w1_piece_num (x9 : Vec Ideal S58x128 .f32) (k : Fin 2) (j : Fin 128) :
    View.ld x9 r0_12 (ix2 k j) = x9 (ix2 (Cert.Tower.w1n k) j) :=
  congrArg x9 (funext fun a => Fin.ext (by
    match a with
    | ⟨0, _⟩ => show 56 + 1 * k.val = 56 + k.val; omega
    | ⟨1, _⟩ => show 0 + 1 * j.val = j.val; omega))

/-- Feature 0's product at the row its word names is the specification's term for feature 0. -/
theorem proj_0 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S6x8_S8x128_S6x128_1_0_0_1_n_n none x2 (View.ld x9 r0_2) (constant S6x128 .f32 0x00000000#32) : FVec Ideal S6x128 .f32)
        (ix2 (⟨(x0 (ix2 (0 : Fin 7) bb)).toNat, hr 0⟩ : Fin 6) j)
      = ∑ e : Fin 8, Cert.Tower.emb x2 x3 x4 x5 x6 x7 x8 (fun i => x0 (ix2 i bb)) 0 e * x9 (ix2 (Cert.Tower.w1r 0 e) j) := by
  refine (Cert.LibDot.matmul_cols_rows _ none _ _ _ j).trans ?_
  refine Finset.sum_congr rfl fun e _ => congrArg₂ (· * ·) ?_ (w1_piece_0 x9 e j)
  show _ = Cert.Tower.row x2 (x0 (ix2 (0 : Fin 7) bb)) e
  unfold Cert.Tower.row
  rw [dif_pos (show (x0 (ix2 (0 : Fin 7) bb)).toNat < 6 from hr 0)]

/-- Feature 1's product at the row its word names is the specification's term for feature 1. -/
theorem proj_1 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S4x8_S8x128_S4x128_1_0_0_1_n_n none x3 (View.ld x9 r0_4) (constant S4x128 .f32 0x00000000#32) : FVec Ideal S4x128 .f32)
        (ix2 (⟨(x0 (ix2 (1 : Fin 7) bb)).toNat, hr 1⟩ : Fin 4) j)
      = ∑ e : Fin 8, Cert.Tower.emb x2 x3 x4 x5 x6 x7 x8 (fun i => x0 (ix2 i bb)) 1 e * x9 (ix2 (Cert.Tower.w1r 1 e) j) := by
  refine (Cert.LibDot.matmul_cols_rows _ none _ _ _ j).trans ?_
  refine Finset.sum_congr rfl fun e _ => congrArg₂ (· * ·) ?_ (w1_piece_1 x9 e j)
  show _ = Cert.Tower.row x3 (x0 (ix2 (1 : Fin 7) bb)) e
  unfold Cert.Tower.row
  rw [dif_pos (show (x0 (ix2 (1 : Fin 7) bb)).toNat < 4 from hr 1)]

/-- Feature 2's product at the row its word names is the specification's term for feature 2. -/
theorem proj_2 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S4x8_S8x128_S4x128_1_0_0_1_n_n none x4 (View.ld x9 r0_5) (constant S4x128 .f32 0x00000000#32) : FVec Ideal S4x128 .f32)
        (ix2 (⟨(x0 (ix2 (2 : Fin 7) bb)).toNat, hr 2⟩ : Fin 4) j)
      = ∑ e : Fin 8, Cert.Tower.emb x2 x3 x4 x5 x6 x7 x8 (fun i => x0 (ix2 i bb)) 2 e * x9 (ix2 (Cert.Tower.w1r 2 e) j) := by
  refine (Cert.LibDot.matmul_cols_rows _ none _ _ _ j).trans ?_
  refine Finset.sum_congr rfl fun e _ => congrArg₂ (· * ·) ?_ (w1_piece_2 x9 e j)
  show _ = Cert.Tower.row x4 (x0 (ix2 (2 : Fin 7) bb)) e
  unfold Cert.Tower.row
  rw [dif_pos (show (x0 (ix2 (2 : Fin 7) bb)).toNat < 4 from hr 2)]

/-- Feature 3's product at the row its word names is the specification's term for feature 3. -/
theorem proj_3 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S4x8_S8x128_S4x128_1_0_0_1_n_n none x5 (View.ld x9 r0_6) (constant S4x128 .f32 0x00000000#32) : FVec Ideal S4x128 .f32)
        (ix2 (⟨(x0 (ix2 (3 : Fin 7) bb)).toNat, hr 3⟩ : Fin 4) j)
      = ∑ e : Fin 8, Cert.Tower.emb x2 x3 x4 x5 x6 x7 x8 (fun i => x0 (ix2 i bb)) 3 e * x9 (ix2 (Cert.Tower.w1r 3 e) j) := by
  refine (Cert.LibDot.matmul_cols_rows _ none _ _ _ j).trans ?_
  refine Finset.sum_congr rfl fun e _ => congrArg₂ (· * ·) ?_ (w1_piece_3 x9 e j)
  show _ = Cert.Tower.row x5 (x0 (ix2 (3 : Fin 7) bb)) e
  unfold Cert.Tower.row
  rw [dif_pos (show (x0 (ix2 (3 : Fin 7) bb)).toNat < 4 from hr 3)]

/-- Feature 4's product at the row its word names is the specification's term for feature 4. -/
theorem proj_4 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S6x8_S8x128_S6x128_1_0_0_1_n_n none x6 (View.ld x9 r0_7) (constant S6x128 .f32 0x00000000#32) : FVec Ideal S6x128 .f32)
        (ix2 (⟨(x0 (ix2 (4 : Fin 7) bb)).toNat, hr 4⟩ : Fin 6) j)
      = ∑ e : Fin 8, Cert.Tower.emb x2 x3 x4 x5 x6 x7 x8 (fun i => x0 (ix2 i bb)) 4 e * x9 (ix2 (Cert.Tower.w1r 4 e) j) := by
  refine (Cert.LibDot.matmul_cols_rows _ none _ _ _ j).trans ?_
  refine Finset.sum_congr rfl fun e _ => congrArg₂ (· * ·) ?_ (w1_piece_4 x9 e j)
  show _ = Cert.Tower.row x6 (x0 (ix2 (4 : Fin 7) bb)) e
  unfold Cert.Tower.row
  rw [dif_pos (show (x0 (ix2 (4 : Fin 7) bb)).toNat < 6 from hr 4)]

/-- Feature 5's product at the row its word names is the specification's term for feature 5. -/
theorem proj_5 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S4x8_S8x128_S4x128_1_0_0_1_n_n none x7 (View.ld x9 r0_8) (constant S4x128 .f32 0x00000000#32) : FVec Ideal S4x128 .f32)
        (ix2 (⟨(x0 (ix2 (5 : Fin 7) bb)).toNat, hr 5⟩ : Fin 4) j)
      = ∑ e : Fin 8, Cert.Tower.emb x2 x3 x4 x5 x6 x7 x8 (fun i => x0 (ix2 i bb)) 5 e * x9 (ix2 (Cert.Tower.w1r 5 e) j) := by
  refine (Cert.LibDot.matmul_cols_rows _ none _ _ _ j).trans ?_
  refine Finset.sum_congr rfl fun e _ => congrArg₂ (· * ·) ?_ (w1_piece_5 x9 e j)
  show _ = Cert.Tower.row x7 (x0 (ix2 (5 : Fin 7) bb)) e
  unfold Cert.Tower.row
  rw [dif_pos (show (x0 (ix2 (5 : Fin 7) bb)).toNat < 4 from hr 5)]

/-- Feature 6's product at the row its word names is the specification's term for feature 6. -/
theorem proj_6 (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32) (bb : Fin 8192) (j : Fin 128)
    (hr : ∀ i : Fin 7, (x0 (ix2 i bb)).toNat < Cert.Tower.voc i) :
    (matmul (φ₁ := .f32) (φ₂ := .f32) dot_S4x8_S8x128_S4x128_1_0_0_1_n_n none x8 (View.ld x9 r0_9) (constant S4x128 .f32 0x00000000#32) : FVec Ideal S4x128 .f32)
        (ix2 (⟨(x0 (ix2 (6 : Fin 7) bb)).toNat, hr 6⟩ : Fin 4) j)
      = ∑ e : Fin 8, Cert.Tower.emb x2 x3 x4 x5 x6 x7 x8 (fun i => x0 (ix2 i bb)) 6 e * x9 (ix2 (Cert.Tower.w1r 6 e) j) := by
  refine (Cert.LibDot.matmul_cols_rows _ none _ _ _ j).trans ?_
  refine Finset.sum_congr rfl fun e _ => congrArg₂ (· * ·) ?_ (w1_piece_6 x9 e j)
  show _ = Cert.Tower.row x8 (x0 (ix2 (6 : Fin 7) bb)) e
  unfold Cert.Tower.row
  rw [dif_pos (show (x0 (ix2 (6 : Fin 7) bb)).toNat < 4 from hr 6)]

/-- The numeric run is the specification's numeric term. -/
theorem num_eq (x1 : Vec Ideal S2x8192 .f32) (x9 : Vec Ideal S58x128 .f32) (bb : Fin 8192) (j : Fin 128) :
    ∑ k : Fin 2, View.ld x9 r0_12 (ix2 k j) * x1 (ix2 k bb) = ∑ k : Fin 2, x1 (ix2 k bb) * x9 (ix2 (Cert.Tower.w1n k) j) :=
  Finset.sum_congr rfl fun k _ => by rw [w1_piece_num, mul_comm]

theorem out_apply (x0 : Vec Ideal S7x8192 .i32) (x1 : Vec Ideal S2x8192 .f32) (x2 : Vec Ideal S6x8 .f32)
    (x3 x4 x5 : Vec Ideal S4x8 .f32) (x6 : Vec Ideal S6x8 .f32) (x7 x8 : Vec Ideal S4x8 .f32)
    (x9 : Vec Ideal S58x128 .f32) (x10 : Vec Ideal S128 .f32) (x11 : Vec Ideal S128x128 .f32)
    (x12 : Vec Ideal S128 .f32) (x13 : Vec Ideal S64x128 .f32) (x14 : Vec Ideal S64 .f32)
    (o : Fin 64) (bb : Fin 8192) (hr : ∀ i : Fin 7, (x0 (ix2 i bb)).toNat < Cert.Tower.voc i) :
    out0_15 (F := Ideal) x0 x1 x2 x3 x4 x5 x6 x7 x8 x9 x10 x11 x12 x13 x14 (ix2 o bb)
      = Cert.Tower.out x2 x3 x4 x5 x6 x7 x8 x9 x10 x11 x12 (fun y => x13 (ix2 (y 1) (y 0))) x14
          (fun i => x0 (ix2 i bb)) (fun k => x1 (ix2 k bb)) o := by
  unfold out0_15
  rw [View.canon_unit_zero hz2]
  simp only [View.ld_unit_zero (S := S7x8192) hz2, View.ld_unit_zero (S := S2x8192) hz2, View.ld_unit_zero (S := S6x8) hz2,
    View.ld_unit_zero (S := S4x8) hz2, View.ld_unit_zero (S := S128) hz1, View.ld_unit_zero (S := S64) hz1,
    View.ld_unit_zero (S := S128x128) hz2, View.ld_unit_zero (S := S64x128) hz2]
  refine (Cert.KernelIdeal.KL23.pay1_apply _ _ _ _ _ o bb).trans ?_
  unfold Cert.Tower.out Cert.Tower.h2 Cert.Tower.h1
  refine congrArg₂ (· + ·) (Finset.sum_congr rfl fun k _ => ?_) (Cert.KernelIdeal.KL23.pay17_apply x14 o)
  rw [mul_comm]
  refine congrArg₂ (· * ·) (congrArg₂ max (congrArg₂ (· + ·) (Finset.sum_congr rfl fun j _ => ?_)
    (Cert.KernelIdeal.KL23.pay16_apply x12 k)) rfl) rfl
  rw [mul_comm]
  refine congrArg₂ (· * ·) ?_ (Cert.KernelIdeal.KL23.pay19_apply x11 j k)
  refine (Cert.KernelIdeal.KPre.pay18_apply x0 _ _ _ _ _ _ _ _ _ _ x10 x1 _ j bb hr).trans ?_
  refine congrArg₂ max ?_ rfl
  unfold Cert.Tower.pre1
  rw [Fin.sum_univ_seven, ← proj_0 x0 x1 x2 x3 x4 x5 x6 x7 x8 x9 x10 x11 x12 x13 x14 bb j hr,
    ← proj_1 x0 x1 x2 x3 x4 x5 x6 x7 x8 x9 x10 x11 x12 x13 x14 bb j hr,
    ← proj_2 x0 x1 x2 x3 x4 x5 x6 x7 x8 x9 x10 x11 x12 x13 x14 bb j hr,
    ← proj_3 x0 x1 x2 x3 x4 x5 x6 x7 x8 x9 x10 x11 x12 x13 x14 bb j hr,
    ← proj_4 x0 x1 x2 x3 x4 x5 x6 x7 x8 x9 x10 x11 x12 x13 x14 bb j hr,
    ← proj_5 x0 x1 x2 x3 x4 x5 x6 x7 x8 x9 x10 x11 x12 x13 x14 bb j hr,
    ← proj_6 x0 x1 x2 x3 x4 x5 x6 x7 x8 x9 x10 x11 x12 x13 x14 bb j hr,
    ← num_eq x1 x9 bb j]
  exact regroup _ _ _ _ _ _ _ _ _

end Cert.KernelIdeal.KPay

end
-- ==== Proof.KHost.lean ====
/-
  What the region finds in its windows. Three arguments reach it transposed — the categorical words, the numeric
  entries and the last weight matrix —, so the batch runs along the columns; the region's two grid points split the
  16384 columns into halves of 8192. Every other window is a whole argument array at both points. So the block of a
  table, weight or bias window is the argument itself, and column bb of the categorical or numeric block at point t is
  batch row 8192 t + bb of the argument.
-/
import proofs.«105925_g50397146251325_cont_8to1_c_54_18_alg».proof.Proof.Gen.KernelIdeal.Frame
import proofs.«105925_g50397146251325_cont_8to1_c_54_18_alg».proof.Proof.Spec
import Idealize.ShloMosaic.Lib.Pipeline.Value
import Idealize.ShloMosaic.Lib.ValueLayout
import Idealize.ShloMosaic.Lib.ValueIdxCoords
import Idealize.ShloMosaic.Lib.Tactic

set_option maxRecDepth 16384

noncomputable section

namespace Cert.KernelIdeal.KHost

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The categorical words as the region finds them: the argument transposed. -/
theorem V_ucT (c : Dev nD) : (V m c main_call0_v0 : S7x16384.Idx → BitVec 32)
    = transpose S7x16384 [1, 0] (m ((c.tc : Thread nD τ).loc main_arg0)) transposes_S16384x7_S7x16384_1_0 := by
  dsimp only [Gen.V, Gen.V0]
  simp only [Gen.hostOps0, List.flatten_cons, List.flatten_nil, List.append_nil, List.cons_append, List.nil_append]
  after_results
  rfl

/-- The numeric entries as the region finds them: the argument transposed. -/
theorem V_unT (c : Dev nD) : (V m c main_call0_v1 : S2x16384.Idx → EReal)
    = transpose S2x16384 [1, 0] (m ((c.tc : Thread nD τ).loc main_arg1)) transposes_S16384x2_S2x16384_1_0 := by
  dsimp only [Gen.V, Gen.V0]
  simp only [Gen.hostOps0, List.flatten_cons, List.flatten_nil, List.append_nil, List.cons_append, List.nil_append]
  after_results
  rfl

/-- The last weight matrix as the region finds it: the argument transposed. -/
theorem V_w3T (c : Dev nD) : (V m c main_call0_v2 : S64x128.Idx → EReal)
    = transpose S64x128 [1, 0] (m ((c.tc : Thread nD τ).loc main_arg13)) transposes_S128x64_S64x128_1_0 := by
  dsimp only [Gen.V, Gen.V0]
  simp only [Gen.hostOps0, List.flatten_cons, List.flatten_nil, List.append_nil, List.cons_append, List.nil_append]
  after_results
  rfl

/-- The printed index maps over the grid: the three windows cut along the batch axis sit at column block t, every
    other window at block 0. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_15.index t (0 : Fin 2) = 0 ∧ win0_15.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0 :=
  (by decide +kernel : ∀ t : Fin grid0.N, _)

/-- A table's window is the whole table. -/
theorem blk2 (c : Dev nD) (t : Fin cfg0.N) :
    (iblk m c 2 t : S6x8.Idx → EReal) = m ((c.tc : Thread nD τ).loc main_arg2) := by
  rw [← V_main_arg2 m c]
  funext y
  show V m c main_arg2 (((cfg0.win 2).blk t).view.emb y) = V m c main_arg2 y
  obtain ⟨-, -, -, -, -, -, e0, e1, -⟩ := idx_facts t
  congr 1
  funext a; apply Fin.ext
  match a with
  | ⟨0, _⟩ => show win0_2.index t (0 : Fin 2) * 6 + 1 * (y 0).val = (y 0).val; omega
  | ⟨1, _⟩ => show win0_2.index t (1 : Fin 2) * 8 + 1 * (y 1).val = (y 1).val; omega

/-- A table's window is the whole table. -/
theorem blk3 (c : Dev nD) (t : Fin cfg0.N) :
    (iblk m c 3 t : S4x8.Idx → EReal) = m ((c.tc : Thread nD τ).loc main_arg3) := by
  rw [← V_main_arg3 m c]
  funext y
  show V m c main_arg3 (((cfg0.win 3).blk t).view.emb y) = V m c main_arg3 y
  obtain ⟨-, -, -, -, -, -, -, -, e0, e1, -⟩ := idx_facts t
  congr 1
  funext a; apply Fin.ext
  match a with
  | ⟨0, _⟩ => show win0_3.index t (0 : Fin 2) * 4 + 1 * (y 0).val = (y 0).val; omega
  | ⟨1, _⟩ => show win0_3.index t (1 : Fin 2) * 8 + 1 * (y 1).val = (y 1).val; omega

/-- A table's window is the whole table. -/
theorem blk4 (c : Dev nD) (t : Fin cfg0.N) :
    (iblk m c 4 t : S4x8.Idx → EReal) = m ((c.tc : Thread nD τ).loc main_arg4) := by
  rw [← V_main_arg4 m c]
  funext y
  show V m c main_arg4 (((cfg0.win 4).blk t).view.emb y) = V m c main_arg4 y
  obtain ⟨-, -, -, -, -, -, -, -, -, -, e0, e1, -⟩ := idx_facts t
  congr 1
  funext a; apply Fin.ext
  match a with
  | ⟨0, _⟩ => show win0_4.index t (0 : Fin 2) * 4 + 1 * (y 0).val = (y 0).val; omega
  | ⟨1, _⟩ => show win0_4.index t (1 : Fin 2) * 8 + 1 * (y 1).val = (y 1).val; omega

/-- A table's window is the whole table. -/
theorem blk5 (c : Dev nD) (t : Fin cfg0.N) :
    (iblk m c 5 t : S4x8.Idx → EReal) = m ((c.tc : Thread nD τ).loc main_arg5) := by
  rw [← V_main_arg5 m c]
  funext y
  show V m c main_arg5 (((cfg0.win 5).blk t).view.emb y) = V m c main_arg5 y
  obtain ⟨-, -, -, -, -, -, -, -, -, -, -, -, e0, e1, -⟩ := idx_facts t
  congr 1
  funext a; apply Fin.ext
  match a with
  | ⟨0, _⟩ => show win0_5.index t (0 : Fin 2) * 4 + 1 * (y 0).val = (y 0).val; omega
  | ⟨1, _⟩ => show win0_5.index t (1 : Fin 2) * 8 + 1 * (y 1).val = (y 1).val; omega

/-- A table's window is the whole table. -/
theorem blk6 (c : Dev nD) (t : Fin cfg0.N) :
    (iblk m c 6 t : S6x8.Idx → EReal) = m ((c.tc : Thread nD τ).loc main_arg6) := by
  rw [← V_main_arg6 m c]
  funext y
  show V m c main_arg6 (((cfg0.win 6).blk t).view.emb y) = V m c main_arg6 y
  obtain ⟨-, -, -, -, -, -, -, -, -, -, -, -, -, -, e0, e1, -⟩ := idx_facts t
  congr 1
  funext a; apply Fin.ext
  match a with
  | ⟨0, _⟩ => show win0_6.index t (0 : Fin 2) * 6 + 1 * (y 0).val = (y 0).val; omega
  | ⟨1, _⟩ => show win0_6.index t (1 : Fin 2) * 8 + 1 * (y 1).val = (y 1).val; omega

/-- A table's window is the whole table. -/
theorem blk7 (c : Dev nD) (t : Fin cfg0.N) :
    (iblk m c 7 t : S4x8.Idx → EReal) = m ((c.tc : Thread nD τ).loc main_arg7) := by
  rw [← V_main_arg7 m c]
  funext y
  show V m c main_arg7 (((cfg0.win 7).blk t).view.emb y) = V m c main_arg7 y
  obtain ⟨-, -, -, -, -, -, -, -, -, -, -, -, -, -, -, -, e0, e1, -⟩ := idx_facts t
  congr 1
  funext a; apply Fin.ext
  match a with
  | ⟨0, _⟩ => show win0_7.index t (0 : Fin 2) * 4 + 1 * (y 0).val = (y 0).val; omega
  | ⟨1, _⟩ => show win0_7.index t (1 : Fin 2) * 8 + 1 * (y 1).val = (y 1).val; omega

/-- A table's window is the whole table. -/
theorem blk8 (c : Dev nD) (t : Fin cfg0.N) :
    (iblk m c 8 t : S4x8.Idx → EReal) = m ((c.tc : Thread nD τ).loc main_arg8) := by
  rw [← V_main_arg8 m c]
  funext y
  show V m c main_arg8 (((cfg0.win 8).blk t).view.emb y) = V m c main_arg8 y
  obtain ⟨-, -, -, -, -, -, -, -, -, -, -, -, -, -, -, -, -, -, e0, e1, -⟩ := idx_facts t
  congr 1
  funext a; apply Fin.ext
  match a with
  | ⟨0, _⟩ => show win0_8.index t (0 : Fin 2) * 4 + 1 * (y 0).val = (y 0).val; omega
  | ⟨1, _⟩ => show win0_8.index t (1 : Fin 2) * 8 + 1 * (y 1).val = (y 1).val; omega

/-- A weight matrix's window is the whole matrix. -/
theorem blk9 (c : Dev nD) (t : Fin cfg0.N) :
    (iblk m c 9 t : S58x128.Idx → EReal) = m ((c.tc : Thread nD τ).loc main_arg9) := by
  rw [← V_main_arg9 m c]
  funext y
  show V m c main_arg9 (((cfg0.win 9).blk t).view.emb y) = V m c main_arg9 y
  obtain ⟨-, -, -, -, -, -, -, -, -, -, -, -, -, -, -, -, -, -, -, -, e0, e1, -⟩ := idx_facts t
  congr 1
  funext a; apply Fin.ext
  match a with
  | ⟨0, _⟩ => show win0_9.index t (0 : Fin 2) * 58 + 1 * (y 0).val = (y 0).val; omega
  | ⟨1, _⟩ => show win0_9.index t (1 : Fin 2) * 128 + 1 * (y 1).val = (y 1).val; omega

/-- A bias vector's window is the whole vector. -/
theorem blk10 (c : Dev nD) (t : Fin cfg0.N) :
    (iblk m c 10 t : S128.Idx → EReal) = m ((c.tc : Thread nD τ).loc main_arg10) := by
  rw [← V_main_arg10 m c]
  funext y
  show V m c main_arg10 (((cfg0.win 10).blk t).view.emb y) = V m c main_arg10 y
  obtain ⟨-, -, -, -, -, -, -, -, -, -, -, -, -, -, -, -, -, -, -, -, -, -, e0, -⟩ := idx_facts t
  congr 1
  funext a; apply Fin.ext
  match a with
  | ⟨0, _⟩ => show win0_10.index t (0 : Fin 1) * 128 + 1 * (y 0).val = (y 0).val; omega

/-- A weight matrix's window is the whole matrix. -/
theorem blk11 (c : Dev nD) (t : Fin cfg0.N) :
    (iblk m c 11 t : S128x128.Idx → EReal) = m ((c.tc : Thread nD τ).loc main_arg11) := by
  rw [← V_main_arg11 m c]
  funext y
  show V m c main_arg11 (((cfg0.win 11).blk t).view.emb y) = V m c main_arg11 y
  obtain ⟨-, -, -, -, -, -, -, -, -, -, -, -, -, -, -, -, -, -, -, -, -, -, -, e0, e1, -⟩ := idx_facts t
  congr 1
  funext a; apply Fin.ext
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- A bias vector's window is the whole vector. -/
theorem blk12 (c : Dev nD) (t : Fin cfg0.N) :
    (iblk m c 12 t : S128.Idx → EReal) = m ((c.tc : Thread nD τ).loc main_arg12) := by
  rw [← V_main_arg12 m c]
  funext y
  show V m c main_arg12 (((cfg0.win 12).blk t).view.emb y) = V m c main_arg12 y
  obtain ⟨-, -, -, -, -, -, -, -, -, -, -, -, -, -, -, -, -, -, -, -, -, -, -, -, -, e0, -⟩ := idx_facts t
  congr 1
  funext a; apply Fin.ext
  match a with
  | ⟨0, _⟩ => show win0_12.index t (0 : Fin 1) * 128 + 1 * (y 0).val = (y 0).val; omega

/-- The last weight matrix's window is the whole transposed matrix. -/
theorem blk13 (c : Dev nD) (t : Fin cfg0.N) :
    (iblk m c 13 t : S64x128.Idx → EReal) = V m c main_call0_v2 := by
  funext y
  show V m c main_call0_v2 (((cfg0.win 13).blk t).view.emb y) = V m c main_call0_v2 y
  obtain ⟨-, -, -, -, -, -, -, -, -, -, -, -, -, -, -, -, -, -, -, -, -, -, -, -, -, -, e0, e1, -⟩ := idx_facts t
  congr 1
  funext a; apply Fin.ext
  match a with
  | ⟨0, _⟩ => show win0_13.index t (0 : Fin 2) * 64 + 1 * (y 0).val = (y 0).val; omega
  | ⟨1, _⟩ => show win0_13.index t (1 : Fin 2) * 128 + 1 * (y 1).val = (y 1).val; omega

/-- A bias vector's window is the whole vector. -/
theorem blk14 (c : Dev nD) (t : Fin cfg0.N) :
    (iblk m c 14 t : S64.Idx → EReal) = m ((c.tc : Thread nD τ).loc main_arg14) := by
  rw [← V_main_arg14 m c]
  funext y
  show V m c main_arg14 (((cfg0.win 14).blk t).view.emb y) = V m c main_arg14 y
  obtain ⟨-, -, -, -, -, -, -, -, -, -, -, -, -, -, -, -, -, -, -, -, -, -, -, -, -, -, -, -, e0⟩ := idx_facts t
  congr 1
  funext a; apply Fin.ext
  match a with
  | ⟨0, _⟩ => show win0_14.index t (0 : Fin 1) * 64 + 1 * (y 0).val = (y 0).val; omega

/-- The categorical block at point t, column bb, is batch row 8192 t + bb of the argument. -/
theorem blk0 (c : Dev nD) (t : Fin cfg0.N) (i : Fin 7) (bb : Fin 8192) (g : Fin 16384) (hg : g.val = t.val * 8192 + bb.val) :
    (iblk m c 0 t : S7x8192.Idx → BitVec 32) (ix2 i bb) = m ((c.tc : Thread nD τ).loc main_arg0) (ix2 g i) := by
  show V m c main_call0_v0 (((cfg0.win 0).blk t).view.emb (ix2 i bb)) = _
  rw [V_ucT]
  obtain ⟨e0, e1, -⟩ := idx_facts t
  refine transpose_apply _ _ _ _ (ix2 g i) fun b => ?_
  match b with
  | ⟨0, _⟩ => show i.val = win0_0.index t (0 : Fin 2) * 7 + 1 * i.val; rw [e0, Nat.zero_mul, Nat.zero_add, Nat.one_mul]
  | ⟨1, _⟩ => show g.val = win0_0.index t (1 : Fin 2) * 8192 + 1 * bb.val; rw [e1, hg, Nat.one_mul]

/-- The numeric block at point t, column bb, is batch row 8192 t + bb of the argument. -/
theorem blk1 (c : Dev nD) (t : Fin cfg0.N) (k : Fin 2) (bb : Fin 8192) (g : Fin 16384) (hg : g.val = t.val * 8192 + bb.val) :
    (iblk m c 1 t : S2x8192.Idx → EReal) (ix2 k bb) = m ((c.tc : Thread nD τ).loc main_arg1) (ix2 g k) := by
  show V m c main_call0_v1 (((cfg0.win 1).blk t).view.emb (ix2 k bb)) = _
  rw [V_unT]
  obtain ⟨-, -, e0, e1, -⟩ := idx_facts t
  refine transpose_apply _ _ _ _ (ix2 g k) fun b => ?_
  match b with
  | ⟨0, _⟩ => show k.val = win0_1.index t (0 : Fin 2) * 2 + 1 * k.val; rw [e0, Nat.zero_mul, Nat.zero_add, Nat.one_mul]
  | ⟨1, _⟩ => show g.val = win0_1.index t (1 : Fin 2) * 8192 + 1 * bb.val; rw [e1, hg, Nat.one_mul]

end Cert.KernelIdeal.KHost

end
-- ==== Proof.KArr.lean ====
/-
  The kernel program's run, read at the array level. The region writes a [64, 16384] array whose entry (o, g) is
  the tower's output o on batch row g: grid point t writes columns 8192 t … 8192 t + 8191, each column from the same
  column of the categorical and numeric blocks, and the two points' blocks cover the array. The transpose after the
  region turns it into the result array, batch row by batch row.
-/
import proofs.«105925_g50397146251325_cont_8to1_c_54_18_alg».proof.Proof.Gen.KernelIdeal.Frame
import proofs.«105925_g50397146251325_cont_8to1_c_54_18_alg».proof.Proof.Spec
import proofs.«105925_g50397146251325_cont_8to1_c_54_18_alg».proof.Proof.KPay
import proofs.«105925_g50397146251325_cont_8to1_c_54_18_alg».proof.Proof.KHost
import Idealize.ShloMosaic.Lib.Pipeline.Value
import Idealize.ShloMosaic.Lib.ValueLayout
import Idealize.ShloMosaic.Lib.ValueIdxCoords
import Idealize.ShloMosaic.Lib.Tactic

set_option maxRecDepth 16384

noncomputable section

namespace Cert.KernelIdeal.KArr

open Cert.KernelIdeal Cert.KernelIdeal.Gen Cert.KernelIdeal.KHost Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The region's output array: entry (o, g) is the tower's output o on batch row g. -/
def G (c : Dev nD) : S64x16384.Idx → EReal := fun i =>
  Cert.Tower.out (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (fun k => m ((c.tc : Thread nD τ).loc main_arg0) (ix2 (i 1) k)) (fun k => m ((c.tc : Thread nD τ).loc main_arg1) (ix2 (i 1) k)) (i 0)

/-- What grid point t leaves in the output block, from the windows' blocks at t. -/
abbrev blkOut (c : Dev nD) (t : Fin cfg0.N) : S64x8192.Idx → EReal :=
  out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The last weight matrix, transposed before the region and read transposed again, is the argument. -/
theorem w3_eq (c : Dev nD) :
    (fun y : (⟨2, ![128, 64]⟩ : Shape).Idx => (V m c main_call0_v2 : S64x128.Idx → EReal) (ix2 (y 1) (y 0)))
      = m ((c.tc : Thread nD τ).loc main_arg13) := by
  funext y
  rw [V_w3T]
  exact (transpose_ix2_apply _ _ (y 1) (y 0)).trans (congrArg _ (eq_ix2 y).symm)

/-- Column bb of the block point t leaves is the tower on batch row g = 8192 t + bb. -/
theorem point (hr : ∀ c : Dev nD, Cert.Tower.InRange (m ((c.tc : Thread nD τ).loc main_arg0)))
    (c : Dev nD) (t : Fin cfg0.N) (o : Fin 64) (bb : Fin 8192) (g : Fin 16384) (hg : g.val = t.val * 8192 + bb.val) :
    blkOut m c t (ix2 o bb) = G m c (ix2 o g) := by
  have h0 : (fun i : Fin 7 => (iblk m c 0 t : S7x8192.Idx → BitVec 32) (ix2 i bb))
      = fun i => m ((c.tc : Thread nD τ).loc main_arg0) (ix2 g i) := funext fun i => blk0 m c t i bb g hg
  have h1 : (fun k : Fin 2 => (iblk m c 1 t : S2x8192.Idx → EReal) (ix2 k bb))
      = fun k => m ((c.tc : Thread nD τ).loc main_arg1) (ix2 g k) := funext fun k => blk1 m c t k bb g hg
  refine (KPay.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) o bb ?_).trans ?_
  · intro i
    rw [congrFun h0 i]
    exact hr c g i
  · rw [h0, h1, blk2 m c t, blk3 m c t, blk4 m c t, blk5 m c t, blk6 m c t, blk7 m c t, blk8 m c t, blk9 m c t,
      blk10 m c t, blk11 m c t, blk12 m c t, blk13 m c t, blk14 m c t, w3_eq m c]
    rfl

/-- Two grid points of 8192 columns each stay inside the 16384 columns. -/
theorem col_lt (n b : Nat) (hn : n < 2) (hb : b < 8192) : n * 8192 + b < 16384 := by omega

/-- What point t writes back is block t of the array G. -/
theorem flushed_eq (hr : ∀ c : Dev nD, Cert.Tower.InRange (m ((c.tc : Thread nD τ).loc main_arg0)))
    (c : Dev nD) (t : Fin cfg0.N) :
    (dats m 0 c).flushed 15 t = ((cfg0.win 15).blk t).view.read (Elt Ideal) (G m c) := by
  show (cfg0.win 15).cut (grid0.coords t) ((dats m 0 c).after 15 t) = _
  rw [after0_15]
  funext j
  show blkOut m c t j = G m c (((cfg0.win 15).blk t).view.emb j)
  obtain ⟨-, -, -, -, e0, e1, -⟩ := idx_facts t
  have ht : t.val < 2 := lt_of_lt_of_eq t.isLt N_0
  have hemb : ((cfg0.win 15).blk t).view.emb j
      = ix2 (j 0) (⟨t.val * 8192 + (j 1).val, col_lt t.val (j 1).val ht (j 1).isLt⟩ : Fin 16384) := by
    funext a; apply Fin.ext
    match a with
    | ⟨0, _⟩ => show win0_15.index t (0 : Fin 2) * 64 + 1 * (j 0).val = (j 0).val; rw [e0, Nat.zero_mul, Nat.zero_add, Nat.one_mul]
    | ⟨1, _⟩ => show win0_15.index t (1 : Fin 2) * 8192 + 1 * (j 1).val = t.val * 8192 + (j 1).val; rw [e1, Nat.one_mul]
  exact ((congrArg (blkOut m c t) (eq_ix2 (n0 := 64) (n1 := 8192) j)).trans (point m hr c t (j 0) (j 1) _ rfl)).trans
    (congrArg (G m c) hemb.symm)

/-- An index of the array is in point t's block iff each coordinate is in the block's range on its axis. -/
theorem mem_blk (t : Fin cfg0.N) (i : S64x16384.Idx) :
    i ∈ ((cfg0.win 15).blk t).view.set ↔ ∀ a : Fin 2, win0_15.index t a * S64x8192.size a ≤ (i a).val
      ∧ (i a).val < win0_15.index t a * S64x8192.size a + S64x8192.size a := by
  show i ∈ ((View.whole main_call0_v3).slice (win0_15.rect t)).set ↔ _
  rw [View.set_slice_whole, Rect.mem_set_unit]
  exact Iff.rfl

/-- Column g lies in the block of point g / 8192. -/
theorem cover (i : S64x16384.Idx) :
    ∃ t : Fin cfg0.N, (cfg0.win 15).flush t = true ∧ i ∈ ((cfg0.win 15).blk t).view.set := by
  have hi0 : (i 0).val < 64 := idx2_lt0 i
  have hi1 : (i 1).val < 16384 := idx2_lt1 i
  have hq : (i 1).val / 8192 < 2 := by omega
  obtain ⟨t, ht⟩ : ∃ t : Fin cfg0.N, t.val = (i 1).val / 8192 := ⟨⟨(i 1).val / 8192, lt_of_lt_of_eq hq N_0.symm⟩, rfl⟩
  refine ⟨t, flush0_15 t, ?_⟩
  rw [mem_blk]
  obtain ⟨-, -, -, -, e0, e1, -⟩ := idx_facts t
  intro a
  match a with
  | ⟨0, _⟩ =>
    show win0_15.index t (0 : Fin 2) * 64 ≤ (i 0).val ∧ (i 0).val < win0_15.index t (0 : Fin 2) * 64 + 64
    rw [e0]; omega
  | ⟨1, _⟩ =>
    show win0_15.index t (1 : Fin 2) * 8192 ≤ (i 1).val ∧ (i 1).val < win0_15.index t (1 : Fin 2) * 8192 + 8192
    rw [e1, ht]; omega

/-- So the region leaves the array at G. -/
theorem final (hr : ∀ c : Dev nD, Cert.Tower.InRange (m ((c.tc : Thread nD τ).loc main_arg0))) (c : Dev nD) :
    (dats m 0 c).arrAt 15 cfg0.N = G m c :=
  (dats m 0 c).arrAt_eq_of_cover 15 (G m c) (fun t _ => flushed_eq m hr c t) cover

/-- The result array: the transpose after the region, applied to G, is the tower batch row by batch row. -/
theorem tail_eq (hr : ∀ c : Dev nD, Cert.Tower.InRange (m ((c.tc : Thread nD τ).loc main_arg0))) (c : Dev nD) :
    Pipeline.afterTail₀ cfgs (dats m) 0 (V0 m) [hostOps1] c main_v0
      = Cert.Tower.tower (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg0)) (m ((c.tc : Thread nD τ).loc main_arg1)) := by
  have hA : Pipeline.withArrays (cfgs 0).spec c (V0 m c) (fun w => (dats m 0 c).arrAt w (cfgs 0).N)
      (Proc.devRef .tc main_call0_v3) = G m c :=
    (Pipeline.withArrays_arr spec0 launch0.win.arr_inj c _ _ 15).trans (final m hr c)
  unfold Pipeline.afterTail₀
  show StableHlo.after hostOps1 _ (Proc.devRef .tc main_v0) = _
  after_results
  show transpose S16384x64 [1, 0] (Pipeline.withArrays (cfgs 0).spec c (V0 m c)
      (fun w => (dats m 0 c).arrAt w (cfgs 0).N) (Proc.devRef .tc main_call0_v3)) transposes_S64x16384_S16384x64_1_0 = _
  rw [hA]
  funext y
  obtain ⟨a, b, rfl⟩ : ∃ (a : Fin 16384) (b : Fin 64), y = ix2 a b := ⟨y 0, y 1, eq_ix2 y⟩
  exact transpose_ix2_apply _ _ a b

/-- The kernel program's run: the result array is the tower of the arguments, and the arguments are unchanged. -/
theorem run (hr : ∀ c : Dev nD, Cert.Tower.InRange (m ((c.tc : Thread nD τ).loc main_arg0))) :
    θ_run (defs (F := Ideal)) (onTc (τ := τ) (main (F := Ideal))) ⟨m, fun _ => 0, ρ⟩ fun r => ∀ c : Dev nD,
      r.2.mem ((c.tc : Thread nD τ).loc main_v0)
        = Cert.Tower.tower (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨((h c).2 main_v0 (Pipeline.mem_restRefs_of main_v0 (by decide) (by decide))).trans (tail_eq m hr c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).2 main_arg13 (Pipeline.mem_restRefs_of main_arg13 (by decide) (by decide))).trans (W_main_arg13 m (dats m) c),
      ((h c).1 14).trans (((dats m 0 c).arrAt_in 14 rfl _).trans ((A_eq m c 14).trans (V_main_arg14 m c)))⟩)
    (run_main m ρ)

end Cert.KernelIdeal.KArr

end
-- ==== Proof.RefTerm.lean ====
/-
  The reference's result as one pure function of its fifteen argument arrays, stage by stage as its program
  spells them: an embedding lookup (a word below zero is first moved up by the table's height; a word that is
  still outside the table reads as the not-a-number pattern, otherwise the gather's row), the seven looked-up
  rows and the numeric block laid side by side, and three affine layers, the first two followed by a maximum
  with zero.
-/
import proofs.«105925_g50397146251325_cont_8to1_c_54_18_alg».proof.Proof.Gen.ReferenceIdeal

noncomputable section

namespace Cert.ReferenceIdeal.RefTerm

open Cert.ReferenceIdeal Cert.ReferenceIdeal.Gen Idealize.ShloMosaic

variable {F : FTy → Type} [FloatOps F]

/-- A word below zero is moved up by v (python's indexing from the end); other words are kept. -/
def wrap (v : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 v))) idx

/-- The start indices of the gather: the wrapped words as a column. -/
def col (v : BitVec 32) (idx : IVec S16384 32) : IVec S16384x1 32 :=
  broadcastInDim S16384x1 ![0] bcast_S16384_S16384x1_0 (wrap v idx)

/-- Whether a start index lies in [0, top]. -/
def inside (top : BitVec 32) (c : IVec S16384x1 32) : IVec S16384 1 :=
  Host.reduce IntOp.andi
    (andi (cmpi .sge c (broadcastInDim S16384x1 ![] bcast_S_S16384x1 (constantI S_ 32 0#32)))
      (cmpi .sle c (broadcastInDim S16384x1 ![0, 1] bcast_S1x1_S16384x1_0_1
        (broadcastInDim S1x1 ![1] bcast_S1_S1x1_1 (constantI S1 32 top)))))
    (constantI S_ 1 1#1) reducesTo_S16384x1_S16384_d1 h_S_

/-- The lookup in a table of six rows. -/
def take6 (T : FVec F S6x8 .f32) (idx : IVec S16384 32) : FVec F S16384x8 .f32 :=
  select (broadcastInDim S16384x8 ![0] bcast_S16384_S16384x8_0 (inside 5#32 (col 6#32 idx)))
    (Host.gather gather_S6x8_S16384x1_S16384x8_1_0_n_n_0_1_18 T (col 6#32 idx))
    (broadcastInDim S16384x8 ![] bcast_S_S16384x8 (constant S_ .f32 0x7FC00000#32))

/-- The lookup in a table of four rows. -/
def take4 (T : FVec F S4x8 .f32) (idx : IVec S16384 32) : FVec F S16384x8 .f32 :=
  select (broadcastInDim S16384x8 ![0] bcast_S16384_S16384x8_0 (inside 3#32 (col 4#32 idx)))
    (Host.gather gather_S4x8_S16384x1_S16384x8_1_0_n_n_0_1_18 T (col 4#32 idx))
    (broadcastInDim S16384x8 ![] bcast_S_S16384x8 (constant S_ .f32 0x7FC00000#32))

/-- Column i of the categorical array, as a flat vector of words. -/
def catCol (uc : IVec S16384x7 32) (i : Fin 7) : IVec S16384 32 :=
  match i with
  | ⟨0, _⟩ => shapeCast S16384 (extractStridedSlice S16384x1 ![0, 0] uc slices_S16384x7_S16384x1_0_0) shapeCasts_S16384x1_S16384
  | ⟨1, _⟩ => shapeCast S16384 (extractStridedSlice S16384x1 ![0, 1] uc slices_S16384x7_S16384x1_0_1) shapeCasts_S16384x1_S16384
  | ⟨2, _⟩ => shapeCast S16384 (extractStridedSlice S16384x1 ![0, 2] uc slices_S16384x7_S16384x1_0_2) shapeCasts_S16384x1_S16384
  | ⟨3, _⟩ => shapeCast S16384 (extractStridedSlice S16384x1 ![0, 3] uc slices_S16384x7_S16384x1_0_3) shapeCasts_S16384x1_S16384
  | ⟨4, _⟩ => shapeCast S16384 (extractStridedSlice S16384x1 ![0, 4] uc slices_S16384x7_S16384x1_0_4) shapeCasts_S16384x1_S16384
  | ⟨5, _⟩ => shapeCast S16384 (extractStridedSlice S16384x1 ![0, 5] uc slices_S16384x7_S16384x1_0_5) shapeCasts_S16384x1_S16384
  | ⟨6, _⟩ => shapeCast S16384 (extractStridedSlice S16384x1 ![0, 6] uc slices_S16384x7_S16384x1_0_6) shapeCasts_S16384x1_S16384

/-- The maximum with zero. -/
def relu (x : FVec F S16384x128 .f32) : FVec F S16384x128 .f32 :=
  maximumf x (broadcastInDim S16384x128 ![] bcast_S_S16384x128 (constant S_ .f32 0x00000000#32))

/-- The 58 inputs of the first layer: the seven looked-up rows, then the numeric block. -/
def feat (uc : IVec S16384x7 32) (un : FVec F S16384x2 .f32) (T0 : FVec F S6x8 .f32) (T1 T2 T3 : FVec F S4x8 .f32)
    (T4 : FVec F S6x8 .f32) (T5 T6 : FVec F S4x8 .f32) : FVec F S16384x58 .f32 :=
  concatenate S16384x58 1
    [⟨S16384x56, concatenate S16384x56 1
        [⟨S16384x8, take6 T0 (catCol uc 0)⟩, ⟨S16384x8, take4 T1 (catCol uc 1)⟩, ⟨S16384x8, take4 T2 (catCol uc 2)⟩,
         ⟨S16384x8, take4 T3 (catCol uc 3)⟩, ⟨S16384x8, take6 T4 (catCol uc 4)⟩, ⟨S16384x8, take4 T5 (catCol uc 5)⟩,
         ⟨S16384x8, take4 T6 (catCol uc 6)⟩]
        concatenates_S16384x8_S16384x8_S16384x8_S16384x8_S16384x8_S16384x8_S16384x8_S16384x56_d1⟩,
     ⟨S16384x2, un⟩] concatenates_S16384x56_S16384x2_S16384x58_d1

/-- The three layers over those inputs. -/
def layers (x : FVec F S16384x58 .f32) (W1 : FVec F S58x128 .f32) (b1 : FVec F S128 .f32) (W2 : FVec F S128x128 .f32)
    (b2 : FVec F S128 .f32) (W3 : FVec F S128x64 .f32) (b3 : FVec F S64 .f32) : FVec F S16384x64 .f32 :=
  addf
    (Host.dotGeneral dot_S16384x128_S128x64_S16384x64_1_0_0_1_n_n none
      (relu (addf
        (Host.dotGeneral dot_S16384x128_S128x128_S16384x128_1_0_0_1_n_n none
          (relu (addf (Host.dotGeneral dot_S16384x58_S58x128_S16384x128_1_0_0_1_n_n none x W1)
            (broadcastInDim S16384x128 ![0, 1] bcast_S1x128_S16384x128_0_1 (broadcastInDim S1x128 ![1] bcast_S128_S1x128_1 b1))))
          W2)
        (broadcastInDim S16384x128 ![0, 1] bcast_S1x128_S16384x128_0_1 (broadcastInDim S1x128 ![1] bcast_S128_S1x128_1 b2))))
      W3)
    (broadcastInDim S16384x64 ![0, 1] bcast_S1x64_S16384x64_0_1 (broadcastInDim S1x64 ![1] bcast_S64_S1x64_1 b3))

/-- The reference's result. -/
def refOut (uc : IVec S16384x7 32) (un : FVec F S16384x2 .f32) (T0 : FVec F S6x8 .f32) (T1 T2 T3 : FVec F S4x8 .f32)
    (T4 : FVec F S6x8 .f32) (T5 T6 : FVec F S4x8 .f32) (W1 : FVec F S58x128 .f32) (b1 : FVec F S128 .f32)
    (W2 : FVec F S128x128 .f32) (b2 : FVec F S128 .f32) (W3 : FVec F S128x64 .f32) (b3 : FVec F S64 .f32) :
    FVec F S16384x64 .f32 :=
  layers (feat uc un T0 T1 T2 T3 T4 T5 T6) W1 b1 W2 b2 W3 b3

end Cert.ReferenceIdeal.RefTerm

end
-- ==== Proof.RefRunOps.lean ====
/-
  The reference program's straight line of operations, spelled as a list: for each of the seven categorical
  columns its slice, its flattening and the twenty-three operations of its embedding lookup; then the two
  concatenations and the three affine layers with their maxima. The program is the sequence of this list.
-/
import proofs.«105925_g50397146251325_cont_8to1_c_54_18_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The lookup's twenty-three operations over one call's buffers (the index correction, the bounds test, the gather, the
    choice between the gathered row and the not-a-number pattern), in program order. -/
abbrev takeOps6 (arg0 : TRef sig ⟨S6x8, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 6#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 5#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S6x8_S16384x1_S16384x8_1_0_n_n_0_1_18 x i),
    TRef.unary φ.v12 φ.v14 (broadcastInDim S16384x8 ![0] bcast_S16384_S16384x8_0),
    TRef.nullary φ.cst (constant S_ .f32 0x7FC00000#32),
    TRef.unary φ.cst φ.v15 (broadcastInDim S16384x8 ![] bcast_S_S16384x8),
    TRef.ternary φ.v14 φ.v13 φ.v15 φ.v16 select ]

/-- The lookup's twenty-three operations over one call's buffers (the index correction, the bounds test, the gather, the
    choice between the gathered row and the not-a-number pattern), in program order. -/
abbrev takeOps4 (arg0 : TRef sig ⟨S4x8, .f32⟩) (arg1 : TRef sig ⟨S16384, .i32⟩) (φ : fn_take_0.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 4#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 3#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S4x8_S16384x1_S16384x8_1_0_n_n_0_1_18 x i),
    TRef.unary φ.v12 φ.v14 (broadcastInDim S16384x8 ![0] bcast_S16384_S16384x8_0),
    TRef.nullary φ.cst (constant S_ .f32 0x7FC00000#32),
    TRef.unary φ.cst φ.v15 (broadcastInDim S16384x8 ![] bcast_S_S16384x8),
    TRef.ternary φ.v14 φ.v13 φ.v15 φ.v16 select ]

/-- The maximum with zero over one call's buffers: the zero, its broadcast, the maximum. -/
abbrev reluOps (arg0 : TRef sig ⟨S16384x128, .f32⟩) (φ : fn_relu.Bufs) : List (HloOp τ sig (Elt F)) :=
  [ TRef.nullary φ.cst (constant S_ .f32 0x00000000#32),
    TRef.unary φ.cst φ.v0 (broadcastInDim S16384x128 ![] bcast_S_S16384x128),
    TRef.binary arg0 φ.v0 φ.v1 maximumf ]

/-- A lookup in a table of six rows is the sequence of its operations (the inner choice function's one operation in
    its place). -/
theorem take6_body_eq (arg0 : TRef sig ⟨S6x8, .f32⟩) (arg1 : TRef sig ⟨S16384, .i32⟩) (φ : fn_take.Bufs) :
    fn_take.body (F := F) arg0 arg1 φ = seq (takeOps6 arg0 arg1 φ) := by
  simp only [fn_take.body, fn_where.body, seq, bind_assoc, pure_bind]

/-- The same for a table of four rows. -/
theorem take4_body_eq (arg0 : TRef sig ⟨S4x8, .f32⟩) (arg1 : TRef sig ⟨S16384, .i32⟩) (φ : fn_take_0.Bufs) :
    fn_take_0.body (F := F) arg0 arg1 φ = seq (takeOps4 arg0 arg1 φ) := by
  simp only [fn_take_0.body, fn_where.body, seq, bind_assoc, pure_bind]

/-- The maximum with zero is the sequence of its three operations. -/
theorem relu_body_eq (arg0 : TRef sig ⟨S16384x128, .f32⟩) (φ : fn_relu.Bufs) :
    fn_relu.body (F := F) arg0 φ = seq (reluOps arg0 φ) := by
  simp only [fn_relu.body, seq, bind_assoc, pure_bind]

/-- Column 0 of the categorical array cut out and flattened, then its lookup. -/
def chunk0 : List (HloOp τ sig (Elt F)) :=
  [ unary main_arg0 main_v0 ((extractStridedSlice S16384x1 ![0, 0] · slices_S16384x7_S16384x1_0_0) : (⟨S16384x7, .i32⟩ : BufTy).Contents (Elt F) → (⟨S16384x1, .i32⟩ : BufTy).Contents (Elt F)),
    reshape main_v0 main_v1 rfl shapeCasts_S16384x1_S16384 ]
  ++ takeOps6 (.of main_arg2) (.of main_v1) main_call0

/-- Column 1 of the categorical array cut out and flattened, then its lookup. -/
def chunk1 : List (HloOp τ sig (Elt F)) :=
  [ unary main_arg0 main_v3 ((extractStridedSlice S16384x1 ![0, 1] · slices_S16384x7_S16384x1_0_1) : (⟨S16384x7, .i32⟩ : BufTy).Contents (Elt F) → (⟨S16384x1, .i32⟩ : BufTy).Contents (Elt F)),
    reshape main_v3 main_v4 rfl shapeCasts_S16384x1_S16384 ]
  ++ takeOps4 (.of main_arg3) (.of main_v4) main_call1

/-- Column 2 of the categorical array cut out and flattened, then its lookup. -/
def chunk2 : List (HloOp τ sig (Elt F)) :=
  [ unary main_arg0 main_v6 ((extractStridedSlice S16384x1 ![0, 2] · slices_S16384x7_S16384x1_0_2) : (⟨S16384x7, .i32⟩ : BufTy).Contents (Elt F) → (⟨S16384x1, .i32⟩ : BufTy).Contents (Elt F)),
    reshape main_v6 main_v7 rfl shapeCasts_S16384x1_S16384 ]
  ++ takeOps4 (.of main_arg4) (.of main_v7) main_call2

/-- Column 3 of the categorical array cut out and flattened, then its lookup. -/
def chunk3 : List (HloOp τ sig (Elt F)) :=
  [ unary main_arg0 main_v9 ((extractStridedSlice S16384x1 ![0, 3] · slices_S16384x7_S16384x1_0_3) : (⟨S16384x7, .i32⟩ : BufTy).Contents (Elt F) → (⟨S16384x1, .i32⟩ : BufTy).Contents (Elt F)),
    reshape main_v9 main_v10 rfl shapeCasts_S16384x1_S16384 ]
  ++ takeOps4 (.of main_arg5) (.of main_v10) main_call3

/-- Column 4 of the categorical array cut out and flattened, then its lookup. -/
def chunk4 : List (HloOp τ sig (Elt F)) :=
  [ unary main_arg0 main_v12 ((extractStridedSlice S16384x1 ![0, 4] · slices_S16384x7_S16384x1_0_4) : (⟨S16384x7, .i32⟩ : BufTy).Contents (Elt F) → (⟨S16384x1, .i32⟩ : BufTy).Contents (Elt F)),
    reshape main_v12 main_v13 rfl shapeCasts_S16384x1_S16384 ]
  ++ takeOps6 (.of main_arg6) (.of main_v13) main_call4

/-- Column 5 of the categorical array cut out and flattened, then its lookup. -/
def chunk5 : List (HloOp τ sig (Elt F)) :=
  [ unary main_arg0 main_v15 ((extractStridedSlice S16384x1 ![0, 5] · slices_S16384x7_S16384x1_0_5) : (⟨S16384x7, .i32⟩ : BufTy).Contents (Elt F) → (⟨S16384x1, .i32⟩ : BufTy).Contents (Elt F)),
    reshape main_v15 main_v16 rfl shapeCasts_S16384x1_S16384 ]
  ++ takeOps4 (.of main_arg7) (.of main_v16) main_call5

/-- Column 6 of the categorical array cut out and flattened, then its lookup. -/
def chunk6 : List (HloOp τ sig (Elt F)) :=
  [ unary main_arg0 main_v18 ((extractStridedSlice S16384x1 ![0, 6] · slices_S16384x7_S16384x1_0_6) : (⟨S16384x7, .i32⟩ : BufTy).Contents (Elt F) → (⟨S16384x1, .i32⟩ : BufTy).Contents (Elt F)),
    reshape main_v18 main_v19 rfl shapeCasts_S16384x1_S16384 ]
  ++ takeOps4 (.of main_arg8) (.of main_v19) main_call6

/-- The seven looked-up rows and the numeric block laid side by side, then the three layers. -/
def tailOps : List (HloOp τ sig (Elt F)) :=
  [ nary ![main_v2, main_v5, main_v8, main_v11, main_v14, main_v17, main_v20] main_v21 (fun u => concatenate S16384x56 1 [⟨S16384x8, u 0⟩, ⟨S16384x8, u 1⟩, ⟨S16384x8, u 2⟩, ⟨S16384x8, u 3⟩, ⟨S16384x8, u 4⟩, ⟨S16384x8, u 5⟩, ⟨S16384x8, u 6⟩] concatenates_S16384x8_S16384x8_S16384x8_S16384x8_S16384x8_S16384x8_S16384x8_S16384x56_d1),
    binary main_v21 main_arg1 main_v22 ((fun a b => concatenate S16384x58 1 [⟨S16384x56, a⟩, ⟨S16384x2, b⟩] concatenates_S16384x56_S16384x2_S16384x58_d1) : (⟨S16384x56, .f32⟩ : BufTy).Contents (Elt F) → (⟨S16384x2, .f32⟩ : BufTy).Contents (Elt F) → (⟨S16384x58, .f32⟩ : BufTy).Contents (Elt F)),
    binary main_v22 main_arg9 main_v23 ((fun l r => Host.dotGeneral dot_S16384x58_S58x128_S16384x128_1_0_0_1_n_n none l r) : (⟨S16384x58, .f32⟩ : BufTy).Contents (Elt F) → (⟨S58x128, .f32⟩ : BufTy).Contents (Elt F) → (⟨S16384x128, .f32⟩ : BufTy).Contents (Elt F)),
    unary main_arg10 main_v24 (broadcastInDim S1x128 ![1] bcast_S128_S1x128_1 : (⟨S128, .f32⟩ : BufTy).Contents (Elt F) → (⟨S1x128, .f32⟩ : BufTy).Contents (Elt F)),
    unary main_v24 main_v25 (broadcastInDim S16384x128 ![0, 1] bcast_S1x128_S16384x128_0_1 : (⟨S1x128, .f32⟩ : BufTy).Contents (Elt F) → (⟨S16384x128, .f32⟩ : BufTy).Contents (Elt F)),
    binary main_v23 main_v25 main_v26 (addf : (⟨S16384x128, .f32⟩ : BufTy).Contents (Elt F) → (⟨S16384x128, .f32⟩ : BufTy).Contents (Elt F) → (⟨S16384x128, .f32⟩ : BufTy).Contents (Elt F)) ]
  ++ reluOps (.of main_v26) main_call7 ++
  [ binary main_v27 main_arg11 main_v28 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg12 main_v29 (broadcastInDim S1x128 ![1] bcast_S128_S1x128_1 : (⟨S128, .f32⟩ : BufTy).Contents (Elt F) → (⟨S1x128, .f32⟩ : BufTy).Contents (Elt F)),
    unary main_v29 main_v30 (broadcastInDim S16384x128 ![0, 1] bcast_S1x128_S16384x128_0_1 : (⟨S1x128, .f32⟩ : BufTy).Contents (Elt F) → (⟨S16384x128, .f32⟩ : BufTy).Contents (Elt F)),
    binary main_v28 main_v30 main_v31 (addf : (⟨S16384x128, .f32⟩ : BufTy).Contents (Elt F) → (⟨S16384x128, .f32⟩ : BufTy).Contents (Elt F) → (⟨S16384x128, .f32⟩ : BufTy).Contents (Elt F)) ]
  ++ reluOps (.of main_v31) main_call8 ++
  [ binary main_v32 main_arg13 main_v33 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg14 main_v34 (broadcastInDim S1x64 ![1] bcast_S64_S1x64_1 : (⟨S64, .f32⟩ : BufTy).Contents (Elt F) → (⟨S1x64, .f32⟩ : BufTy).Contents (Elt F)),
    unary main_v34 main_v35 (broadcastInDim S16384x64 ![0, 1] bcast_S1x64_S16384x64_0_1 : (⟨S1x64, .f32⟩ : BufTy).Contents (Elt F) → (⟨S16384x64, .f32⟩ : BufTy).Contents (Elt F)),
    binary main_v33 main_v35 main_v36 (addf : (⟨S16384x64, .f32⟩ : BufTy).Contents (Elt F) → (⟨S16384x64, .f32⟩ : BufTy).Contents (Elt F) → (⟨S16384x64, .f32⟩ : BufTy).Contents (Elt F)) ]

/-- @main's operations, in order. -/
def ops : List (HloOp τ sig (Elt F)) :=
  chunk0 ++ (chunk1 ++ (chunk2 ++ (chunk3 ++ (chunk4 ++ (chunk5 ++ (chunk6 ++ tailOps))))))

set_option maxRecDepth 8192 in
/-- @main is that straight line: the called functions' bodies in place of their calls, the sequencing reassociated. -/
theorem main_eq (c : Dev nD) : main (F := F) c = seq ops := by
  simp only [main, take6_body_eq, take4_body_eq, relu_body_eq, ops, chunk0, chunk1, chunk2, chunk3, chunk4, chunk5, chunk6,
    tailOps, takeOps6, takeOps4, reluOps, List.cons_append, List.nil_append, seq, bind_assoc, pure_bind]

end Cert.ReferenceIdeal.RefRun

end
-- ==== Proof.RefRunChunks.lean ====
/-
  The reference program's line read chunk by chunk: each lookup chunk leaves its looked-up rows in its result buffer
  and touches no buffer outside its own; the last chunk composes the concatenations and the layers over those seven
  buffers. Each chunk's operations touch TensorCore buffers only and none leaves a buffer's contents open.
-/
import proofs.«105925_g50397146251325_cont_8to1_c_54_18_alg».proof.Proof.RefRunOps

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers that chunk 0 writes. -/
abbrev chunk0_W : List (Ref sig .tc) := [main_v0, main_v1, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v2]

theorem chunk0_writes : (chunk0 : List (HloOp τ sig (Elt F))).Forall fun op => op.writes ⊆ (chunk0_W.map (Proc.devRef (τ := τ) .tc)).toFinset := by
  simp only [chunk0, takeOps6, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 0 does not write keeps its contents through it. -/
theorem chunk0_keep (V : Valuation τ sig (Elt F)) (r : Ref sig .tc) (h : r ∉ chunk0_W) :
    after chunk0 V (no_index (Proc.devRef .tc r)) = V (Proc.devRef .tc r) :=
  after_of_writes_sub chunk0 V chunk0_writes h

theorem chunk0_sub : (chunk0 : List (HloOp τ sig (Elt F))).Forall fun op => op.bufs ⊆ tcRefs τ sig := by
  simp only [chunk0, takeOps6, List.cons_append, List.nil_append, List.Forall, nullary_bufs_sub, unary_bufs_sub, binary_bufs_sub, ternary_bufs_sub, reshape_bufs_sub, nary_bufs_sub, and_self]

theorem chunk0_fresh : ∀ op ∈ (chunk0 : List (HloOp τ sig (Elt F))), op.fresh = ∅ := by
  simp only [chunk0, takeOps6, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 0 leaves column 0's looked-up rows in its result buffer. -/
theorem chunk0_res (V : Valuation τ sig (Elt F)) :
    after chunk0 V (no_index (Proc.devRef .tc main_v2)) = take6 (V (Proc.devRef .tc main_arg2)) (catCol (V (Proc.devRef .tc main_arg0)) 0) := by
  simp only [chunk0, takeOps6, List.cons_append, List.nil_append]
  after_results_simp
  rfl

/-- The buffers that chunk 1 writes. -/
abbrev chunk1_W : List (Ref sig .tc) := [main_v3, main_v4, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]

theorem chunk1_writes : (chunk1 : List (HloOp τ sig (Elt F))).Forall fun op => op.writes ⊆ (chunk1_W.map (Proc.devRef (τ := τ) .tc)).toFinset := by
  simp only [chunk1, takeOps4, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 1 does not write keeps its contents through it. -/
theorem chunk1_keep (V : Valuation τ sig (Elt F)) (r : Ref sig .tc) (h : r ∉ chunk1_W) :
    after chunk1 V (no_index (Proc.devRef .tc r)) = V (Proc.devRef .tc r) :=
  after_of_writes_sub chunk1 V chunk1_writes h

theorem chunk1_sub : (chunk1 : List (HloOp τ sig (Elt F))).Forall fun op => op.bufs ⊆ tcRefs τ sig := by
  simp only [chunk1, takeOps4, List.cons_append, List.nil_append, List.Forall, nullary_bufs_sub, unary_bufs_sub, binary_bufs_sub, ternary_bufs_sub, reshape_bufs_sub, nary_bufs_sub, and_self]

theorem chunk1_fresh : ∀ op ∈ (chunk1 : List (HloOp τ sig (Elt F))), op.fresh = ∅ := by
  simp only [chunk1, takeOps4, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 1 leaves column 1's looked-up rows in its result buffer. -/
theorem chunk1_res (V : Valuation τ sig (Elt F)) :
    after chunk1 V (no_index (Proc.devRef .tc main_v5)) = take4 (V (Proc.devRef .tc main_arg3)) (catCol (V (Proc.devRef .tc main_arg0)) 1) := by
  simp only [chunk1, takeOps4, List.cons_append, List.nil_append]
  after_results_simp
  rfl

/-- The buffers that chunk 2 writes. -/
abbrev chunk2_W : List (Ref sig .tc) := [main_v6, main_v7, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v8]

theorem chunk2_writes : (chunk2 : List (HloOp τ sig (Elt F))).Forall fun op => op.writes ⊆ (chunk2_W.map (Proc.devRef (τ := τ) .tc)).toFinset := by
  simp only [chunk2, takeOps4, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 2 does not write keeps its contents through it. -/
theorem chunk2_keep (V : Valuation τ sig (Elt F)) (r : Ref sig .tc) (h : r ∉ chunk2_W) :
    after chunk2 V (no_index (Proc.devRef .tc r)) = V (Proc.devRef .tc r) :=
  after_of_writes_sub chunk2 V chunk2_writes h

theorem chunk2_sub : (chunk2 : List (HloOp τ sig (Elt F))).Forall fun op => op.bufs ⊆ tcRefs τ sig := by
  simp only [chunk2, takeOps4, List.cons_append, List.nil_append, List.Forall, nullary_bufs_sub, unary_bufs_sub, binary_bufs_sub, ternary_bufs_sub, reshape_bufs_sub, nary_bufs_sub, and_self]

theorem chunk2_fresh : ∀ op ∈ (chunk2 : List (HloOp τ sig (Elt F))), op.fresh = ∅ := by
  simp only [chunk2, takeOps4, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 2 leaves column 2's looked-up rows in its result buffer. -/
theorem chunk2_res (V : Valuation τ sig (Elt F)) :
    after chunk2 V (no_index (Proc.devRef .tc main_v8)) = take4 (V (Proc.devRef .tc main_arg4)) (catCol (V (Proc.devRef .tc main_arg0)) 2) := by
  simp only [chunk2, takeOps4, List.cons_append, List.nil_append]
  after_results_simp
  rfl

/-- The buffers that chunk 3 writes. -/
abbrev chunk3_W : List (Ref sig .tc) := [main_v9, main_v10, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v11]

theorem chunk3_writes : (chunk3 : List (HloOp τ sig (Elt F))).Forall fun op => op.writes ⊆ (chunk3_W.map (Proc.devRef (τ := τ) .tc)).toFinset := by
  simp only [chunk3, takeOps4, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 3 does not write keeps its contents through it. -/
theorem chunk3_keep (V : Valuation τ sig (Elt F)) (r : Ref sig .tc) (h : r ∉ chunk3_W) :
    after chunk3 V (no_index (Proc.devRef .tc r)) = V (Proc.devRef .tc r) :=
  after_of_writes_sub chunk3 V chunk3_writes h

theorem chunk3_sub : (chunk3 : List (HloOp τ sig (Elt F))).Forall fun op => op.bufs ⊆ tcRefs τ sig := by
  simp only [chunk3, takeOps4, List.cons_append, List.nil_append, List.Forall, nullary_bufs_sub, unary_bufs_sub, binary_bufs_sub, ternary_bufs_sub, reshape_bufs_sub, nary_bufs_sub, and_self]

theorem chunk3_fresh : ∀ op ∈ (chunk3 : List (HloOp τ sig (Elt F))), op.fresh = ∅ := by
  simp only [chunk3, takeOps4, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 3 leaves column 3's looked-up rows in its result buffer. -/
theorem chunk3_res (V : Valuation τ sig (Elt F)) :
    after chunk3 V (no_index (Proc.devRef .tc main_v11)) = take4 (V (Proc.devRef .tc main_arg5)) (catCol (V (Proc.devRef .tc main_arg0)) 3) := by
  simp only [chunk3, takeOps4, List.cons_append, List.nil_append]
  after_results_simp
  rfl

/-- The buffers that chunk 4 writes. -/
abbrev chunk4_W : List (Ref sig .tc) := [main_v12, main_v13, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v14]

theorem chunk4_writes : (chunk4 : List (HloOp τ sig (Elt F))).Forall fun op => op.writes ⊆ (chunk4_W.map (Proc.devRef (τ := τ) .tc)).toFinset := by
  simp only [chunk4, takeOps6, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 4 does not write keeps its contents through it. -/
theorem chunk4_keep (V : Valuation τ sig (Elt F)) (r : Ref sig .tc) (h : r ∉ chunk4_W) :
    after chunk4 V (no_index (Proc.devRef .tc r)) = V (Proc.devRef .tc r) :=
  after_of_writes_sub chunk4 V chunk4_writes h

theorem chunk4_sub : (chunk4 : List (HloOp τ sig (Elt F))).Forall fun op => op.bufs ⊆ tcRefs τ sig := by
  simp only [chunk4, takeOps6, List.cons_append, List.nil_append, List.Forall, nullary_bufs_sub, unary_bufs_sub, binary_bufs_sub, ternary_bufs_sub, reshape_bufs_sub, nary_bufs_sub, and_self]

theorem chunk4_fresh : ∀ op ∈ (chunk4 : List (HloOp τ sig (Elt F))), op.fresh = ∅ := by
  simp only [chunk4, takeOps6, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 4 leaves column 4's looked-up rows in its result buffer. -/
theorem chunk4_res (V : Valuation τ sig (Elt F)) :
    after chunk4 V (no_index (Proc.devRef .tc main_v14)) = take6 (V (Proc.devRef .tc main_arg6)) (catCol (V (Proc.devRef .tc main_arg0)) 4) := by
  simp only [chunk4, takeOps6, List.cons_append, List.nil_append]
  after_results_simp
  rfl

/-- The buffers that chunk 5 writes. -/
abbrev chunk5_W : List (Ref sig .tc) := [main_v15, main_v16, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v17]

theorem chunk5_writes : (chunk5 : List (HloOp τ sig (Elt F))).Forall fun op => op.writes ⊆ (chunk5_W.map (Proc.devRef (τ := τ) .tc)).toFinset := by
  simp only [chunk5, takeOps4, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 5 does not write keeps its contents through it. -/
theorem chunk5_keep (V : Valuation τ sig (Elt F)) (r : Ref sig .tc) (h : r ∉ chunk5_W) :
    after chunk5 V (no_index (Proc.devRef .tc r)) = V (Proc.devRef .tc r) :=
  after_of_writes_sub chunk5 V chunk5_writes h

theorem chunk5_sub : (chunk5 : List (HloOp τ sig (Elt F))).Forall fun op => op.bufs ⊆ tcRefs τ sig := by
  simp only [chunk5, takeOps4, List.cons_append, List.nil_append, List.Forall, nullary_bufs_sub, unary_bufs_sub, binary_bufs_sub, ternary_bufs_sub, reshape_bufs_sub, nary_bufs_sub, and_self]

theorem chunk5_fresh : ∀ op ∈ (chunk5 : List (HloOp τ sig (Elt F))), op.fresh = ∅ := by
  simp only [chunk5, takeOps4, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 5 leaves column 5's looked-up rows in its result buffer. -/
theorem chunk5_res (V : Valuation τ sig (Elt F)) :
    after chunk5 V (no_index (Proc.devRef .tc main_v17)) = take4 (V (Proc.devRef .tc main_arg7)) (catCol (V (Proc.devRef .tc main_arg0)) 5) := by
  simp only [chunk5, takeOps4, List.cons_append, List.nil_append]
  after_results_simp
  rfl

/-- The buffers that chunk 6 writes. -/
abbrev chunk6_W : List (Ref sig .tc) := [main_v18, main_v19, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v20]

theorem chunk6_writes : (chunk6 : List (HloOp τ sig (Elt F))).Forall fun op => op.writes ⊆ (chunk6_W.map (Proc.devRef (τ := τ) .tc)).toFinset := by
  simp only [chunk6, takeOps4, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 6 does not write keeps its contents through it. -/
theorem chunk6_keep (V : Valuation τ sig (Elt F)) (r : Ref sig .tc) (h : r ∉ chunk6_W) :
    after chunk6 V (no_index (Proc.devRef .tc r)) = V (Proc.devRef .tc r) :=
  after_of_writes_sub chunk6 V chunk6_writes h

theorem chunk6_sub : (chunk6 : List (HloOp τ sig (Elt F))).Forall fun op => op.bufs ⊆ tcRefs τ sig := by
  simp only [chunk6, takeOps4, List.cons_append, List.nil_append, List.Forall, nullary_bufs_sub, unary_bufs_sub, binary_bufs_sub, ternary_bufs_sub, reshape_bufs_sub, nary_bufs_sub, and_self]

theorem chunk6_fresh : ∀ op ∈ (chunk6 : List (HloOp τ sig (Elt F))), op.fresh = ∅ := by
  simp only [chunk6, takeOps4, List.cons_append, List.nil_append]
  intro _ h
  (repeat (cases h with | head => rfl | tail _ h => ?_))
  exact nomatch h

attribute [local irreducible] Host.reduce Host.gather in
set_option maxRecDepth 8192 in
set_option maxHeartbeats 1000000 in
/-- Chunk 6 leaves column 6's looked-up rows in its result buffer. -/
theorem chunk6_res (V : Valuation τ sig (Elt F)) :
    after chunk6 V (no_index (Proc.devRef .tc main_v20)) = take4 (V (Proc.devRef .tc main_arg8)) (catCol (V (Proc.devRef .tc main_arg0)) 6) := by
  simp only [chunk6, takeOps4, List.cons_append, List.nil_append]
  after_results_simp
  rfl

/-- The buffers that chunk 7 writes. -/
abbrev tailOps_W : List (Ref sig .tc) := [main_v21, main_v22, main_v23, main_v24, main_v25, main_v26, main_call7_cst, main_call7_v0, main_v27, main_v28, main_v29, main_v30, main_v31, main_call8_cst, main_call8_v0, main_v32, main_v33, main_v34, main_v35, main_v36]

theorem tailOps_writes : (tailOps : List (HloOp τ sig (Elt F))).Forall fun op => op.writes ⊆ (tailOps_W.map (Proc.devRef (τ := τ) .tc)).toFinset := by
  simp only [tailOps, reluOps, List.cons_append, List.nil_append, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that chunk 7 does not write keeps its contents through it. -/
theorem tailOps_keep (V : Valuation τ sig (Elt F)) (r : Ref sig .tc) (h : r ∉ tailOps_W) :
    after tailOps V (no_index (Proc.devRef .tc r)) = V (Proc.devRef .tc r) :=
  after_of_writes_sub tailOps V tailOps_writes h

theorem tailOps_sub : (tailOps : List (HloOp τ sig (Elt F))).Forall fun op => op.bufs ⊆ tcRefs τ sig := by
  simp only [tailOps, reluOps, List.cons_append, List.nil_append, List.Forall, nullary_bufs_sub, unary_bufs_sub, binary_bufs_sub, ternary_bufs_sub, reshape_bufs_sub, nary_bufs_sub, and_self]

theorem tailOps_fresh : ∀ op ∈ (tailOps : List (HloOp τ sig (Elt F))), op.fresh = ∅ := by
  simp only [tailOps, reluOps, List.cons_append, List.nil_append]
  intro _ h
  (repeat (cases h with | head => rfl | tail _ h => ?_))
  exact nomatch h

set_option maxRecDepth 8192 in
set_option maxHeartbeats 1000000 in
/-- The last chunk composes the two concatenations and the three layers over the seven looked-up blocks. -/
theorem tailOps_res (V : Valuation τ sig (Elt F)) :
    after tailOps V (no_index (Proc.devRef .tc main_v36))
      = layers (concatenate S16384x58 1
          [⟨S16384x56, concatenate S16384x56 1
              [⟨S16384x8, V (Proc.devRef .tc main_v2)⟩, ⟨S16384x8, V (Proc.devRef .tc main_v5)⟩, ⟨S16384x8, V (Proc.devRef .tc main_v8)⟩, ⟨S16384x8, V (Proc.devRef .tc main_v11)⟩, ⟨S16384x8, V (Proc.devRef .tc main_v14)⟩, ⟨S16384x8, V (Proc.devRef .tc main_v17)⟩, ⟨S16384x8, V (Proc.devRef .tc main_v20)⟩]
              concatenates_S16384x8_S16384x8_S16384x8_S16384x8_S16384x8_S16384x8_S16384x8_S16384x56_d1⟩,
           ⟨S16384x2, V (Proc.devRef .tc main_arg1)⟩] concatenates_S16384x56_S16384x2_S16384x58_d1)
        (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [tailOps, reluOps, List.cons_append, List.nil_append]
  after_results_simp
  (try dsimp only [Matrix.cons_val])
  rfl

end Cert.ReferenceIdeal.RefRun

end
-- ==== Proof.RefRun.lean ====
/-
  The reference program's run: every weakly fair execution of its straight line terminates with the result buffer at
  the composed function of the fifteen argument arrays and the arguments unchanged. The line is read chunk by chunk:
  each lookup chunk leaves its looked-up rows in its result buffer and touches no buffer outside its own, the last
  chunk composes the concatenations and the layers over those seven buffers.
-/
import proofs.«105925_g50397146251325_cont_8to1_c_54_18_alg».proof.Proof.RefRunChunks

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-! Each buffer the last chunk reads, after the seven lookup chunks: a looked-up block is its chunk's result kept by
the later chunks, an argument is kept by all seven. -/

theorem t_v2 (V : Valuation τ sig (Elt F)) : (after chunk6 (after chunk5 (after chunk4 (after chunk3 (after chunk2 (after chunk1 (after chunk0 V))))))) (Proc.devRef .tc main_v2) = take6 (V (Proc.devRef .tc main_arg2)) (catCol (V (Proc.devRef .tc main_arg0)) 0) := by
  simp (disch := decide) only [chunk0_keep, chunk1_keep, chunk2_keep, chunk3_keep, chunk4_keep, chunk5_keep, chunk6_keep, chunk0_res]

theorem t_v5 (V : Valuation τ sig (Elt F)) : (after chunk6 (after chunk5 (after chunk4 (after chunk3 (after chunk2 (after chunk1 (after chunk0 V))))))) (Proc.devRef .tc main_v5) = take4 (V (Proc.devRef .tc main_arg3)) (catCol (V (Proc.devRef .tc main_arg0)) 1) := by
  simp (disch := decide) only [chunk0_keep, chunk1_keep, chunk2_keep, chunk3_keep, chunk4_keep, chunk5_keep, chunk6_keep, chunk1_res]

theorem t_v8 (V : Valuation τ sig (Elt F)) : (after chunk6 (after chunk5 (after chunk4 (after chunk3 (after chunk2 (after chunk1 (after chunk0 V))))))) (Proc.devRef .tc main_v8) = take4 (V (Proc.devRef .tc main_arg4)) (catCol (V (Proc.devRef .tc main_arg0)) 2) := by
  simp (disch := decide) only [chunk0_keep, chunk1_keep, chunk2_keep, chunk3_keep, chunk4_keep, chunk5_keep, chunk6_keep, chunk2_res]

theorem t_v11 (V : Valuation τ sig (Elt F)) : (after chunk6 (after chunk5 (after chunk4 (after chunk3 (after chunk2 (after chunk1 (after chunk0 V))))))) (Proc.devRef .tc main_v11) = take4 (V (Proc.devRef .tc main_arg5)) (catCol (V (Proc.devRef .tc main_arg0)) 3) := by
  simp (disch := decide) only [chunk0_keep, chunk1_keep, chunk2_keep, chunk3_keep, chunk4_keep, chunk5_keep, chunk6_keep, chunk3_res]

theorem t_v14 (V : Valuation τ sig (Elt F)) : (after chunk6 (after chunk5 (after chunk4 (after chunk3 (after chunk2 (after chunk1 (after chunk0 V))))))) (Proc.devRef .tc main_v14) = take6 (V (Proc.devRef .tc main_arg6)) (catCol (V (Proc.devRef .tc main_arg0)) 4) := by
  simp (disch := decide) only [chunk0_keep, chunk1_keep, chunk2_keep, chunk3_keep, chunk4_keep, chunk5_keep, chunk6_keep, chunk4_res]

theorem t_v17 (V : Valuation τ sig (Elt F)) : (after chunk6 (after chunk5 (after chunk4 (after chunk3 (after chunk2 (after chunk1 (after chunk0 V))))))) (Proc.devRef .tc main_v17) = take4 (V (Proc.devRef .tc main_arg7)) (catCol (V (Proc.devRef .tc main_arg0)) 5) := by
  simp (disch := decide) only [chunk0_keep, chunk1_keep, chunk2_keep, chunk3_keep, chunk4_keep, chunk5_keep, chunk6_keep, chunk5_res]

theorem t_v20 (V : Valuation τ sig (Elt F)) : (after chunk6 (after chunk5 (after chunk4 (after chunk3 (after chunk2 (after chunk1 (after chunk0 V))))))) (Proc.devRef .tc main_v20) = take4 (V (Proc.devRef .tc main_arg8)) (catCol (V (Proc.devRef .tc main_arg0)) 6) := by
  simp (disch := decide) only [chunk0_keep, chunk1_keep, chunk2_keep, chunk3_keep, chunk4_keep, chunk5_keep, chunk6_keep, chunk6_res]

theorem t_arg1 (V : Valuation τ sig (Elt F)) : (after chunk6 (after chunk5 (after chunk4 (after chunk3 (after chunk2 (after chunk1 (after chunk0 V))))))) (Proc.devRef .tc main_arg1) = V (Proc.devRef .tc main_arg1) := by
  simp (disch := decide) only [chunk0_keep, chunk1_keep, chunk2_keep, chunk3_keep, chunk4_keep, chunk5_keep, chunk6_keep]

theorem t_arg9 (V : Valuation τ sig (Elt F)) : (after chunk6 (after chunk5 (after chunk4 (after chunk3 (after chunk2 (after chunk1 (after chunk0 V))))))) (Proc.devRef .tc main_arg9) = V (Proc.devRef .tc main_arg9) := by
  simp (disch := decide) only [chunk0_keep, chunk1_keep, chunk2_keep, chunk3_keep, chunk4_keep, chunk5_keep, chunk6_keep]

theorem t_arg10 (V : Valuation τ sig (Elt F)) : (after chunk6 (after chunk5 (after chunk4 (after chunk3 (after chunk2 (after chunk1 (after chunk0 V))))))) (Proc.devRef .tc main_arg10) = V (Proc.devRef .tc main_arg10) := by
  simp (disch := decide) only [chunk0_keep, chunk1_keep, chunk2_keep, chunk3_keep, chunk4_keep, chunk5_keep, chunk6_keep]

theorem t_arg11 (V : Valuation τ sig (Elt F)) : (after chunk6 (after chunk5 (after chunk4 (after chunk3 (after chunk2 (after chunk1 (after chunk0 V))))))) (Proc.devRef .tc main_arg11) = V (Proc.devRef .tc main_arg11) := by
  simp (disch := decide) only [chunk0_keep, chunk1_keep, chunk2_keep, chunk3_keep, chunk4_keep, chunk5_keep, chunk6_keep]

theorem t_arg12 (V : Valuation τ sig (Elt F)) : (after chunk6 (after chunk5 (after chunk4 (after chunk3 (after chunk2 (after chunk1 (after chunk0 V))))))) (Proc.devRef .tc main_arg12) = V (Proc.devRef .tc main_arg12) := by
  simp (disch := decide) only [chunk0_keep, chunk1_keep, chunk2_keep, chunk3_keep, chunk4_keep, chunk5_keep, chunk6_keep]

theorem t_arg13 (V : Valuation τ sig (Elt F)) : (after chunk6 (after chunk5 (after chunk4 (after chunk3 (after chunk2 (after chunk1 (after chunk0 V))))))) (Proc.devRef .tc main_arg13) = V (Proc.devRef .tc main_arg13) := by
  simp (disch := decide) only [chunk0_keep, chunk1_keep, chunk2_keep, chunk3_keep, chunk4_keep, chunk5_keep, chunk6_keep]

theorem t_arg14 (V : Valuation τ sig (Elt F)) : (after chunk6 (after chunk5 (after chunk4 (after chunk3 (after chunk2 (after chunk1 (after chunk0 V))))))) (Proc.devRef .tc main_arg14) = V (Proc.devRef .tc main_arg14) := by
  simp (disch := decide) only [chunk0_keep, chunk1_keep, chunk2_keep, chunk3_keep, chunk4_keep, chunk5_keep, chunk6_keep]

/-- The last chunk's function of the seven looked-up blocks, the numeric block and the layers' weights. -/
def tailFn (x0 x1 x2 x3 x4 x5 x6 : FVec F S16384x8 .f32) (un : FVec F S16384x2 .f32) (W1 : FVec F S58x128 .f32) (b1 : FVec F S128 .f32)
    (W2 : FVec F S128x128 .f32) (b2 : FVec F S128 .f32) (W3 : FVec F S128x64 .f32) (b3 : FVec F S64 .f32) : FVec F S16384x64 .f32 :=
  layers (concatenate S16384x58 1
      [⟨S16384x56, concatenate S16384x56 1
          [⟨S16384x8, x0⟩, ⟨S16384x8, x1⟩, ⟨S16384x8, x2⟩, ⟨S16384x8, x3⟩, ⟨S16384x8, x4⟩, ⟨S16384x8, x5⟩, ⟨S16384x8, x6⟩]
          concatenates_S16384x8_S16384x8_S16384x8_S16384x8_S16384x8_S16384x8_S16384x8_S16384x56_d1⟩,
       ⟨S16384x2, un⟩] concatenates_S16384x56_S16384x2_S16384x58_d1) W1 b1 W2 b2 W3 b3

/-- The whole line at the result buffer. -/
theorem out_eq (V : Valuation τ sig (Elt F)) :
    after ops V (Proc.devRef .tc main_v36)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [ops, after_app]
  refine (tailOps_res _).trans ?_
  show tailFn ((after chunk6 (after chunk5 (after chunk4 (after chunk3 (after chunk2 (after chunk1 (after chunk0 V))))))) (Proc.devRef .tc main_v2)) ((after chunk6 (after chunk5 (after chunk4 (after chunk3 (after chunk2 (after chunk1 (after chunk0 V))))))) (Proc.devRef .tc main_v5)) ((after chunk6 (after chunk5 (after chunk4 (after chunk3 (after chunk2 (after chunk1 (after chunk0 V))))))) (Proc.devRef .tc main_v8)) ((after chunk6 (after chunk5 (after chunk4 (after chunk3 (after chunk2 (after chunk1 (after chunk0 V))))))) (Proc.devRef .tc main_v11)) ((after chunk6 (after chunk5 (after chunk4 (after chunk3 (after chunk2 (after chunk1 (after chunk0 V))))))) (Proc.devRef .tc main_v14)) ((after chunk6 (after chunk5 (after chunk4 (after chunk3 (after chunk2 (after chunk1 (after chunk0 V))))))) (Proc.devRef .tc main_v17)) ((after chunk6 (after chunk5 (after chunk4 (after chunk3 (after chunk2 (after chunk1 (after chunk0 V))))))) (Proc.devRef .tc main_v20))
    ((after chunk6 (after chunk5 (after chunk4 (after chunk3 (after chunk2 (after chunk1 (after chunk0 V))))))) (Proc.devRef .tc main_arg1)) ((after chunk6 (after chunk5 (after chunk4 (after chunk3 (after chunk2 (after chunk1 (after chunk0 V))))))) (Proc.devRef .tc main_arg9)) ((after chunk6 (after chunk5 (after chunk4 (after chunk3 (after chunk2 (after chunk1 (after chunk0 V))))))) (Proc.devRef .tc main_arg10)) ((after chunk6 (after chunk5 (after chunk4 (after chunk3 (after chunk2 (after chunk1 (after chunk0 V))))))) (Proc.devRef .tc main_arg11)) ((after chunk6 (after chunk5 (after chunk4 (after chunk3 (after chunk2 (after chunk1 (after chunk0 V))))))) (Proc.devRef .tc main_arg12)) ((after chunk6 (after chunk5 (after chunk4 (after chunk3 (after chunk2 (after chunk1 (after chunk0 V))))))) (Proc.devRef .tc main_arg13)) ((after chunk6 (after chunk5 (after chunk4 (after chunk3 (after chunk2 (after chunk1 (after chunk0 V))))))) (Proc.devRef .tc main_arg14)) = _
  rw [t_v2 V, t_v5 V, t_v8 V, t_v11 V, t_v14 V, t_v17 V, t_v20 V, t_arg1 V, t_arg9 V, t_arg10 V, t_arg11 V, t_arg12 V, t_arg13 V, t_arg14 V]
  rfl

theorem arg0_eq (V : Valuation τ sig (Elt F)) : after ops V (Proc.devRef .tc main_arg0) = V (Proc.devRef .tc main_arg0) := by
  simp only [ops, after_app]
  simp (disch := decide) only [chunk0_keep, chunk1_keep, chunk2_keep, chunk3_keep, chunk4_keep, chunk5_keep, chunk6_keep, tailOps_keep]

theorem arg1_eq (V : Valuation τ sig (Elt F)) : after ops V (Proc.devRef .tc main_arg1) = V (Proc.devRef .tc main_arg1) := by
  simp only [ops, after_app]
  simp (disch := decide) only [chunk0_keep, chunk1_keep, chunk2_keep, chunk3_keep, chunk4_keep, chunk5_keep, chunk6_keep, tailOps_keep]

theorem arg2_eq (V : Valuation τ sig (Elt F)) : after ops V (Proc.devRef .tc main_arg2) = V (Proc.devRef .tc main_arg2) := by
  simp only [ops, after_app]
  simp (disch := decide) only [chunk0_keep, chunk1_keep, chunk2_keep, chunk3_keep, chunk4_keep, chunk5_keep, chunk6_keep, tailOps_keep]

theorem arg3_eq (V : Valuation τ sig (Elt F)) : after ops V (Proc.devRef .tc main_arg3) = V (Proc.devRef .tc main_arg3) := by
  simp only [ops, after_app]
  simp (disch := decide) only [chunk0_keep, chunk1_keep, chunk2_keep, chunk3_keep, chunk4_keep, chunk5_keep, chunk6_keep, tailOps_keep]

theorem arg4_eq (V : Valuation τ sig (Elt F)) : after ops V (Proc.devRef .tc main_arg4) = V (Proc.devRef .tc main_arg4) := by
  simp only [ops, after_app]
  simp (disch := decide) only [chunk0_keep, chunk1_keep, chunk2_keep, chunk3_keep, chunk4_keep, chunk5_keep, chunk6_keep, tailOps_keep]

theorem arg5_eq (V : Valuation τ sig (Elt F)) : after ops V (Proc.devRef .tc main_arg5) = V (Proc.devRef .tc main_arg5) := by
  simp only [ops, after_app]
  simp (disch := decide) only [chunk0_keep, chunk1_keep, chunk2_keep, chunk3_keep, chunk4_keep, chunk5_keep, chunk6_keep, tailOps_keep]

theorem arg6_eq (V : Valuation τ sig (Elt F)) : after ops V (Proc.devRef .tc main_arg6) = V (Proc.devRef .tc main_arg6) := by
  simp only [ops, after_app]
  simp (disch := decide) only [chunk0_keep, chunk1_keep, chunk2_keep, chunk3_keep, chunk4_keep, chunk5_keep, chunk6_keep, tailOps_keep]

theorem arg7_eq (V : Valuation τ sig (Elt F)) : after ops V (Proc.devRef .tc main_arg7) = V (Proc.devRef .tc main_arg7) := by
  simp only [ops, after_app]
  simp (disch := decide) only [chunk0_keep, chunk1_keep, chunk2_keep, chunk3_keep, chunk4_keep, chunk5_keep, chunk6_keep, tailOps_keep]

theorem arg8_eq (V : Valuation τ sig (Elt F)) : after ops V (Proc.devRef .tc main_arg8) = V (Proc.devRef .tc main_arg8) := by
  simp only [ops, after_app]
  simp (disch := decide) only [chunk0_keep, chunk1_keep, chunk2_keep, chunk3_keep, chunk4_keep, chunk5_keep, chunk6_keep, tailOps_keep]

theorem arg9_eq (V : Valuation τ sig (Elt F)) : after ops V (Proc.devRef .tc main_arg9) = V (Proc.devRef .tc main_arg9) := by
  simp only [ops, after_app]
  simp (disch := decide) only [chunk0_keep, chunk1_keep, chunk2_keep, chunk3_keep, chunk4_keep, chunk5_keep, chunk6_keep, tailOps_keep]

theorem arg10_eq (V : Valuation τ sig (Elt F)) : after ops V (Proc.devRef .tc main_arg10) = V (Proc.devRef .tc main_arg10) := by
  simp only [ops, after_app]
  simp (disch := decide) only [chunk0_keep, chunk1_keep, chunk2_keep, chunk3_keep, chunk4_keep, chunk5_keep, chunk6_keep, tailOps_keep]

theorem arg11_eq (V : Valuation τ sig (Elt F)) : after ops V (Proc.devRef .tc main_arg11) = V (Proc.devRef .tc main_arg11) := by
  simp only [ops, after_app]
  simp (disch := decide) only [chunk0_keep, chunk1_keep, chunk2_keep, chunk3_keep, chunk4_keep, chunk5_keep, chunk6_keep, tailOps_keep]

theorem arg12_eq (V : Valuation τ sig (Elt F)) : after ops V (Proc.devRef .tc main_arg12) = V (Proc.devRef .tc main_arg12) := by
  simp only [ops, after_app]
  simp (disch := decide) only [chunk0_keep, chunk1_keep, chunk2_keep, chunk3_keep, chunk4_keep, chunk5_keep, chunk6_keep, tailOps_keep]

theorem arg13_eq (V : Valuation τ sig (Elt F)) : after ops V (Proc.devRef .tc main_arg13) = V (Proc.devRef .tc main_arg13) := by
  simp only [ops, after_app]
  simp (disch := decide) only [chunk0_keep, chunk1_keep, chunk2_keep, chunk3_keep, chunk4_keep, chunk5_keep, chunk6_keep, tailOps_keep]

theorem arg14_eq (V : Valuation τ sig (Elt F)) : after ops V (Proc.devRef .tc main_arg14) = V (Proc.devRef .tc main_arg14) := by
  simp only [ops, after_app]
  simp (disch := decide) only [chunk0_keep, chunk1_keep, chunk2_keep, chunk3_keep, chunk4_keep, chunk5_keep, chunk6_keep, tailOps_keep]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h | h | h | h
  exacts [List.forall_iff_forall_mem.1 chunk0_sub op h, List.forall_iff_forall_mem.1 chunk1_sub op h, List.forall_iff_forall_mem.1 chunk2_sub op h, List.forall_iff_forall_mem.1 chunk3_sub op h, List.forall_iff_forall_mem.1 chunk4_sub op h, List.forall_iff_forall_mem.1 chunk5_sub op h, List.forall_iff_forall_mem.1 chunk6_sub op h, List.forall_iff_forall_mem.1 tailOps_sub op h]

theorem ops_fresh : ∀ op ∈ (ops : List (HloOp τ sig (Elt F))), op.fresh = ∅ := by
  intro op h
  simp only [ops, List.mem_append] at h
  rcases h with h | h | h | h | h | h | h | h
  exacts [chunk0_fresh op h, chunk1_fresh op h, chunk2_fresh op h, chunk3_fresh op h, chunk4_fresh op h, chunk5_fresh op h, chunk6_fresh op h, tailOps_fresh op h]

/-- On every device, for any float values, from any memory with zero counters: every weakly fair execution of
    @main terminates with the result buffer at the reference's function of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v36).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_seq scopedRefs_eq scopedSems_eq defs main (fun _ => ops) main_eq (fun _ => ops_sub) m ρ (fun _ => ops_fresh))

end Cert.ReferenceIdeal.RefRun

end
-- ==== Proof.ColRead.lean ====
/-
  Two facts the lookup and the range condition share.

  Column o of the array of categorical words, cut out as a slice of width one and flattened, reads at row b the
  word at (b, o). And a 32-bit word that is at least zero and below n as signed integers (n below 2^31) is below n
  as a natural number: its sign bit is clear, so its signed and unsigned readings agree.
-/
import Idealize.ShloMosaic.Lib.ValueIdx
import Idealize.ShloMosaic.Lib.ValueLayout
import Idealize.ShloMosaic.Lib.Affine
import Idealize.ShloMosaic.Lib.Pipeline.Value

namespace Cert.ColRead

open Idealize.ShloMosaic Idealize.ShloMosaic.ValueIdx

/-- The flattened width-one slice at column o, read at row b, is the word at (b, o). -/
theorem col_apply {α : Type} (uc : (⟨2, ![16384, 7]⟩ : Shape).Idx → α) (o : Nat) (ho : o < 7)
    (hs : (⟨2, ![16384, 7]⟩ : Shape).Slices ![0, o] ⟨2, ![16384, 1]⟩)
    (hc : (⟨2, ![16384, 1]⟩ : Shape).ShapeCasts ⟨1, ![16384]⟩) (b : Fin 16384) :
    shapeCast ⟨1, ![16384]⟩ (extractStridedSlice ⟨2, ![16384, 1]⟩ ![0, o] uc hs) hc (ix1 b) = uc (ix2 b ⟨o, ho⟩) := by
  refine (shapeCast_apply _ hc (ix1 b) (ix2 b (0 : Fin 1)) ?_).trans ?_
  · rw [Shape.rowMajor_val_two, Shape.rowMajor_val_one]
    show b.val * 1 + 0 = b.val
    omega
  · refine extractStridedSlice_apply ![0, o] uc hs (ix2 b (0 : Fin 1)) (ix2 b ⟨o, ho⟩) fun a => ?_
    match a with
    | ⟨0, _⟩ => show b.val = 0 + b.val; omega
    | ⟨1, _⟩ => show o = o + 0; omega

/-- A word in [0, n) as a signed integer is below n as a natural number. -/
theorem toNat_lt (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge] at h0
  rw [IntOp.cmpi_slt] at h1
  have hw := w.isLt
  rw [BitVec.toInt_eq_toNat_cond] at h0 h1
  rw [BitVec.toInt_eq_toNat_cond] at h0 h1
  simp only [BitVec.toNat_ofNat] at h0 h1
  have hn' : n % 2 ^ 32 = n := Nat.mod_eq_of_lt (by omega)
  rw [hn'] at h1
  split at h0 <;> split at h1 <;> omega

end Cert.ColRead
-- ==== Proof.PreRange.lean ====
/-
  The precondition decoded: every categorical word names a row of its table.

  The precondition is a conjunction of twenty-one conditions, each a whole-array "all" brought to one bit. The last
  seven say, for feature i = 0 … 6, that every word of column i is at least zero and below the number of rows of
  table i, as signed integers. Only these seven are read here: the fourteen conditions before them enter as two bits
  nothing is asked of. From "all of column i" one takes the row b wanted, reads the column at b as the word at
  (b, i), and a word in [0, n) signed is below n as a natural number.
-/
import proofs.«105925_g50397146251325_cont_8to1_c_54_18_alg».proof.Proof.Spec
import proofs.«105925_g50397146251325_cont_8to1_c_54_18_alg».proof.Proof.ColRead
import proofs.«105925_g50397146251325_cont_8to1_c_54_18_alg».proof.Proof.Gen.Pre_finite_inputs
import Idealize.ShloMosaic.Lib.ReduceAll

namespace Cert.PreRange

open Idealize.ShloMosaic Idealize.ShloMosaic.ValueIdx Cert.Pre_finite_inputs

/-- The shape of a single bit has one index. -/
instance : Subsingleton S_.Idx := ⟨fun a b => funext fun d => d.elim0⟩

variable [Cert.Pre_finite_inputs.Facts]

/-- One column's condition at row b: the word at (b, o) is below n. -/
theorem word_lt (uc : IVec S16384x7 32) (o : Nat) (ho : o < 7) (n : Nat) (hn : n < 2 ^ 31)
    (hs : S16384x7.Slices ![0, o] S16384x1) (hc : S16384x1.ShapeCasts S16384)
    (hb : S_.BroadcastsInDim S16384 (![] : Fin 0 → Fin S16384.rank)) (hred : S16384.ReducesTo [0] S_) (hu : 0 < S_.numel)
    (e : Host.reduce IntOp.andi
        (fun i => IntOp.andi
          (IntOp.cmpi .sge (shapeCast S16384 (extractStridedSlice S16384x1 ![0, o] uc hs) hc i)
            (broadcastInDim S16384 ![] hb (constantI S_ 32 0#32) i))
          (IntOp.cmpi .slt (shapeCast S16384 (extractStridedSlice S16384x1 ![0, o] uc hs) hc i)
            (broadcastInDim S16384 ![] hb (constantI S_ 32 (BitVec.ofNat 32 n)) i)))
        (constantI S_ 1 1#1) hred hu ix0 = 1#1) (b : Fin 16384) :
    (uc (ix2 b ⟨o, ho⟩)).toNat < n := by
  have e1 := Host.reduce_andi_all _ _ hred hu ix0 e (ix1 b)
  obtain ⟨h0, h1⟩ := IntOp.andi_eq_one.1 e1
  rw [Cert.ColRead.col_apply uc o ho hs hc b] at h0 h1
  exact Cert.ColRead.toNat_lt _ n hn h0 h1

/-- The last five parts of the precondition, whatever the two bits they start from: the seven range conditions. -/
theorem inRange_of_part4 {F : FTy → Type} [FloatOps F] (a0 : IVec S16384x7 32) (p q : IVec S_ 1)
    (e : fn_part4 (F := F) a0 p q ix0 = 1#1) : Cert.Tower.InRange a0 := by
  dsimp only [fn_part4, fn_part5, fn_part6, fn_part7, fn_part8] at e
  simp only [Idealize.ShloMosaic.andi, Idealize.ShloMosaic.cmpi, IntOp.andi_eq_one] at e
  obtain ⟨⟨⟨⟨⟨⟨⟨-, r0⟩, r1⟩, r2⟩, r3⟩, r4⟩, r5⟩, r6⟩ := e
  intro b i
  match i with
  | ⟨0, _⟩ => exact word_lt a0 0 (by omega) 6 (by norm_num) _ _ _ _ _ r0 b
  | ⟨1, _⟩ => exact word_lt a0 1 (by omega) 4 (by norm_num) _ _ _ _ _ r1 b
  | ⟨2, _⟩ => exact word_lt a0 2 (by omega) 4 (by norm_num) _ _ _ _ _ r2 b
  | ⟨3, _⟩ => exact word_lt a0 3 (by omega) 4 (by norm_num) _ _ _ _ _ r3 b
  | ⟨4, _⟩ => exact word_lt a0 4 (by omega) 6 (by norm_num) _ _ _ _ _ r4 b
  | ⟨5, _⟩ => exact word_lt a0 5 (by omega) 4 (by norm_num) _ _ _ _ _ r5 b
  | ⟨6, _⟩ => exact word_lt a0 6 (by omega) 4 (by norm_num) _ _ _ _ _ r6 b

/-- From the precondition, all ones, to the range of every categorical word. -/
theorem inRange_of_fn {F : FTy → Type} [FloatOps F]
    (a0 : IVec S16384x7 32) (a1 : FVec F S16384x2 .f32) (a2 : FVec F S6x8 .f32) (a3 a4 a5 : FVec F S4x8 .f32)
    (a6 : FVec F S6x8 .f32) (a7 a8 : FVec F S4x8 .f32) (a9 : FVec F S58x128 .f32) (a10 : FVec F S128 .f32)
    (a11 : FVec F S128x128 .f32) (a12 : FVec F S128 .f32) (a13 : FVec F S128x64 .f32) (a14 : FVec F S64 .f32)
    (h : Cert.Pre_finite_inputs.fn (F := F) a0 a1 a2 a3 a4 a5 a6 a7 a8 a9 a10 a11 a12 a13 a14 = (fun _ => 1#1)) :
    Cert.Tower.InRange a0 := by
  have e := congrFun h ix0
  dsimp only [fn, fn_part1, fn_part2, fn_part3] at e
  exact inRange_of_part4 a0 _ _ e

end Cert.PreRange
-- ==== Proof.RefLayers.lean ====
/-
  The three affine layers of the reference read at one entry, and the first layer's sum over 58 inputs regrouped.

  A product of an m×k by a k×n matrix at (a, b) is the sum over the contracted coordinate c of A[a, c] · B[c, b];
  a bias laid along the rows reads its own entry j at (b, j); the maximum with the zero constant is max · 0. So the
  reference's result at (b, o) is the nested sum the specification writes, over whatever 58 inputs x[b, ·] the
  first layer is given. The sum over 58 inputs is then split as 56 + 2 and the 56 as 7 × 8: feature by feature,
  then the two numeric entries. Only a reindexing of a finite sum: no distributivity.
-/
import proofs.«105925_g50397146251325_cont_8to1_c_54_18_alg».proof.Proof.Spec
import proofs.«105925_g50397146251325_cont_8to1_c_54_18_alg».proof.Proof.RefTerm
import Idealize.ShloMosaic.Lib.StackMember
import Idealize.ShloMosaic.PureOps.Ideal.Laws

noncomputable section

open scoped BigOperators

namespace Cert.ReferenceIdeal.RefValue

open Cert.ReferenceIdeal Cert.ReferenceIdeal.Gen Cert.ReferenceIdeal.RefTerm Cert.Tower
open Idealize.ShloMosaic Idealize.ShloMosaic.ValueIdx Idealize.ShloMosaic.StackMember

/-- The three products are plain matrix products. -/
theorem dot1_eq : dot_S16384x58_S58x128_S16384x128_1_0_0_1_n_n = DotDims.plain 16384 58 128 := rfl
theorem dot2_eq : dot_S16384x128_S128x128_S16384x128_1_0_0_1_n_n = DotDims.plain 16384 128 128 := rfl
theorem dot3_eq : dot_S16384x128_S128x64_S16384x64_1_0_0_1_n_n = DotDims.plain 16384 128 64 := rfl

/-- A vector of length N laid along every row of a 16384 × N array reads its entry j at (b, j). -/
theorem bias_apply {α : Type} {N : Nat} (v : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![16384, N]⟩ (![0, 1] : Fin 2 → Fin 2)) (b : Fin 16384) (j : Fin N) :
    broadcastInDim ⟨2, ![16384, N]⟩ ![0, 1] h2 (broadcastInDim ⟨2, ![1, N]⟩ ![1] h1 v) (ix2 b j) = v (ix1 j) := by
  have hj := j.isLt
  refine (broadcastInDim_apply _ h2 _ (ix2 b j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else b.val; rw [if_pos rfl]
    | ⟨1, _⟩ => show j.val = if N = 1 then 0 else j.val; split <;> omega
  · match a with
    | ⟨0, _⟩ => show j.val = if N = 1 then 0 else j.val; split <;> omega

/-- The maximum with the zero constant. -/
theorem relu_apply (x : FVec Ideal S16384x128 .f32) (i : S16384x128.Idx) : relu x i = max (x i) 0 := by
  unfold relu
  rw [maximumf_apply]
  congr 1
  show Ideal.ofBits .f32 0x00000000#32 = 0
  exact Ideal.ofBits_zero_f32

/-- The three layers at (b, o), over any 58 inputs. -/
theorem layers_apply (x : FVec Ideal S16384x58 .f32) (W1 : FVec Ideal S58x128 .f32) (b1 : FVec Ideal S128 .f32)
    (W2 : FVec Ideal S128x128 .f32) (b2 : FVec Ideal S128 .f32) (W3 : FVec Ideal S128x64 .f32) (b3 : FVec Ideal S64 .f32)
    (b : Fin 16384) (o : Fin 64) :
    layers x W1 b1 W2 b2 W3 b3 (ix2 b o)
      = (∑ k : Fin 128, max ((∑ j : Fin 128, max ((∑ c : Fin 58, x (ix2 b c) * W1 (ix2 c j)) + b1 (ix1 j)) 0 * W2 (ix2 j k))
          + b2 (ix1 k)) 0 * W3 (ix2 k o)) + b3 (ix1 o) := by
  unfold layers
  rw [addf_apply, bias_apply, dot3_eq, dotGeneral_plain_apply]
  refine congrArg (· + b3 (ix1 o)) (Finset.sum_congr rfl fun k _ => ?_)
  rw [relu_apply, addf_apply, bias_apply, dot2_eq, dotGeneral_plain_apply]
  refine congrArg (fun t => max (t + b2 (ix1 k)) 0 * W3 (ix2 k o)) (Finset.sum_congr rfl fun j _ => ?_)
  rw [relu_apply, addf_apply, bias_apply, dot1_eq, dotGeneral_plain_apply]

/-- A sum over 58 inputs, feature by feature and then the two numeric entries. -/
theorem sum58 {M : Type} [AddCommMonoid M] (f : Fin 58 → M) :
    ∑ c : Fin 58, f c = (∑ i : Fin 7, ∑ e : Fin 8, f (w1r i e)) + ∑ k : Fin 2, f (w1n k) := by
  have h56 : ∑ c : Fin (7 * 8), f (Fin.castAdd 2 c) = ∑ i : Fin 7, ∑ e : Fin 8, f (w1r i e) := by
    rw [← Equiv.sum_comp (finProdFinEquiv : Fin 7 × Fin 8 ≃ Fin (7 * 8)), Fintype.sum_prod_type]
    refine Finset.sum_congr rfl fun i _ => Finset.sum_congr rfl fun e _ => congrArg f (Fin.ext ?_)
    show e.val + 8 * i.val = 8 * i.val + e.val
    omega
  have h2 : ∑ k : Fin 2, f (Fin.natAdd 56 k) = ∑ k : Fin 2, f (w1n k) :=
    Finset.sum_congr rfl fun k _ => congrArg f (Fin.ext rfl)
  rw [← h56, ← h2]
  exact Fin.sum_univ_add (a := 56) (b := 2) f

end Cert.ReferenceIdeal.RefValue

end
-- ==== Proof.RefTake.lean ====
/-
  The embedding lookup of the reference, read at one entry, when every word names a row of the table.

  With idx the flat vector of one feature's words and w = idx[b] in [0, R): w is not below zero, so the move-up of
  negative words keeps it; the start index of row b is w; it lies in [0, R − 1], at every row, so the "inside" bit
  — an "and" over an axis of extent one, of bits that are all one — is one and the lookup keeps the gathered row
  rather than the not-a-number fill; and the gather at (b, e) reads the table at the start index clamped into
  [0, R − 1], which is w itself, at column e.
-/
import proofs.«105925_g50397146251325_cont_8to1_c_54_18_alg».proof.Proof.Spec
import proofs.«105925_g50397146251325_cont_8to1_c_54_18_alg».proof.Proof.RefTerm
import proofs.«105925_g50397146251325_cont_8to1_c_54_18_alg».proof.Proof.ColRead
import Idealize.ShloMosaic.PureOps.Reduce
import Idealize.ShloMosaic.Lib.Affine

noncomputable section

namespace Cert.ReferenceIdeal.RefValue

open Cert.ReferenceIdeal Cert.ReferenceIdeal.Gen Cert.ReferenceIdeal.RefTerm Cert.Tower
open Idealize.ShloMosaic Idealize.ShloMosaic.ValueIdx

/-- A left fold by "and" from one over bits that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduction by "and" from one of an array of bits that are all one is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

/-- The dimension numbers of a row lookup: table [R, 8], start indices [16384, 1], result [16384, 8]. -/
abbrev rowDims (R : Nat)
    (wf : GatherDims.WF ⟨2, ![R, 8]⟩ ⟨2, ![16384, 1]⟩ ⟨2, ![16384, 8]⟩ [1] [0] [] [0] [] 1 ![1, 8]) :
    GatherDims ⟨2, ![R, 8]⟩ ⟨2, ![16384, 1]⟩ ⟨2, ![16384, 8]⟩ where
  offsetDims := [1]
  collapsedSliceDims := [0]
  operandBatchingDims := []
  startIndicesBatchingDims := []
  startIndexMap := [0]
  indexVectorDim := 1
  sliceSizes := ![1, 8]
  wf := wf

/-- The row lookup at (b, e): the table at the start index of row b, read signed and clamped into [0, R − 1],
    and column e. -/
theorem gather_row_apply {α : Type} {R w : Nat}
    (wf : GatherDims.WF ⟨2, ![R, 8]⟩ ⟨2, ![16384, 1]⟩ ⟨2, ![16384, 8]⟩ [1] [0] [] [0] [] 1 ![1, 8])
    (x : (⟨2, ![R, 8]⟩ : Shape).Idx → α) (idx : IVec ⟨2, ![16384, 1]⟩ w) (b : Fin 16384) (e : Fin 8) (r : Fin R)
    (hr : r.val = min (idx (ix2 b (0 : Fin 1))).toInt.toNat (R - 1)) :
    Host.gather (rowDims R wf) x idx (ix2 b e) = x (ix2 r e) := by
  unfold Host.gather
  congr 1
  funext a
  refine Fin.ext ?_
  show (rowDims R wf).start (ix2 b e) idx a + (rowDims R wf).batchCoord (ix2 b e) a + (rowDims R wf).offCoord (ix2 b e) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims R wf).startIndexMap from List.mem_singleton.mpr rfl)]
    have hsi : (rowDims R wf).siIdx (ix2 b e) ⟨List.idxOf (⟨0, by decide⟩ : Fin 2) (rowDims R wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    exact hr.symm
  | ⟨1, _⟩ =>
    have hs : (rowDims R wf).start (ix2 b e) idx ⟨1, Nat.one_lt_two⟩ = 0 := by
      unfold GatherDims.start
      rw [dif_neg (fun h => absurd (congrArg Fin.val (List.mem_singleton.mp h)) Nat.one_ne_zero)]
    have ho : (rowDims R wf).offCoord (ix2 b e) ⟨1, Nat.one_lt_two⟩ = e.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hs, ho, Nat.zero_add]

/-- A word below 2^31 reads the same signed and unsigned. -/
theorem toInt_of_lt (w : BitVec 32) (hw : w.toNat < 2 ^ 31) : w.toInt = (w.toNat : Int) := by
  rw [BitVec.toInt_eq_toNat_cond]
  split <;> omega

/-- A word that is not below zero is kept by the move-up of negative words. -/
theorem wrap_apply (v : BitVec 32) (idx : IVec S16384 32) (b : Fin 16384) (hw : (idx (ix1 b)).toNat < 2 ^ 31) :
    wrap v idx (ix1 b) = idx (ix1 b) := by
  unfold wrap
  rw [select_apply]
  have h0 : cmpi .slt idx (broadcastInDim S16384 ![] bcast_S_S16384 (constantI S_ 32 0#32)) (ix1 b) = 0#1 := by
    refine eq_zero_of_ne_one fun h => ?_
    have h' : IntOp.cmpi .slt (idx (ix1 b)) 0#32 = 1#1 := h
    have hz : (0#32 : BitVec 32).toInt = 0 := by decide
    rw [IntOp.cmpi_slt, toInt_of_lt _ hw, hz] at h'
    omega
  rw [h0, select_zero]

/-- The start index of row b is the wrapped word of row b. -/
theorem col_apply (v : BitVec 32) (idx : IVec S16384 32) (b : Fin 16384) (z : Fin 1) :
    col v idx (ix2 b z) = wrap v idx (ix1 b) := by
  unfold col
  refine broadcastInDim_apply _ _ _ (ix2 b z) (ix1 b) fun a => ?_
  match a with
  | ⟨0, _⟩ => show b.val = if (16384 : Nat) = 1 then 0 else b.val; rw [if_neg (by decide)]

/-- Start indices that all lie in [0, R − 1] are all inside. -/
theorem inside_apply (R : Nat) (hR : 0 < R) (hR' : R < 2 ^ 31) (top : BitVec 32) (htop : top.toNat = R - 1)
    (c : IVec S16384x1 32) (hc : ∀ i, (c i).toNat < R) (j : S16384.Idx) : inside top c j = 1#1 := by
  unfold inside
  refine reduce_andi_ones _ _ _ _ (fun i => ?_) (fun _ => rfl) j
  show IntOp.andi (IntOp.cmpi .sge (c i) 0#32) (IntOp.cmpi .sle (c i) top) = 1#1
  have hz : (0#32 : BitVec 32).toInt = 0 := by decide
  have hi := hc i
  rw [IntOp.andi_eq_one, IntOp.cmpi_sge, IntOp.cmpi_sle, toInt_of_lt (c i) (by omega), toInt_of_lt top (by omega), hz]
  constructor <;> omega

/-- THE LOOKUP AT (b, e): row idx[b] of the table, when every word of idx names a row. -/
theorem take_apply (R : Nat) (hR : 0 < R) (hR' : R < 2 ^ 31) (v top : BitVec 32) (htop : top.toNat = R - 1)
    (wf : GatherDims.WF ⟨2, ![R, 8]⟩ ⟨2, ![16384, 1]⟩ ⟨2, ![16384, 8]⟩ [1] [0] [] [0] [] 1 ![1, 8])
    (T : FVec Ideal ⟨2, ![R, 8]⟩ .f32) (idx : IVec S16384 32) (hall : ∀ b, (idx (ix1 b)).toNat < R)
    (b : Fin 16384) (e : Fin 8) :
    select (broadcastInDim S16384x8 ![0] bcast_S16384_S16384x8_0 (inside top (col v idx)))
      (Host.gather (rowDims R wf) T (col v idx))
      (broadcastInDim S16384x8 ![] bcast_S_S16384x8 (constant S_ .f32 0x7FC00000#32)) (ix2 b e)
      = row T (idx (ix1 b)) e := by
  have hcol : ∀ i : S16384x1.Idx, col v idx i = idx (ix1 (i 0)) := fun i => by
    obtain ⟨b', z, rfl⟩ : ∃ (b' : Fin 16384) (z : Fin 1), i = ix2 b' z := ⟨i 0, i 1, eq_ix2 i⟩
    rw [col_apply, wrap_apply _ _ _ (by have := hall b'; omega)]
  rw [select_apply]
  have hin : broadcastInDim S16384x8 ![0] bcast_S16384_S16384x8_0 (inside top (col v idx)) (ix2 b e) = 1#1 := by
    unfold broadcastInDim
    exact inside_apply R hR hR' top htop _ (fun i => by rw [hcol]; exact hall _) _
  have hw := hall b
  rw [hin, select_one, gather_row_apply wf T (col v idx) b e ⟨(idx (ix1 b)).toNat, hw⟩ (by
    rw [hcol]
    show (idx (ix1 b)).toNat = min (idx (ix1 b)).toInt.toNat (R - 1)
    rw [toInt_of_lt _ (by omega), Int.toNat_natCast]
    omega)]
  unfold row
  rw [dif_pos hw]

/-- Column i of the categorical array at row b. -/
theorem catCol_apply (uc : IVec S16384x7 32) (i : Fin 7) (b : Fin 16384) : catCol uc i (ix1 b) = uc (ix2 b i) := by
  match i with
  | ⟨0, _⟩ => exact Cert.ColRead.col_apply uc 0 (by decide) _ _ b
  | ⟨1, _⟩ => exact Cert.ColRead.col_apply uc 1 (by decide) _ _ b
  | ⟨2, _⟩ => exact Cert.ColRead.col_apply uc 2 (by decide) _ _ b
  | ⟨3, _⟩ => exact Cert.ColRead.col_apply uc 3 (by decide) _ _ b
  | ⟨4, _⟩ => exact Cert.ColRead.col_apply uc 4 (by decide) _ _ b
  | ⟨5, _⟩ => exact Cert.ColRead.col_apply uc 5 (by decide) _ _ b
  | ⟨6, _⟩ => exact Cert.ColRead.col_apply uc 6 (by decide) _ _ b

/-- The lookup in a table of six rows. -/
theorem take6_apply (T : FVec Ideal S6x8 .f32) (idx : IVec S16384 32) (hall : ∀ b, (idx (ix1 b)).toNat < 6)
    (b : Fin 16384) (e : Fin 8) : take6 T idx (ix2 b e) = row T (idx (ix1 b)) e := by
  unfold take6
  exact take_apply 6 (by decide) (by decide) 6#32 5#32 (by decide) gather_S6x8_S16384x1_S16384x8_1_0_n_n_0_1_18_wf T idx hall b e

/-- The lookup in a table of four rows. -/
theorem take4_apply (T : FVec Ideal S4x8 .f32) (idx : IVec S16384 32) (hall : ∀ b, (idx (ix1 b)).toNat < 4)
    (b : Fin 16384) (e : Fin 8) : take4 T idx (ix2 b e) = row T (idx (ix1 b)) e := by
  unfold take4
  exact take_apply 4 (by decide) (by decide) 4#32 3#32 (by decide) gather_S4x8_S16384x1_S16384x8_1_0_n_n_0_1_18_wf T idx hall b e

end Cert.ReferenceIdeal.RefValue

end
-- ==== Proof.RefValue.lean ====
/-
  The reference computes the specification's function, entry by entry, when every categorical word names a row of
  its table.

  The 58 inputs of the first layer at row b are the seven looked-up rows side by side and then the two numeric
  entries: input 8 i + e is entry e of the row feature i looks up, input 56 + k is numeric entry k. The three layers
  at (b, o) are the nested sums of the specification over those inputs, and the first sum, over 58 inputs, regroups
  as the specification writes it: feature by feature, then the numeric entries.
-/
import proofs.«105925_g50397146251325_cont_8to1_c_54_18_alg».proof.Proof.Spec
import proofs.«105925_g50397146251325_cont_8to1_c_54_18_alg».proof.Proof.RefTerm
import proofs.«105925_g50397146251325_cont_8to1_c_54_18_alg».proof.Proof.RefLayers
import proofs.«105925_g50397146251325_cont_8to1_c_54_18_alg».proof.Proof.RefTake

noncomputable section

open scoped BigOperators

namespace Cert.ReferenceIdeal.RefValue

open Cert.ReferenceIdeal Cert.ReferenceIdeal.Gen Cert.ReferenceIdeal.RefTerm Cert.Tower
open Idealize.ShloMosaic Idealize.ShloMosaic.ValueIdx

/-- Seven blocks of width 8, as the list a concatenation takes. -/
abbrev blocks7 {α : Type} (p0 p1 p2 p3 p4 p5 p6 : S16384x8.Idx → α) : List ((s : Shape) × (s.Idx → α)) :=
  [⟨S16384x8, p0⟩, ⟨S16384x8, p1⟩, ⟨S16384x8, p2⟩, ⟨S16384x8, p3⟩, ⟨S16384x8, p4⟩, ⟨S16384x8, p5⟩, ⟨S16384x8, p6⟩]

/-- Seven blocks of width 8 side by side: column 8 n + e is column e of block n. -/
theorem cat7_at {α : Type} (p0 p1 p2 p3 p4 p5 p6 : S16384x8.Idx → α) (b : Fin 16384) (e : Fin 8) (n : Nat) (hn : n < 7)
    (x : S16384x8.Idx → α) (hx : (blocks7 p0 p1 p2 p3 p4 p5 p6)[n]'hn = ⟨S16384x8, x⟩) :
    concatenate S16384x56 1 (blocks7 p0 p1 p2 p3 p4 p5 p6)
        concatenates_S16384x8_S16384x8_S16384x8_S16384x8_S16384x8_S16384x8_S16384x8_S16384x56_d1
        (ix2 b ⟨8 * n + e.val, by omega⟩) = x (ix2 b e) :=
  concatenate_apply_piece (t := S16384x56) 1 (blocks7 p0 p1 p2 p3 p4 p5 p6)
    concatenates_S16384x8_S16384x8_S16384x8_S16384x8_S16384x8_S16384x8_S16384x8_S16384x56_d1
    (ix2 b ⟨8 * n + e.val, by omega⟩) n hn S16384x8 x hx rfl (8 * n)
    (by interval_cases n <;> rfl) (ix2 b e)
    (fun c hc => by
      match c with
      | ⟨0, _⟩ => rfl
      | ⟨1, _⟩ => exact absurd (Fin.ext rfl) hc) rfl

/-- A block of width 56 and a block of width 2 side by side: column c below 56 is column c of the first. -/
theorem cat2_left {α : Type} (x : S16384x56.Idx → α) (y : S16384x2.Idx → α) (b : Fin 16384) (c : Fin 56) :
    concatenate S16384x58 1 [⟨S16384x56, x⟩, ⟨S16384x2, y⟩] concatenates_S16384x56_S16384x2_S16384x58_d1
        (ix2 b ⟨c.val, by omega⟩) = x (ix2 b c) := by
  exact concatenate_apply_piece (t := S16384x58) 1 [⟨S16384x56, x⟩, ⟨S16384x2, y⟩]
    concatenates_S16384x56_S16384x2_S16384x58_d1 (ix2 b ⟨c.val, by omega⟩) 0 Nat.zero_lt_two S16384x56 x rfl rfl 0 rfl (ix2 b c)
    (fun a ha => by
      match a with
      | ⟨0, _⟩ => rfl
      | ⟨1, _⟩ => exact absurd (Fin.ext rfl) ha) (Nat.zero_add _)

/-- … and column 56 + k is column k of the second. -/
theorem cat2_right {α : Type} (x : S16384x56.Idx → α) (y : S16384x2.Idx → α) (b : Fin 16384) (k : Fin 2) :
    concatenate S16384x58 1 [⟨S16384x56, x⟩, ⟨S16384x2, y⟩] concatenates_S16384x56_S16384x2_S16384x58_d1
        (ix2 b ⟨56 + k.val, by omega⟩) = y (ix2 b k) := by
  exact concatenate_apply_piece (t := S16384x58) 1 [⟨S16384x56, x⟩, ⟨S16384x2, y⟩]
    concatenates_S16384x56_S16384x2_S16384x58_d1 (ix2 b ⟨56 + k.val, by omega⟩) 1 Nat.one_lt_two S16384x2 y rfl rfl 56 rfl (ix2 b k)
    (fun a ha => by
      match a with
      | ⟨0, _⟩ => rfl
      | ⟨1, _⟩ => exact absurd (Fin.ext rfl) ha) rfl

section
variable (uc : IVec S16384x7 32) (un : FVec Ideal S16384x2 .f32) (T0 : FVec Ideal S6x8 .f32)
  (T1 T2 T3 : FVec Ideal S4x8 .f32) (T4 : FVec Ideal S6x8 .f32) (T5 T6 : FVec Ideal S4x8 .f32)

/-- Input 56 + k of row b is numeric entry k. -/
theorem feat_w1n (b : Fin 16384) (k : Fin 2) :
    feat uc un T0 T1 T2 T3 T4 T5 T6 (ix2 b (w1n k)) = un (ix2 b k) := by
  unfold feat
  exact cat2_right _ un b k

/-- Input 8 i + e of row b is entry e of the row feature i looks up. -/
theorem feat_w1r (hr : InRange uc) (b : Fin 16384) (i : Fin 7) (e : Fin 8) :
    feat uc un T0 T1 T2 T3 T4 T5 T6 (ix2 b (w1r i e))
      = emb T0 T1 T2 T3 T4 T5 T6 (fun i => uc (ix2 b i)) i e := by
  unfold feat
  refine (cat2_left _ un b ⟨8 * i.val + e.val, by omega⟩).trans ?_
  match i with
  | ⟨0, _⟩ =>
    refine (cat7_at _ _ _ _ _ _ _ b e 0 (by norm_num) (take6 T0 (catCol uc 0)) rfl).trans ?_
    rw [take6_apply T0 _ (fun b' => by rw [catCol_apply]; exact hr b' 0), catCol_apply]
    rfl
  | ⟨1, _⟩ =>
    refine (cat7_at _ _ _ _ _ _ _ b e 1 (by norm_num) (take4 T1 (catCol uc 1)) rfl).trans ?_
    rw [take4_apply T1 _ (fun b' => by rw [catCol_apply]; exact hr b' 1), catCol_apply]
    rfl
  | ⟨2, _⟩ =>
    refine (cat7_at _ _ _ _ _ _ _ b e 2 (by norm_num) (take4 T2 (catCol uc 2)) rfl).trans ?_
    rw [take4_apply T2 _ (fun b' => by rw [catCol_apply]; exact hr b' 2), catCol_apply]
    rfl
  | ⟨3, _⟩ =>
    refine (cat7_at _ _ _ _ _ _ _ b e 3 (by norm_num) (take4 T3 (catCol uc 3)) rfl).trans ?_
    rw [take4_apply T3 _ (fun b' => by rw [catCol_apply]; exact hr b' 3), catCol_apply]
    rfl
  | ⟨4, _⟩ =>
    refine (cat7_at _ _ _ _ _ _ _ b e 4 (by norm_num) (take6 T4 (catCol uc 4)) rfl).trans ?_
    rw [take6_apply T4 _ (fun b' => by rw [catCol_apply]; exact hr b' 4), catCol_apply]
    rfl
  | ⟨5, _⟩ =>
    refine (cat7_at _ _ _ _ _ _ _ b e 5 (by norm_num) (take4 T5 (catCol uc 5)) rfl).trans ?_
    rw [take4_apply T5 _ (fun b' => by rw [catCol_apply]; exact hr b' 5), catCol_apply]
    rfl
  | ⟨6, _⟩ =>
    refine (cat7_at _ _ _ _ _ _ _ b e 6 (by norm_num) (take4 T6 (catCol uc 6)) rfl).trans ?_
    rw [take4_apply T6 _ (fun b' => by rw [catCol_apply]; exact hr b' 6), catCol_apply]
    rfl

end

/-- The specification's result array at (b, o). -/
theorem tower_apply (T0 : Arr2 6 8) (T1 T2 T3 : Arr2 4 8) (T4 : Arr2 6 8) (T5 T6 : Arr2 4 8)
    (W1 : Arr2 58 128) (b1 : Arr1 128) (W2 : Arr2 128 128) (b2 : Arr1 128) (W3 : Arr2 128 64) (b3 : Arr1 64)
    (uc : (⟨2, ![16384, 7]⟩ : Shape).Idx → BitVec 32) (un : Arr2 16384 2) (b : Fin 16384) (o : Fin 64) :
    tower T0 T1 T2 T3 T4 T5 T6 W1 b1 W2 b2 W3 b3 uc un (ix2 b o)
      = out T0 T1 T2 T3 T4 T5 T6 W1 b1 W2 b2 W3 b3 (fun i => uc (ix2 b i)) (fun k => un (ix2 b k)) o := rfl

/-- THE REFERENCE'S RESULT IS THE SPECIFICATION'S. -/
theorem refOut_eq_tower (uc : IVec S16384x7 32) (un : FVec Ideal S16384x2 .f32) (T0 : FVec Ideal S6x8 .f32)
    (T1 T2 T3 : FVec Ideal S4x8 .f32) (T4 : FVec Ideal S6x8 .f32) (T5 T6 : FVec Ideal S4x8 .f32)
    (W1 : FVec Ideal S58x128 .f32) (b1 : FVec Ideal S128 .f32) (W2 : FVec Ideal S128x128 .f32) (b2 : FVec Ideal S128 .f32)
    (W3 : FVec Ideal S128x64 .f32) (b3 : FVec Ideal S64 .f32) (hr : Cert.Tower.InRange uc) :
    Cert.ReferenceIdeal.RefTerm.refOut (F := Ideal) uc un T0 T1 T2 T3 T4 T5 T6 W1 b1 W2 b2 W3 b3
      = Cert.Tower.tower T0 T1 T2 T3 T4 T5 T6 W1 b1 W2 b2 W3 b3 uc un := by
  funext y
  obtain ⟨b, o, rfl⟩ : ∃ (b : Fin 16384) (o : Fin 64), y = ix2 b o := ⟨y 0, y 1, eq_ix2 y⟩
  unfold refOut
  rw [layers_apply, tower_apply]
  unfold Cert.Tower.out Cert.Tower.h2 Cert.Tower.h1 Cert.Tower.pre1
  refine congrArg (· + b3 (ix1 o)) (Finset.sum_congr rfl fun k _ => ?_)
  refine congrArg (fun t => max (t + b2 (ix1 k)) 0 * W3 (ix2 k o)) (Finset.sum_congr rfl fun j _ => ?_)
  refine congrArg (fun t => max (t + b1 (ix1 j)) 0 * W2 (ix2 j k)) ?_
  rw [sum58]
  refine congrArg₂ (· + ·) ?_ ?_
  · refine Finset.sum_congr rfl fun i _ => Finset.sum_congr rfl fun e _ => ?_
    rw [feat_w1r uc un T0 T1 T2 T3 T4 T5 T6 hr]
  · refine Finset.sum_congr rfl fun k' _ => ?_
    rw [feat_w1n]

end Cert.ReferenceIdeal.RefValue

end
-- ==== Proof.lean ====
/-
  The five claims about the user tower — seven embedding lookups and two numeric entries per batch row, laid side by
  side and sent through three affine layers, the first two followed by a maximum with zero.

  Three of the claims say that a program runs to its end with its argument arrays unchanged: the kernel program word
  by word, the same program read over the extended reals, and the reference program over the extended reals. The
  fourth says the kernel program read over the extended reals is the word-level program's own text: no operation was
  rewritten, so there is nothing to show. The fifth says that over the extended reals, from memories that agree on the
  fifteen arguments and whose categorical words each name a row of their table, the kernel program and the reference
  program end with equal result arrays.

  Both results are shown equal to one function of the arguments, the tower of the specification: entry (b, o) is output
  o of the three layers on batch row b. The kernel program transposes the batch onto the columns, computes the tower
  column by column in two halves of 8192 columns, and transposes back; the reference program computes it by whole-array
  operations. Each side's sums are brought to the specification's grouping by commutativity and associativity of
  addition on the extended reals, with 0 · x = 0, 1 · x = x and x + 0 = x for the lookups; no distributivity is used,
  so infinite entries are covered. The precondition puts every categorical word inside its table: there the kernel
  program's selection of a table row, by comparing the word with the row numbers, picks exactly one row, and the
  reference program's lookup by index reads that same row.
-/
import proofs.«105925_g50397146251325_cont_8to1_c_54_18_alg».proof.Defs
import proofs.«105925_g50397146251325_cont_8to1_c_54_18_alg».proof.Proof.Gen.Kernel
import proofs.«105925_g50397146251325_cont_8to1_c_54_18_alg».proof.Proof.Gen.Kernel.Skeleton
import proofs.«105925_g50397146251325_cont_8to1_c_54_18_alg».proof.Proof.Gen.Kernel.Launch
import proofs.«105925_g50397146251325_cont_8to1_c_54_18_alg».proof.Proof.Gen.Kernel.Points
import proofs.«105925_g50397146251325_cont_8to1_c_54_18_alg».proof.Proof.Gen.Kernel.Frame
import proofs.«105925_g50397146251325_cont_8to1_c_54_18_alg».proof.Proof.Gen.KernelIdeal
import proofs.«105925_g50397146251325_cont_8to1_c_54_18_alg».proof.Proof.Gen.KernelIdeal.Skeleton
import proofs.«105925_g50397146251325_cont_8to1_c_54_18_alg».proof.Proof.Gen.KernelIdeal.Launch
import proofs.«105925_g50397146251325_cont_8to1_c_54_18_alg».proof.Proof.Gen.KernelIdeal.Points
import proofs.«105925_g50397146251325_cont_8to1_c_54_18_alg».proof.Proof.Gen.KernelIdeal.Frame
import proofs.«105925_g50397146251325_cont_8to1_c_54_18_alg».proof.Proof.Gen.ReferenceIdeal
import proofs.«105925_g50397146251325_cont_8to1_c_54_18_alg».proof.Proof.Gen.Pre_finite_inputs
import proofs.«105925_g50397146251325_cont_8to1_c_54_18_alg».proof.Proof.Spec
import proofs.«105925_g50397146251325_cont_8to1_c_54_18_alg».proof.Proof.KArr
import proofs.«105925_g50397146251325_cont_8to1_c_54_18_alg».proof.Proof.RefRun
import proofs.«105925_g50397146251325_cont_8to1_c_54_18_alg».proof.Proof.PreRange
import proofs.«105925_g50397146251325_cont_8to1_c_54_18_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference program: its run, with what it says of the result array dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The kernel program over the extended reals is the word-level program's own text: no operation was rewritten. -/
theorem preserves : Cert.preserves_Kernel_KernelIdeal := trivial

/-- Over the extended reals, on arguments that agree and whose categorical words are in range, the kernel program's
    result array and the reference program's are both the tower of the arguments. -/
theorem algebraic : Cert.algebraic_KernelIdeal_ReferenceIdeal := by
  intro m ρ m' ρ' hpre hagree
  have hr : ∀ c : Dev Cert.KernelIdeal.nD, Cert.Tower.InRange
      (m ((c.tc : Thread Cert.KernelIdeal.nD Cert.KernelIdeal.τ).loc Cert.KernelIdeal.main_arg0)) :=
    fun c => Cert.PreRange.inRange_of_fn _ _ _ _ _ _ _ _ _ _ _ _ _ _ _ (hpre c)
  refine ⟨fun c => Cert.Tower.tower
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KArr.run m ρ hr, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact Cert.ReferenceIdeal.RefValue.refOut_eq_tower _ _ _ _ _ _ _ _ _ _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
